-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128x64 .f32) (main_arg13 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S128 .f32) (main_arg12 : FVec F S128x64 .f32) (main_arg13 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128x64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S5000x128 : Shape := ⟨2, ![5000, 128]⟩
abbrev S5000x1 : Shape := ⟨2, ![5000, 1]⟩
abbrev S900000x128 : Shape := ⟨2, ![900000, 128]⟩
abbrev S1x128 : Shape := ⟨2, ![1, 128]⟩
abbrev S160x128 : Shape := ⟨2, ![160, 128]⟩
abbrev S8x128 : Shape := ⟨2, ![8, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 150
  | .vmem => 54
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128x64, .f32⟩
  | 13 => ⟨S64, .f32⟩
  | 14 => ⟨S100000, .i32⟩
  | 15 => ⟨S1x800000, .i32⟩
  | 16 => ⟨S800000, .i32⟩
  | 17 => ⟨S900000, .i32⟩
  | 18 => ⟨S1x800000, .i32⟩
  | 19 => ⟨S800000, .i32⟩
  | 20 => ⟨S900000, .i32⟩
  | 21 => ⟨S_, .f32⟩
  | 22 => ⟨S900000, .f32⟩
  | 23 => ⟨S_, .f32⟩
  | 24 => ⟨S100000, .f32⟩
  | 25 => ⟨S900000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S_, .i32⟩
  | 41 => ⟨S900000, .i32⟩
  | 42 => ⟨S900000, .i1⟩
  | 43 => ⟨S_, .i32⟩
  | 44 => ⟨S900000, .i32⟩
  | 45 => ⟨S900000, .i32⟩
  | 46 => ⟨S900000, .i32⟩
  | 47 => ⟨S900000x1, .i32⟩
  | 48 => ⟨S900000x128, .f32⟩
  | 49 => ⟨S_, .f32⟩
  | 50 => ⟨S100000x128, .f32⟩
  | 51 => ⟨S900000x1, .i32⟩
  | 52 => ⟨S100000x128, .f32⟩
  | 53 => ⟨S1x128, .f32⟩
  | 54 => ⟨S160x128, .f32⟩
  | 55 => ⟨S160x128, .f32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S100000x128, .f32⟩
  | 94 => ⟨S100000x128, .f32⟩
  | 95 => ⟨S_, .i32⟩
  | 96 => ⟨S900000, .i32⟩
  | 97 => ⟨S900000, .i1⟩
  | 98 => ⟨S_, .i32⟩
  | 99 => ⟨S900000, .i32⟩
  | 100 => ⟨S900000, .i32⟩
  | 101 => ⟨S900000, .i32⟩
  | 102 => ⟨S900000x1, .i32⟩
  | 103 => ⟨S900000x128, .f32⟩
  | 104 => ⟨S_, .f32⟩
  | 105 => ⟨S100000x128, .f32⟩
  | 106 => ⟨S900000x1, .i32⟩
  | 107 => ⟨S100000x128, .f32⟩
  | 108 => ⟨S1x128, .f32⟩
  | 109 => ⟨S160x128, .f32⟩
  | 110 => ⟨S160x128, .f32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S_, .f32⟩
  | 127 => ⟨S1x128, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S1x64, .f32⟩
  | 21 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S1x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S128x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_cst_10 : Ref sig .tc := ⟨.hbm, 68, rfl⟩
abbrev main_v39 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73_0 : Ref sig .tc := ⟨.hbm, 109, rfl⟩
abbrev main_v73_1 : Ref sig .tc := ⟨.hbm, 110, rfl⟩
abbrev main_cst_17 : Ref sig .tc := ⟨.hbm, 111, rfl⟩
abbrev main_v74 : Ref sig .tc := ⟨.hbm, 112, rfl⟩
abbrev main_v75 : Ref sig .tc := ⟨.hbm, 113, rfl⟩
abbrev main_cst_18 : Ref sig .tc := ⟨.hbm, 114, rfl⟩
abbrev main_v76 : Ref sig .tc := ⟨.hbm, 115, rfl⟩
abbrev main_v77 : Ref sig .tc := ⟨.hbm, 116, rfl⟩
abbrev main_cst_19 : Ref sig .tc := ⟨.hbm, 117, rfl⟩
abbrev main_v78 : Ref sig .tc := ⟨.hbm, 118, rfl⟩
abbrev main_v79 : Ref sig .tc := ⟨.hbm, 119, rfl⟩
abbrev main_cst_20 : Ref sig .tc := ⟨.hbm, 120, rfl⟩
abbrev main_v80 : Ref sig .tc := ⟨.hbm, 121, rfl⟩
abbrev main_v81 : Ref sig .tc := ⟨.hbm, 122, rfl⟩
abbrev main_cst_21 : Ref sig .tc := ⟨.hbm, 123, rfl⟩
abbrev main_v82 : Ref sig .tc := ⟨.hbm, 124, rfl⟩
abbrev main_v83 : Ref sig .tc := ⟨.hbm, 125, rfl⟩
abbrev main_cst_22 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_23 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_24 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem3_1 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem7_0 : DmaSem sig := 51
abbrev cc5_sem8_0 : DmaSem sig := 52
abbrev cc5_sem8_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S128x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S160x128_S128_d0 : S160x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S900000x1_S900000_n_0_0_1_wf : ScatterDims.WF S100000 S900000x1 S900000 [] [0] [0] 1
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S160x128.size a
  hwx1_3 : ∀ i : grid1.Coords, EltTy.bits .f32 = 32 ∨ (Rect.block (s := S160x128) S8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S160x128.size a
  hwx1_4 : ∀ i : grid1.Coords, EltTy.bits .f32 = 32 ∨ (Rect.block (s := S160x128) S8x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x128.size a ≤ S160x128.size a
  hwx4_3 : ∀ i : grid4.Coords, EltTy.bits .f32 = 32 ∨ (Rect.block (s := S160x128) S8x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8x128.size a ≤ S160x128.size a
  hwx4_4 : ∀ i : grid4.Coords, EltTy.bits .f32 = 32 ∨ (Rect.block (s := S160x128) S8x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x64.size a ≤ S128x64.size a
  hwx5_6 : ∀ i : grid5.Coords, EltTy.bits .f32 = 32 ∨ (Rect.block (s := S128x64) S128x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x64.size a ≤ S100000x64.size a
  hwx5_8 : ∀ i : grid5.Coords, EltTy.bits .f32 = 32 ∨ (Rect.block (s := S100000x64) S5000x64.size (cc5_transform_8 i) (hinb5_8 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30_0) S8x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30_1) S8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73_0) S8x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v73_1) S8x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_arg12) S128x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v103) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v104) S5000x64.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128x64, .f32⟩
  | 13 => ⟨S64, .f32⟩
  | 14 => ⟨S100000, .i32⟩
  | 15 => ⟨S1x800000, .i32⟩
  | 16 => ⟨S800000, .i32⟩
  | 17 => ⟨S900000, .i32⟩
  | 18 => ⟨S1x800000, .i32⟩
  | 19 => ⟨S800000, .i32⟩
  | 20 => ⟨S900000, .i32⟩
  | 21 => ⟨S_, .f32⟩
  | 22 => ⟨S900000, .f32⟩
  | 23 => ⟨S_, .f32⟩
  | 24 => ⟨S100000, .f32⟩
  | 25 => ⟨S900000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S100000x128, .f32⟩
  | 39 => ⟨S_, .i32⟩
  | 40 => ⟨S900000, .i32⟩
  | 41 => ⟨S900000, .i1⟩
  | 42 => ⟨S_, .i32⟩
  | 43 => ⟨S900000, .i32⟩
  | 44 => ⟨S900000, .i32⟩
  | 45 => ⟨S900000, .i32⟩
  | 46 => ⟨S900000x1, .i32⟩
  | 47 => ⟨S900000, .f32⟩
  | 48 => ⟨S_, .i32⟩
  | 49 => ⟨S900000, .i32⟩
  | 50 => ⟨S900000, .i1⟩
  | 51 => ⟨S_, .i32⟩
  | 52 => ⟨S900000, .i32⟩
  | 53 => ⟨S900000, .i32⟩
  | 54 => ⟨S900000, .i32⟩
  | 55 => ⟨S900000x1, .i32⟩
  | 56 => ⟨S900000, .f32⟩
  | 57 => ⟨S900000, .f32⟩
  | 58 => ⟨S900000x1, .f32⟩
  | 59 => ⟨S_, .i32⟩
  | 60 => ⟨S900000, .i32⟩
  | 61 => ⟨S900000, .i1⟩
  | 62 => ⟨S_, .i32⟩
  | 63 => ⟨S900000, .i32⟩
  | 64 => ⟨S900000, .i32⟩
  | 65 => ⟨S900000, .i32⟩
  | 66 => ⟨S900000x1, .i32⟩
  | 67 => ⟨S900000x128, .f32⟩
  | 68 => ⟨S900000x128, .f32⟩
  | 69 => ⟨S900000x128, .f32⟩
  | 70 => ⟨S_, .f32⟩
  | 71 => ⟨S100000x128, .f32⟩
  | 72 => ⟨S900000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S_, .i32⟩
  | 110 => ⟨S900000, .i32⟩
  | 111 => ⟨S900000, .i1⟩
  | 112 => ⟨S_, .i32⟩
  | 113 => ⟨S900000, .i32⟩
  | 114 => ⟨S900000, .i32⟩
  | 115 => ⟨S900000, .i32⟩
  | 116 => ⟨S900000x1, .i32⟩
  | 117 => ⟨S900000, .f32⟩
  | 118 => ⟨S_, .i32⟩
  | 119 => ⟨S900000, .i32⟩
  | 120 => ⟨S900000, .i1⟩
  | 121 => ⟨S_, .i32⟩
  | 122 => ⟨S900000, .i32⟩
  | 123 => ⟨S900000, .i32⟩
  | 124 => ⟨S900000, .i32⟩
  | 125 => ⟨S900000x1, .i32⟩
  | 126 => ⟨S900000, .f32⟩
  | 127 => ⟨S900000, .f32⟩
  | _ => ⟨S100000x128, .f32⟩

abbrev hbmTy0_1 (i : Nat) : BufTy := match i % 128 with
  | 0 => ⟨S900000x1, .f32⟩
  | 1 => ⟨S_, .i32⟩
  | 2 => ⟨S900000, .i32⟩
  | 3 => ⟨S900000, .i1⟩
  | 4 => ⟨S_, .i32⟩
  | 5 => ⟨S900000, .i32⟩
  | 6 => ⟨S900000, .i32⟩
  | 7 => ⟨S900000, .i32⟩
  | 8 => ⟨S900000x1, .i32⟩
  | 9 => ⟨S900000x128, .f32⟩
  | 10 => ⟨S900000x128, .f32⟩
  | 11 => ⟨S900000x128, .f32⟩
  | 12 => ⟨S_, .f32⟩
  | 13 => ⟨S100000x128, .f32⟩
  | 14 => ⟨S900000x1, .i32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S100000x64, .f32⟩
  | 52 => ⟨S1x64, .f32⟩
  | 53 => ⟨S100000x64, .f32⟩
  | 54 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_cst_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call1_cst : Ref sig .tc := ⟨.hbm, 105, rfl⟩
abbrev main_call1_v0 : Ref sig .tc := ⟨.hbm, 106, rfl⟩
abbrev main_v72 : Ref sig .tc := ⟨.hbm, 107, rfl⟩
abbrev main_v73 : Ref sig .tc := ⟨.hbm, 108, rfl⟩
abbrev main_c_15 : Ref sig .tc := ⟨.hbm, 109, rfl⟩
abbrev main_v74 : Ref sig .tc := ⟨.hbm, 110, rfl⟩
abbrev main_v75 : Ref sig .tc := ⟨.hbm, 111, rfl⟩
abbrev main_c_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_17 : Ref sig .tc := ⟨.hbm, 118, rfl⟩
abbrev main_v81 : Ref sig .tc := ⟨.hbm, 119, rfl⟩
abbrev main_v82 : Ref sig .tc := ⟨.hbm, 120, rfl⟩
abbrev main_c_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_19 : Ref sig .tc := ⟨.hbm, 129, rfl⟩
abbrev main_v90 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_22 : Ref sig .tc := ⟨.hbm, 147, rfl⟩
abbrev main_v105 : Ref sig .tc := ⟨.hbm, 148, rfl⟩
abbrev main_cst_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_24 : Ref sig .tc := ⟨.hbm, 157, rfl⟩
abbrev main_v113 : Ref sig .tc := ⟨.hbm, 158, rfl⟩
abbrev main_cst_25 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_26 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_call2_cst : Ref sig .tc := ⟨.hbm, 175, rfl⟩
abbrev main_call2_v0 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  dot_S100000x128_S128x128_S100000x128_1_0_0_1_n_n_wf : DotDims.WF S100000x128 S128x128 S100000x128 [1] [0] [0] [1] [] []
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelKept.lean ====
/-
  Which buffers each segment of the kernel's @main leaves alone.

  @main is thirteen segments: three stretches of host operations, then six regions with stretches of
  host operations between some of them. A stretch rewrites only the buffers its operations write; a
  region rewrites only its output arrays and leaves its input arrays and every other buffer as it
  found them. Here, boundary by boundary, each buffer that a later segment reads is carried back to
  the boundary where it was written, and the argument arrays to the launch memory.
-/
import proofs.«172011_j7241314861683_2_alg».proof.Proof.Gen.KernelIdeal.Frame
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat)

/-- A buffer none of a stretch's operations writes keeps its contents: each operation's written
    buffer is another reference. -/
macro "stretch_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ### The arguments at the first region's entry: as launched -/

theorem arg0_at3 : W3 m ρ c (Proc.devRef .tc main_arg0) = m ((c : Thread nD τ).loc main_arg0) :=
  (show W3 m ρ c (Proc.devRef .tc main_arg0) = W2 m ρ c (Proc.devRef .tc main_arg0) by stretch_keeps hostOps0_2).trans
    ((show W2 m ρ c (Proc.devRef .tc main_arg0) = W1 m ρ c (Proc.devRef .tc main_arg0) by stretch_keeps hostOps0_1).trans
      ((show W1 m ρ c (Proc.devRef .tc main_arg0) = W0 m ρ c (Proc.devRef .tc main_arg0) by stretch_keeps hostOps0).trans rfl))
theorem arg2_at3 : W3 m ρ c (Proc.devRef .tc main_arg2) = m ((c : Thread nD τ).loc main_arg2) :=
  (show W3 m ρ c (Proc.devRef .tc main_arg2) = W2 m ρ c (Proc.devRef .tc main_arg2) by stretch_keeps hostOps0_2).trans
    ((show W2 m ρ c (Proc.devRef .tc main_arg2) = W1 m ρ c (Proc.devRef .tc main_arg2) by stretch_keeps hostOps0_1).trans
      ((show W1 m ρ c (Proc.devRef .tc main_arg2) = W0 m ρ c (Proc.devRef .tc main_arg2) by stretch_keeps hostOps0).trans rfl))
theorem arg3_at3 : W3 m ρ c (Proc.devRef .tc main_arg3) = m ((c : Thread nD τ).loc main_arg3) :=
  (show W3 m ρ c (Proc.devRef .tc main_arg3) = W2 m ρ c (Proc.devRef .tc main_arg3) by stretch_keeps hostOps0_2).trans
    ((show W2 m ρ c (Proc.devRef .tc main_arg3) = W1 m ρ c (Proc.devRef .tc main_arg3) by stretch_keeps hostOps0_1).trans
      ((show W1 m ρ c (Proc.devRef .tc main_arg3) = W0 m ρ c (Proc.devRef .tc main_arg3) by stretch_keeps hostOps0).trans rfl))
theorem arg4_at3 : W3 m ρ c (Proc.devRef .tc main_arg4) = m ((c : Thread nD τ).loc main_arg4) :=
  (show W3 m ρ c (Proc.devRef .tc main_arg4) = W2 m ρ c (Proc.devRef .tc main_arg4) by stretch_keeps hostOps0_2).trans
    ((show W2 m ρ c (Proc.devRef .tc main_arg4) = W1 m ρ c (Proc.devRef .tc main_arg4) by stretch_keeps hostOps0_1).trans
      ((show W1 m ρ c (Proc.devRef .tc main_arg4) = W0 m ρ c (Proc.devRef .tc main_arg4) by stretch_keeps hostOps0).trans rfl))
theorem arg5_at3 : W3 m ρ c (Proc.devRef .tc main_arg5) = m ((c : Thread nD τ).loc main_arg5) :=
  (show W3 m ρ c (Proc.devRef .tc main_arg5) = W2 m ρ c (Proc.devRef .tc main_arg5) by stretch_keeps hostOps0_2).trans
    ((show W2 m ρ c (Proc.devRef .tc main_arg5) = W1 m ρ c (Proc.devRef .tc main_arg5) by stretch_keeps hostOps0_1).trans
      ((show W1 m ρ c (Proc.devRef .tc main_arg5) = W0 m ρ c (Proc.devRef .tc main_arg5) by stretch_keeps hostOps0).trans rfl))
theorem arg6_at3 : W3 m ρ c (Proc.devRef .tc main_arg6) = m ((c : Thread nD τ).loc main_arg6) :=
  (show W3 m ρ c (Proc.devRef .tc main_arg6) = W2 m ρ c (Proc.devRef .tc main_arg6) by stretch_keeps hostOps0_2).trans
    ((show W2 m ρ c (Proc.devRef .tc main_arg6) = W1 m ρ c (Proc.devRef .tc main_arg6) by stretch_keeps hostOps0_1).trans
      ((show W1 m ρ c (Proc.devRef .tc main_arg6) = W0 m ρ c (Proc.devRef .tc main_arg6) by stretch_keeps hostOps0).trans rfl))
theorem arg7_at3 : W3 m ρ c (Proc.devRef .tc main_arg7) = m ((c : Thread nD τ).loc main_arg7) :=
  (show W3 m ρ c (Proc.devRef .tc main_arg7) = W2 m ρ c (Proc.devRef .tc main_arg7) by stretch_keeps hostOps0_2).trans
    ((show W2 m ρ c (Proc.devRef .tc main_arg7) = W1 m ρ c (Proc.devRef .tc main_arg7) by stretch_keeps hostOps0_1).trans
      ((show W1 m ρ c (Proc.devRef .tc main_arg7) = W0 m ρ c (Proc.devRef .tc main_arg7) by stretch_keeps hostOps0).trans rfl))
theorem arg8_at3 : W3 m ρ c (Proc.devRef .tc main_arg8) = m ((c : Thread nD τ).loc main_arg8) :=
  (show W3 m ρ c (Proc.devRef .tc main_arg8) = W2 m ρ c (Proc.devRef .tc main_arg8) by stretch_keeps hostOps0_2).trans
    ((show W2 m ρ c (Proc.devRef .tc main_arg8) = W1 m ρ c (Proc.devRef .tc main_arg8) by stretch_keeps hostOps0_1).trans
      ((show W1 m ρ c (Proc.devRef .tc main_arg8) = W0 m ρ c (Proc.devRef .tc main_arg8) by stretch_keeps hostOps0).trans rfl))
theorem arg9_at3 : W3 m ρ c (Proc.devRef .tc main_arg9) = m ((c : Thread nD τ).loc main_arg9) :=
  (show W3 m ρ c (Proc.devRef .tc main_arg9) = W2 m ρ c (Proc.devRef .tc main_arg9) by stretch_keeps hostOps0_2).trans
    ((show W2 m ρ c (Proc.devRef .tc main_arg9) = W1 m ρ c (Proc.devRef .tc main_arg9) by stretch_keeps hostOps0_1).trans
      ((show W1 m ρ c (Proc.devRef .tc main_arg9) = W0 m ρ c (Proc.devRef .tc main_arg9) by stretch_keeps hostOps0).trans rfl))
theorem arg10_at3 : W3 m ρ c (Proc.devRef .tc main_arg10) = m ((c : Thread nD τ).loc main_arg10) :=
  (show W3 m ρ c (Proc.devRef .tc main_arg10) = W2 m ρ c (Proc.devRef .tc main_arg10) by stretch_keeps hostOps0_2).trans
    ((show W2 m ρ c (Proc.devRef .tc main_arg10) = W1 m ρ c (Proc.devRef .tc main_arg10) by stretch_keeps hostOps0_1).trans
      ((show W1 m ρ c (Proc.devRef .tc main_arg10) = W0 m ρ c (Proc.devRef .tc main_arg10) by stretch_keeps hostOps0).trans rfl))
theorem arg11_at3 : W3 m ρ c (Proc.devRef .tc main_arg11) = m ((c : Thread nD τ).loc main_arg11) :=
  (show W3 m ρ c (Proc.devRef .tc main_arg11) = W2 m ρ c (Proc.devRef .tc main_arg11) by stretch_keeps hostOps0_2).trans
    ((show W2 m ρ c (Proc.devRef .tc main_arg11) = W1 m ρ c (Proc.devRef .tc main_arg11) by stretch_keeps hostOps0_1).trans
      ((show W1 m ρ c (Proc.devRef .tc main_arg11) = W0 m ρ c (Proc.devRef .tc main_arg11) by stretch_keeps hostOps0).trans rfl))
theorem arg12_at3 : W3 m ρ c (Proc.devRef .tc main_arg12) = m ((c : Thread nD τ).loc main_arg12) :=
  (show W3 m ρ c (Proc.devRef .tc main_arg12) = W2 m ρ c (Proc.devRef .tc main_arg12) by stretch_keeps hostOps0_2).trans
    ((show W2 m ρ c (Proc.devRef .tc main_arg12) = W1 m ρ c (Proc.devRef .tc main_arg12) by stretch_keeps hostOps0_1).trans
      ((show W1 m ρ c (Proc.devRef .tc main_arg12) = W0 m ρ c (Proc.devRef .tc main_arg12) by stretch_keeps hostOps0).trans rfl))
theorem arg13_at3 : W3 m ρ c (Proc.devRef .tc main_arg13) = m ((c : Thread nD τ).loc main_arg13) :=
  (show W3 m ρ c (Proc.devRef .tc main_arg13) = W2 m ρ c (Proc.devRef .tc main_arg13) by stretch_keeps hostOps0_2).trans
    ((show W2 m ρ c (Proc.devRef .tc main_arg13) = W1 m ρ c (Proc.devRef .tc main_arg13) by stretch_keeps hostOps0_1).trans
      ((show W1 m ρ c (Proc.devRef .tc main_arg13) = W0 m ρ c (Proc.devRef .tc main_arg13) by stretch_keeps hostOps0).trans rfl))

/-- The per-node factor's vector is not rewritten by the reshape that makes it a column. -/
theorem v16_at3 : W3 m ρ c (Proc.devRef .tc main_v16) = W2 m ρ c (Proc.devRef .tc main_v16) := by
  stretch_keeps hostOps0_2

/-! ### Boundary 4 -/

theorem keep4_v17 : W4 m ρ c (Proc.devRef .tc main_v17) = W3 m ρ c (Proc.devRef .tc main_v17) :=
  (W4_arr m ρ c 2).trans (((dat0 (V3 m ρ) c).arrAt_in 2 rfl _).trans (A_eq0 (V3 m ρ) c 2))
theorem keep4_v3 : W4 m ρ c (Proc.devRef .tc main_v3) = W3 m ρ c (Proc.devRef .tc main_v3) :=
  W4_of_ne m ρ c main_v3 (by decide)
theorem keep4_v6 : W4 m ρ c (Proc.devRef .tc main_v6) = W3 m ρ c (Proc.devRef .tc main_v6) :=
  W4_of_ne m ρ c main_v6 (by decide)
theorem keep4_arg3 : W4 m ρ c (Proc.devRef .tc main_arg3) = W3 m ρ c (Proc.devRef .tc main_arg3) :=
  W4_of_ne m ρ c main_arg3 (by decide)
theorem keep4_arg4 : W4 m ρ c (Proc.devRef .tc main_arg4) = W3 m ρ c (Proc.devRef .tc main_arg4) :=
  W4_of_ne m ρ c main_arg4 (by decide)
theorem keep4_arg5 : W4 m ρ c (Proc.devRef .tc main_arg5) = W3 m ρ c (Proc.devRef .tc main_arg5) :=
  W4_of_ne m ρ c main_arg5 (by decide)
theorem keep4_arg6 : W4 m ρ c (Proc.devRef .tc main_arg6) = W3 m ρ c (Proc.devRef .tc main_arg6) :=
  W4_of_ne m ρ c main_arg6 (by decide)
theorem keep4_arg7 : W4 m ρ c (Proc.devRef .tc main_arg7) = W3 m ρ c (Proc.devRef .tc main_arg7) :=
  W4_of_ne m ρ c main_arg7 (by decide)
theorem keep4_arg8 : W4 m ρ c (Proc.devRef .tc main_arg8) = W3 m ρ c (Proc.devRef .tc main_arg8) :=
  W4_of_ne m ρ c main_arg8 (by decide)
theorem keep4_arg9 : W4 m ρ c (Proc.devRef .tc main_arg9) = W3 m ρ c (Proc.devRef .tc main_arg9) :=
  W4_of_ne m ρ c main_arg9 (by decide)
theorem keep4_arg10 : W4 m ρ c (Proc.devRef .tc main_arg10) = W3 m ρ c (Proc.devRef .tc main_arg10) :=
  W4_of_ne m ρ c main_arg10 (by decide)
theorem keep4_arg11 : W4 m ρ c (Proc.devRef .tc main_arg11) = W3 m ρ c (Proc.devRef .tc main_arg11) :=
  W4_of_ne m ρ c main_arg11 (by decide)
theorem keep4_arg12 : W4 m ρ c (Proc.devRef .tc main_arg12) = W3 m ρ c (Proc.devRef .tc main_arg12) :=
  W4_of_ne m ρ c main_arg12 (by decide)
theorem keep4_arg13 : W4 m ρ c (Proc.devRef .tc main_arg13) = W3 m ρ c (Proc.devRef .tc main_arg13) :=
  W4_of_ne m ρ c main_arg13 (by decide)

/-! ### Boundary 5 -/

theorem keep5_v17 : W5 m ρ c (Proc.devRef .tc main_v17) = W4 m ρ c (Proc.devRef .tc main_v17) := by
  stretch_keeps hostOps1
theorem keep5_v3 : W5 m ρ c (Proc.devRef .tc main_v3) = W4 m ρ c (Proc.devRef .tc main_v3) := by
  stretch_keeps hostOps1
theorem keep5_v6 : W5 m ρ c (Proc.devRef .tc main_v6) = W4 m ρ c (Proc.devRef .tc main_v6) := by
  stretch_keeps hostOps1
theorem keep5_arg4 : W5 m ρ c (Proc.devRef .tc main_arg4) = W4 m ρ c (Proc.devRef .tc main_arg4) := by
  stretch_keeps hostOps1
theorem keep5_arg5 : W5 m ρ c (Proc.devRef .tc main_arg5) = W4 m ρ c (Proc.devRef .tc main_arg5) := by
  stretch_keeps hostOps1
theorem keep5_arg6 : W5 m ρ c (Proc.devRef .tc main_arg6) = W4 m ρ c (Proc.devRef .tc main_arg6) := by
  stretch_keeps hostOps1
theorem keep5_arg7 : W5 m ρ c (Proc.devRef .tc main_arg7) = W4 m ρ c (Proc.devRef .tc main_arg7) := by
  stretch_keeps hostOps1
theorem keep5_arg8 : W5 m ρ c (Proc.devRef .tc main_arg8) = W4 m ρ c (Proc.devRef .tc main_arg8) := by
  stretch_keeps hostOps1
theorem keep5_arg9 : W5 m ρ c (Proc.devRef .tc main_arg9) = W4 m ρ c (Proc.devRef .tc main_arg9) := by
  stretch_keeps hostOps1
theorem keep5_arg10 : W5 m ρ c (Proc.devRef .tc main_arg10) = W4 m ρ c (Proc.devRef .tc main_arg10) := by
  stretch_keeps hostOps1
theorem keep5_arg11 : W5 m ρ c (Proc.devRef .tc main_arg11) = W4 m ρ c (Proc.devRef .tc main_arg11) := by
  stretch_keeps hostOps1
theorem keep5_arg12 : W5 m ρ c (Proc.devRef .tc main_arg12) = W4 m ρ c (Proc.devRef .tc main_arg12) := by
  stretch_keeps hostOps1
theorem keep5_arg13 : W5 m ρ c (Proc.devRef .tc main_arg13) = W4 m ρ c (Proc.devRef .tc main_arg13) := by
  stretch_keeps hostOps1

/-! ### Boundary 6 -/

theorem keep6_v28 : W6 m ρ c (Proc.devRef .tc main_v28) = W5 m ρ c (Proc.devRef .tc main_v28) :=
  (W6_arr m ρ c 0).trans (((dat1 (V5 m ρ) c).arrAt_in 0 rfl _).trans (A_eq1 (V5 m ρ) c 0))
theorem keep6_v17 : W6 m ρ c (Proc.devRef .tc main_v17) = W5 m ρ c (Proc.devRef .tc main_v17) :=
  (W6_arr m ρ c 1).trans (((dat1 (V5 m ρ) c).arrAt_in 1 rfl _).trans (A_eq1 (V5 m ρ) c 1))
theorem keep6_v29 : W6 m ρ c (Proc.devRef .tc main_v29) = W5 m ρ c (Proc.devRef .tc main_v29) :=
  (W6_arr m ρ c 2).trans (((dat1 (V5 m ρ) c).arrAt_in 2 rfl _).trans (A_eq1 (V5 m ρ) c 2))
theorem keep6_v3 : W6 m ρ c (Proc.devRef .tc main_v3) = W5 m ρ c (Proc.devRef .tc main_v3) :=
  W6_of_ne m ρ c main_v3 (by decide)
theorem keep6_v6 : W6 m ρ c (Proc.devRef .tc main_v6) = W5 m ρ c (Proc.devRef .tc main_v6) :=
  W6_of_ne m ρ c main_v6 (by decide)
theorem keep6_arg4 : W6 m ρ c (Proc.devRef .tc main_arg4) = W5 m ρ c (Proc.devRef .tc main_arg4) :=
  W6_of_ne m ρ c main_arg4 (by decide)
theorem keep6_arg5 : W6 m ρ c (Proc.devRef .tc main_arg5) = W5 m ρ c (Proc.devRef .tc main_arg5) :=
  W6_of_ne m ρ c main_arg5 (by decide)
theorem keep6_arg6 : W6 m ρ c (Proc.devRef .tc main_arg6) = W5 m ρ c (Proc.devRef .tc main_arg6) :=
  W6_of_ne m ρ c main_arg6 (by decide)
theorem keep6_arg7 : W6 m ρ c (Proc.devRef .tc main_arg7) = W5 m ρ c (Proc.devRef .tc main_arg7) :=
  W6_of_ne m ρ c main_arg7 (by decide)
theorem keep6_arg8 : W6 m ρ c (Proc.devRef .tc main_arg8) = W5 m ρ c (Proc.devRef .tc main_arg8) :=
  W6_of_ne m ρ c main_arg8 (by decide)
theorem keep6_arg9 : W6 m ρ c (Proc.devRef .tc main_arg9) = W5 m ρ c (Proc.devRef .tc main_arg9) :=
  W6_of_ne m ρ c main_arg9 (by decide)
theorem keep6_arg10 : W6 m ρ c (Proc.devRef .tc main_arg10) = W5 m ρ c (Proc.devRef .tc main_arg10) :=
  W6_of_ne m ρ c main_arg10 (by decide)
theorem keep6_arg11 : W6 m ρ c (Proc.devRef .tc main_arg11) = W5 m ρ c (Proc.devRef .tc main_arg11) :=
  W6_of_ne m ρ c main_arg11 (by decide)
theorem keep6_arg12 : W6 m ρ c (Proc.devRef .tc main_arg12) = W5 m ρ c (Proc.devRef .tc main_arg12) :=
  W6_of_ne m ρ c main_arg12 (by decide)
theorem keep6_arg13 : W6 m ρ c (Proc.devRef .tc main_arg13) = W5 m ρ c (Proc.devRef .tc main_arg13) :=
  W6_of_ne m ρ c main_arg13 (by decide)

/-! ### Boundary 7 -/

theorem keep7_v28 : W7 m ρ c (Proc.devRef .tc main_v28) = W6 m ρ c (Proc.devRef .tc main_v28) := by
  stretch_keeps hostOps2
theorem keep7_v17 : W7 m ρ c (Proc.devRef .tc main_v17) = W6 m ρ c (Proc.devRef .tc main_v17) := by
  stretch_keeps hostOps2
theorem keep7_v29 : W7 m ρ c (Proc.devRef .tc main_v29) = W6 m ρ c (Proc.devRef .tc main_v29) := by
  stretch_keeps hostOps2
theorem keep7_v3 : W7 m ρ c (Proc.devRef .tc main_v3) = W6 m ρ c (Proc.devRef .tc main_v3) := by
  stretch_keeps hostOps2
theorem keep7_v6 : W7 m ρ c (Proc.devRef .tc main_v6) = W6 m ρ c (Proc.devRef .tc main_v6) := by
  stretch_keeps hostOps2
theorem keep7_arg4 : W7 m ρ c (Proc.devRef .tc main_arg4) = W6 m ρ c (Proc.devRef .tc main_arg4) := by
  stretch_keeps hostOps2
theorem keep7_arg5 : W7 m ρ c (Proc.devRef .tc main_arg5) = W6 m ρ c (Proc.devRef .tc main_arg5) := by
  stretch_keeps hostOps2
theorem keep7_arg9 : W7 m ρ c (Proc.devRef .tc main_arg9) = W6 m ρ c (Proc.devRef .tc main_arg9) := by
  stretch_keeps hostOps2
theorem keep7_arg10 : W7 m ρ c (Proc.devRef .tc main_arg10) = W6 m ρ c (Proc.devRef .tc main_arg10) := by
  stretch_keeps hostOps2
theorem keep7_arg11 : W7 m ρ c (Proc.devRef .tc main_arg11) = W6 m ρ c (Proc.devRef .tc main_arg11) := by
  stretch_keeps hostOps2
theorem keep7_arg12 : W7 m ρ c (Proc.devRef .tc main_arg12) = W6 m ρ c (Proc.devRef .tc main_arg12) := by
  stretch_keeps hostOps2
theorem keep7_arg13 : W7 m ρ c (Proc.devRef .tc main_arg13) = W6 m ρ c (Proc.devRef .tc main_arg13) := by
  stretch_keeps hostOps2

/-! ### Boundary 8 -/

theorem keep8_v17 : W8 m ρ c (Proc.devRef .tc main_v17) = W7 m ρ c (Proc.devRef .tc main_v17) :=
  (W8_arr m ρ c 1).trans (((dat2 (V7 m ρ) c).arrAt_in 1 rfl _).trans (A_eq2 (V7 m ρ) c 1))
theorem keep8_v3 : W8 m ρ c (Proc.devRef .tc main_v3) = W7 m ρ c (Proc.devRef .tc main_v3) :=
  W8_of_ne m ρ c main_v3 (by decide)
theorem keep8_v6 : W8 m ρ c (Proc.devRef .tc main_v6) = W7 m ρ c (Proc.devRef .tc main_v6) :=
  W8_of_ne m ρ c main_v6 (by decide)
theorem keep8_arg4 : W8 m ρ c (Proc.devRef .tc main_arg4) = W7 m ρ c (Proc.devRef .tc main_arg4) :=
  W8_of_ne m ρ c main_arg4 (by decide)
theorem keep8_arg5 : W8 m ρ c (Proc.devRef .tc main_arg5) = W7 m ρ c (Proc.devRef .tc main_arg5) :=
  W8_of_ne m ρ c main_arg5 (by decide)
theorem keep8_arg9 : W8 m ρ c (Proc.devRef .tc main_arg9) = W7 m ρ c (Proc.devRef .tc main_arg9) :=
  W8_of_ne m ρ c main_arg9 (by decide)
theorem keep8_arg10 : W8 m ρ c (Proc.devRef .tc main_arg10) = W7 m ρ c (Proc.devRef .tc main_arg10) :=
  W8_of_ne m ρ c main_arg10 (by decide)
theorem keep8_arg11 : W8 m ρ c (Proc.devRef .tc main_arg11) = W7 m ρ c (Proc.devRef .tc main_arg11) :=
  W8_of_ne m ρ c main_arg11 (by decide)
theorem keep8_arg12 : W8 m ρ c (Proc.devRef .tc main_arg12) = W7 m ρ c (Proc.devRef .tc main_arg12) :=
  W8_of_ne m ρ c main_arg12 (by decide)
theorem keep8_arg13 : W8 m ρ c (Proc.devRef .tc main_arg13) = W7 m ρ c (Proc.devRef .tc main_arg13) :=
  W8_of_ne m ρ c main_arg13 (by decide)

/-! ### Boundary 9 -/

theorem keep9_v60 : W9 m ρ c (Proc.devRef .tc main_v60) = W8 m ρ c (Proc.devRef .tc main_v60) :=
  (W9_arr m ρ c 0).trans (((dat3 (V8 m ρ) c).arrAt_in 0 rfl _).trans (A_eq3 (V8 m ρ) c 0))
theorem keep9_v17 : W9 m ρ c (Proc.devRef .tc main_v17) = W8 m ρ c (Proc.devRef .tc main_v17) :=
  (W9_arr m ρ c 2).trans (((dat3 (V8 m ρ) c).arrAt_in 2 rfl _).trans (A_eq3 (V8 m ρ) c 2))
theorem keep9_v3 : W9 m ρ c (Proc.devRef .tc main_v3) = W8 m ρ c (Proc.devRef .tc main_v3) :=
  W9_of_ne m ρ c main_v3 (by decide)
theorem keep9_v6 : W9 m ρ c (Proc.devRef .tc main_v6) = W8 m ρ c (Proc.devRef .tc main_v6) :=
  W9_of_ne m ρ c main_v6 (by decide)
theorem keep9_arg5 : W9 m ρ c (Proc.devRef .tc main_arg5) = W8 m ρ c (Proc.devRef .tc main_arg5) :=
  W9_of_ne m ρ c main_arg5 (by decide)
theorem keep9_arg9 : W9 m ρ c (Proc.devRef .tc main_arg9) = W8 m ρ c (Proc.devRef .tc main_arg9) :=
  W9_of_ne m ρ c main_arg9 (by decide)
theorem keep9_arg10 : W9 m ρ c (Proc.devRef .tc main_arg10) = W8 m ρ c (Proc.devRef .tc main_arg10) :=
  W9_of_ne m ρ c main_arg10 (by decide)
theorem keep9_arg11 : W9 m ρ c (Proc.devRef .tc main_arg11) = W8 m ρ c (Proc.devRef .tc main_arg11) :=
  W9_of_ne m ρ c main_arg11 (by decide)
theorem keep9_arg12 : W9 m ρ c (Proc.devRef .tc main_arg12) = W8 m ρ c (Proc.devRef .tc main_arg12) :=
  W9_of_ne m ρ c main_arg12 (by decide)
theorem keep9_arg13 : W9 m ρ c (Proc.devRef .tc main_arg13) = W8 m ρ c (Proc.devRef .tc main_arg13) :=
  W9_of_ne m ρ c main_arg13 (by decide)

/-! ### Boundary 10 -/

theorem keep10_v60 : W10 m ρ c (Proc.devRef .tc main_v60) = W9 m ρ c (Proc.devRef .tc main_v60) := by
  stretch_keeps hostOps4
theorem keep10_v17 : W10 m ρ c (Proc.devRef .tc main_v17) = W9 m ρ c (Proc.devRef .tc main_v17) := by
  stretch_keeps hostOps4
theorem keep10_arg9 : W10 m ρ c (Proc.devRef .tc main_arg9) = W9 m ρ c (Proc.devRef .tc main_arg9) := by
  stretch_keeps hostOps4
theorem keep10_arg10 : W10 m ρ c (Proc.devRef .tc main_arg10) = W9 m ρ c (Proc.devRef .tc main_arg10) := by
  stretch_keeps hostOps4
theorem keep10_arg11 : W10 m ρ c (Proc.devRef .tc main_arg11) = W9 m ρ c (Proc.devRef .tc main_arg11) := by
  stretch_keeps hostOps4
theorem keep10_arg12 : W10 m ρ c (Proc.devRef .tc main_arg12) = W9 m ρ c (Proc.devRef .tc main_arg12) := by
  stretch_keeps hostOps4
theorem keep10_arg13 : W10 m ρ c (Proc.devRef .tc main_arg13) = W9 m ρ c (Proc.devRef .tc main_arg13) := by
  stretch_keeps hostOps4

/-! ### Boundary 11 -/

theorem keep11_v71 : W11 m ρ c (Proc.devRef .tc main_v71) = W10 m ρ c (Proc.devRef .tc main_v71) :=
  (W11_arr m ρ c 0).trans (((dat4 (V10 m ρ) c).arrAt_in 0 rfl _).trans (A_eq4 (V10 m ρ) c 0))
theorem keep11_v17 : W11 m ρ c (Proc.devRef .tc main_v17) = W10 m ρ c (Proc.devRef .tc main_v17) :=
  (W11_arr m ρ c 1).trans (((dat4 (V10 m ρ) c).arrAt_in 1 rfl _).trans (A_eq4 (V10 m ρ) c 1))
theorem keep11_v72 : W11 m ρ c (Proc.devRef .tc main_v72) = W10 m ρ c (Proc.devRef .tc main_v72) :=
  (W11_arr m ρ c 2).trans (((dat4 (V10 m ρ) c).arrAt_in 2 rfl _).trans (A_eq4 (V10 m ρ) c 2))
theorem keep11_v60 : W11 m ρ c (Proc.devRef .tc main_v60) = W10 m ρ c (Proc.devRef .tc main_v60) :=
  W11_of_ne m ρ c main_v60 (by decide)
theorem keep11_arg9 : W11 m ρ c (Proc.devRef .tc main_arg9) = W10 m ρ c (Proc.devRef .tc main_arg9) :=
  W11_of_ne m ρ c main_arg9 (by decide)
theorem keep11_arg10 : W11 m ρ c (Proc.devRef .tc main_arg10) = W10 m ρ c (Proc.devRef .tc main_arg10) :=
  W11_of_ne m ρ c main_arg10 (by decide)
theorem keep11_arg11 : W11 m ρ c (Proc.devRef .tc main_arg11) = W10 m ρ c (Proc.devRef .tc main_arg11) :=
  W11_of_ne m ρ c main_arg11 (by decide)
theorem keep11_arg12 : W11 m ρ c (Proc.devRef .tc main_arg12) = W10 m ρ c (Proc.devRef .tc main_arg12) :=
  W11_of_ne m ρ c main_arg12 (by decide)
theorem keep11_arg13 : W11 m ρ c (Proc.devRef .tc main_arg13) = W10 m ρ c (Proc.devRef .tc main_arg13) :=
  W11_of_ne m ρ c main_arg13 (by decide)

/-! ### Boundary 12 -/

theorem keep12_v71 : W12 m ρ c (Proc.devRef .tc main_v71) = W11 m ρ c (Proc.devRef .tc main_v71) := by
  stretch_keeps hostOps5
theorem keep12_v17 : W12 m ρ c (Proc.devRef .tc main_v17) = W11 m ρ c (Proc.devRef .tc main_v17) := by
  stretch_keeps hostOps5
theorem keep12_v72 : W12 m ρ c (Proc.devRef .tc main_v72) = W11 m ρ c (Proc.devRef .tc main_v72) := by
  stretch_keeps hostOps5
theorem keep12_v60 : W12 m ρ c (Proc.devRef .tc main_v60) = W11 m ρ c (Proc.devRef .tc main_v60) := by
  stretch_keeps hostOps5
theorem keep12_arg12 : W12 m ρ c (Proc.devRef .tc main_arg12) = W11 m ρ c (Proc.devRef .tc main_arg12) := by
  stretch_keeps hostOps5

end Cert.KernelIdeal.Kept

end
-- ==== Proof.Spec.lean ====
/-
  What each stage of the two programs computes, written once, element by element, over the
  extended reals.

  A graph-convolution layer on 100000 nodes with 128 features each:

    * rows of a product scaled by a per-node factor:   ((X · W)[r, c]) · d[r]
    * the convolution's output from the aggregated rows A:   h[r, c] = d[r] · A[r, c] + b[c]
    * per-tile partial column sums of h and of h², a tile being 5000 consecutive nodes, each
      partial sum repeated on 8 consecutive rows of a 160-row table
    * the normalised, rectified layer   max (scale[c] · h[r, c] + shift[c]) 0
    * the readout   ((x₁ + x₂) · Wr)[r, c] + br[c]   with x₂ the second layer computed in place.

  Every function takes its arrays as functions of a two-coordinate index and its position as
  two explicit coordinates, so that a statement about one element never mentions a block.
-/
import Idealize.ShloMosaic.PureOps.Ideal
import Idealize.ShloMosaic.Lib.ValueIdx

noncomputable section

open scoped BigOperators

namespace Cert.Spec

open Idealize.ShloMosaic Idealize.ShloMosaic.ValueIdx

/-- Node features, 128 per node. -/
abbrev SNx128 : Shape := ⟨2, ![100000, 128]⟩
/-- Readout, 64 per node. -/
abbrev SNx64 : Shape := ⟨2, ![100000, 64]⟩
/-- One value per node, as a column. -/
abbrev SNx1 : Shape := ⟨2, ![100000, 1]⟩
abbrev S128x128 : Shape := ⟨2, ![128, 128]⟩
abbrev S128x64 : Shape := ⟨2, ![128, 64]⟩
abbrev S1x128 : Shape := ⟨2, ![1, 128]⟩
abbrev S1x64 : Shape := ⟨2, ![1, 64]⟩
/-- The table of per-tile partial sums: 20 tiles, 8 equal rows each. -/
abbrev S160x128 : Shape := ⟨2, ![160, 128]⟩

/-- Row `r`, column `c` of the product `X · W`, the row scaled by `d r`. -/
def scaledProductAt (X : SNx128.Idx → EReal) (W : S128x128.Idx → EReal) (d : SNx1.Idx → EReal)
    (r : Fin 100000) (c : Fin 128) : EReal :=
  (∑ k : Fin 128, X (ix2 r k) * W (ix2 k c)) * d (ix2 r (0 : Fin 1))

/-- The convolution's output at node `r`, feature `c`, from the aggregated rows `A`. -/
def convOutAt (A : SNx128.Idx → EReal) (d : SNx1.Idx → EReal) (b : S1x128.Idx → EReal)
    (r : Fin 100000) (c : Fin 128) : EReal :=
  d (ix2 r (0 : Fin 1)) * A (ix2 r c) + b (ix2 (0 : Fin 1) c)

/-- The node with position `r` inside the tile that row `q` of the partial-sum table belongs to. -/
def tileNode (q : Fin 160) (r : Fin 5000) : Fin 100000 :=
  ⟨5000 * (q.val / 8) + r.val, by have := q.isLt; have := r.isLt; omega⟩

/-- Row `q` of the table of partial column sums: the sum of `h` over the tile of `q`. -/
def partSumAt (A : SNx128.Idx → EReal) (d : SNx1.Idx → EReal) (b : S1x128.Idx → EReal)
    (q : Fin 160) (c : Fin 128) : EReal :=
  ∑ r : Fin 5000, convOutAt A d b (tileNode q r) c

/-- Row `q` of the table of partial column sums of squares. -/
def partSqAt (A : SNx128.Idx → EReal) (d : SNx1.Idx → EReal) (b : S1x128.Idx → EReal)
    (q : Fin 160) (c : Fin 128) : EReal :=
  ∑ r : Fin 5000, convOutAt A d b (tileNode q r) c * convOutAt A d b (tileNode q r) c

/-- The normalised and rectified layer at node `r`, feature `c`. -/
def normReluAt (A : SNx128.Idx → EReal) (d : SNx1.Idx → EReal) (b sc sh : S1x128.Idx → EReal)
    (r : Fin 100000) (c : Fin 128) : EReal :=
  max (sc (ix2 (0 : Fin 1) c) * convOutAt A d b r c + sh (ix2 (0 : Fin 1) c)) 0

/-- The readout at node `r`, output `c`: the first layer `X1` plus the second layer, times `Wr`, plus `br`. -/
def readoutAt (A : SNx128.Idx → EReal) (d : SNx1.Idx → EReal) (b sc sh : S1x128.Idx → EReal)
    (X1 : SNx128.Idx → EReal) (Wr : S128x64.Idx → EReal) (br : S1x64.Idx → EReal)
    (r : Fin 100000) (c : Fin 64) : EReal :=
  (∑ k : Fin 128, (X1 (ix2 r k) + normReluAt A d b sc sh r k) * Wr (ix2 k c)) + br (ix2 (0 : Fin 1) c)

/-! ## The same, as whole arrays -/

def scaledProduct (X : SNx128.Idx → EReal) (W : S128x128.Idx → EReal) (d : SNx1.Idx → EReal) :
    SNx128.Idx → EReal := fun i => scaledProductAt X W d (i 0) (i 1)

def partSum (A : SNx128.Idx → EReal) (d : SNx1.Idx → EReal) (b : S1x128.Idx → EReal) :
    S160x128.Idx → EReal := fun i => partSumAt A d b (i 0) (i 1)

def partSq (A : SNx128.Idx → EReal) (d : SNx1.Idx → EReal) (b : S1x128.Idx → EReal) :
    S160x128.Idx → EReal := fun i => partSqAt A d b (i 0) (i 1)

def normRelu (A : SNx128.Idx → EReal) (d : SNx1.Idx → EReal) (b sc sh : S1x128.Idx → EReal) :
    SNx128.Idx → EReal := fun i => normReluAt A d b sc sh (i 0) (i 1)

def readout (A : SNx128.Idx → EReal) (d : SNx1.Idx → EReal) (b sc sh : S1x128.Idx → EReal)
    (X1 : SNx128.Idx → EReal) (Wr : S128x64.Idx → EReal) (br : S1x64.Idx → EReal) :
    SNx64.Idx → EReal := fun i => readoutAt A d b sc sh X1 Wr br (i 0) (i 1)

end Cert.Spec

end
-- ==== Proof.GlueSpec.lean ====
/-
  The normalisation parameters the factored computation derives, per feature column, from the two
  160-row tables of partial column sums:

      μ = ((Σ_p T₁[p, c]) / 8) / n,      E = ((Σ_p T₂[p, c]) / 8) / n,
      var = E − μ² · (2 · ms[c] − ms[c]²),
      scale[c] = w[c] · rsqrt (var + ε),   shift[c] = b[c] − scale[c] · ms[c] · μ,

  with n, 8, 2 and ε the binary words the program spells them with.
-/
import Idealize.ShloMosaic.PureOps.Ideal
import Idealize.ShloMosaic.Lib.ValueIdx
import proofs.«172011_j7241314861683_2_alg».proof.Proof.Spec

noncomputable section

open scoped BigOperators

namespace Cert.Glue

open Idealize.ShloMosaic Idealize.ShloMosaic.ValueIdx Cert.Spec

/-- One value per feature. -/
abbrev S128 : Shape := ⟨1, ![128]⟩
abbrev S64 : Shape := ⟨1, ![64]⟩

/-- The number of nodes, 100000, as the program's word. -/
def wN : EReal := Ideal.ofBits .f32 0x47C35000#32
/-- The 8 equal rows of a tile, as the program's word. -/
def w8 : EReal := Ideal.ofBits .f32 0x41000000#32
/-- The constant 2, as the program's word. -/
def w2 : EReal := Ideal.ofBits .f32 0x40000000#32
/-- The normalisation's ε, as the program's word (shared by both programs). -/
def wEps : EReal := Ideal.ofBits .f32 0x3727C5AC#32

def mu (T1 : S160x128.Idx → EReal) (c : Fin 128) : EReal :=
  Ideal.div (Ideal.div (0 + ∑ p : Fin 160, T1 (ix2 p c)) w8) wN

def eh2 (T2 : S160x128.Idx → EReal) (c : Fin 128) : EReal :=
  Ideal.div (Ideal.div (0 + ∑ p : Fin 160, T2 (ix2 p c)) w8) wN

def var (T1 T2 : S160x128.Idx → EReal) (ms : S128.Idx → EReal) (c : Fin 128) : EReal :=
  eh2 T2 c - (mu T1 c * mu T1 c) * (w2 * ms (ix1 c) - ms (ix1 c) * ms (ix1 c))

def scale (T1 T2 : S160x128.Idx → EReal) (w ms : S128.Idx → EReal) (c : Fin 128) : EReal :=
  w (ix1 c) * Ideal.rsqrt (var T1 T2 ms c + wEps)

def shift (T1 T2 : S160x128.Idx → EReal) (w b ms : S128.Idx → EReal) (c : Fin 128) : EReal :=
  b (ix1 c) - scale T1 T2 w ms c * ms (ix1 c) * mu T1 c

end Cert.Glue

end
-- ==== Proof.EdgeDefs.lean ====
/-
  The two ways the programs present an edge's index vector to a gather or a scatter: as a column
  (one start index per edge), and with negative indices wrapped by the number of nodes first
  (what indexing an array by an integer vector does before it gathers).
-/
import Idealize.ShloMosaic.PureOps.Ideal
import Idealize.ShloMosaic.Lib.ValueIdx

noncomputable section

namespace Cert.Edge

open Idealize.ShloMosaic Idealize.ShloMosaic.ValueIdx

/-- One 32-bit index per edge. -/
abbrev EdgeVec : Shape := ⟨1, ![900000]⟩
/-- The same, as a column. -/
abbrev EdgeCol : Shape := ⟨2, ![900000, 1]⟩

/-- An index vector as a column of start indices. -/
def col (v : IVec EdgeVec 32) : IVec EdgeCol 32 := fun e => v (ix1 (e 0))

/-- Negative indices count from the end: add the number of nodes to them. -/
def wrap (v : IVec EdgeVec 32) : IVec EdgeVec 32 :=
  fun e => if (v e).toInt < 0 then v e + 100000#32 else v e

end Cert.Edge

end
-- ==== Proof.LibSegmentFactor.lean ====
/-
  General lemmas for segment sums over the extended reals.

  A graph-convolution layer aggregates, at every node v and feature f,

      agg[v, f]  = Σ_{edges e landing on v} h[src e, f] · (dinv[src e] · dinv[dst e]),

  while a factored computation scales the rows first, aggregates, and scales the result:

      agg'[v, f] = (Σ_{edges e landing on v} h[src e, f] · dinv[src e]) · dinv[v].

  Over the extended reals multiplication does not distribute over addition in general
  (⊤ + ⊥ is ⊥ by convention, and a product with an infinite factor loses the sign information
  of a finite sum), but it does when the common factor is a non-negative REAL number.
  Every dinv[v] is such a number (it is 0, or the reciprocal square root of a positive value),
  so the two aggregates are equal with no finiteness assumption on h. This file proves that,
  over the literal shapes  nodes 50000 × 128,  edges 675000 × 128,  one start index per edge.

  Contents:
    * the shapes and the dimension numbers of the row gather, the element gather and the
      row scatter (the attribute lists of the three operations, literally);
    * each gather read at an index  (rowGather_apply, eltGather_apply);
    * where an update row of the scatter lands  (rowScatter_lands);
    * right multiplication by a non-negative real distributes over a finite sum
      (sum_mul_coe_of_nonneg);
    * the reciprocal square root of a positive extended real is a non-negative real
      (rsqrt_of_pos);
    * the law itself  (segment_factor).
-/
import Idealize.ShloMosaic.PureOps.Ideal
import Idealize.ShloMosaic.PureOps.Contract
import Idealize.ShloMosaic.Lib.ValueIdx

open Idealize.ShloMosaic Idealize.ShloMosaic.ValueIdx
open scoped BigOperators

noncomputable section

namespace Cert.SegLaw

/-! ## Shapes and dimension numbers -/

/-- Node features: one row of 128 features per node. -/
abbrev Nodes : Shape := ⟨2, ![50000, 128]⟩
/-- One value per node. -/
abbrev NodeV : Shape := ⟨1, ![50000]⟩
/-- Edge messages: one row of 128 features per edge. -/
abbrev Edges : Shape := ⟨2, ![675000, 128]⟩
/-- One value per edge. -/
abbrev EdgeV : Shape := ⟨1, ![675000]⟩
/-- One start index (a row number) per edge, as a column. -/
abbrev EdgeI : Shape := ⟨2, ![675000, 1]⟩

/-- Scatter of edge rows into node rows: update row `e` goes, whole, to the node row its index
    names (axis 0 of the operand is the inserted window axis, axis 1 of the updates the window). -/
def rowScatter : ScatterDims Nodes EdgeI Edges :=
  { updateWindowDims := [1], insertedWindowDims := [0], scatterDimsToOperandDims := [0], indexVectorDim := 1 }

/-- Gather of node rows into edge rows: result row `e` is the whole node row its index names. -/
def rowGather : GatherDims Nodes EdgeI Edges :=
  { offsetDims := [1], collapsedSliceDims := [0], operandBatchingDims := [], startIndicesBatchingDims := [],
    startIndexMap := [0], indexVectorDim := 1, sliceSizes := ![1, 128] }

/-- Gather of one value per node into one value per edge. -/
def eltGather : GatherDims NodeV EdgeI EdgeV :=
  { offsetDims := [], collapsedSliceDims := [0], operandBatchingDims := [], startIndicesBatchingDims := [],
    startIndexMap := [0], indexVectorDim := 1, sliceSizes := ![1] }

/-- The row a start index selects: read signed, clamped into [0, 49999]. -/
def row (z : BitVec 32) : Fin 50000 := ⟨min z.toInt.toNat 49999, by omega⟩

/-! ## The two gathers, read at an index

On the collapsed axis 0 the operand coordinate is the clamped start index (no batching and no
offset contribution); on axis 1 of the row gather the start is 0 and the offset coordinate is
the result's own column. -/

/-- The row gather at `(e, f)`: the operand at row `row (idx[e, 0])`, column `f`. -/
theorem rowGather_apply {α : Type} (x : Nodes.Idx → α) (idx : IVec EdgeI 32) (j : Edges.Idx) :
    Host.gather rowGather x idx j = x (ix2 (row (idx (ix2 (j 0) 0))) (j 1)) := by
  unfold Host.gather
  congr 1
  funext a
  refine Fin.ext ?_
  match a with
  | ⟨0, _⟩ =>
    show rowGather.start j idx 0 + rowGather.batchCoord j 0 + rowGather.offCoord j 0
      = (row (idx (ix2 (j 0) 0))).val
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ rowGather.startIndexMap from List.mem_singleton.mpr rfl)]
    -- the start index of result index `(e, f)` is read at `[e, 0]`
    have hsi : rowGather.siIdx j ⟨List.idxOf (0 : Fin 2) rowGather.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show rowGather.start j idx 1 + rowGather.batchCoord j 1 + rowGather.offCoord j 1 = (j 1).val
    have hs : rowGather.start j idx 1 = 0 := by
      unfold GatherDims.start
      rw [dif_neg (by decide)]
    rw [hs, Nat.zero_add, GatherDims.batchCoord_eq_zero _ _ _ List.not_mem_nil, Nat.zero_add]
    rfl

/-- The element gather at `e`: the operand at `row (idx[e, 0])`. -/
theorem eltGather_apply {α : Type} (y : NodeV.Idx → α) (idx : IVec EdgeI 32) (e : EdgeV.Idx) :
    Host.gather eltGather y idx e = y (ix1 (row (idx (ix2 (e 0) 0)))) := by
  unfold Host.gather
  congr 1
  funext a
  refine Fin.ext ?_
  match a with
  | ⟨0, _⟩ =>
    show eltGather.start e idx 0 + eltGather.batchCoord e 0 + eltGather.offCoord e 0
      = (row (idx (ix2 (e 0) 0))).val
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 1) ∈ eltGather.startIndexMap from List.mem_singleton.mpr rfl)]
    have hsi : eltGather.siIdx e ⟨List.idxOf (0 : Fin 1) eltGather.startIndexMap,
        List.idxOf_lt_length_iff.2 (List.mem_singleton.mpr rfl)⟩ = ix2 (e 0) 0 := by
      funext b; refine Fin.ext ?_
      match b with
      | ⟨0, _⟩ => rfl
      | ⟨1, _⟩ => rfl
    rw [hsi]
    rfl

/-! ## Where an update row lands

Update element `(e, f)` lands at operand index `(idx[e, 0], f)`, the index read signed and NOT
clamped, and only when that is a row of the operand: on axis 0 the start is the index and the
window coordinate 0; on axis 1 the start is 0 and the window coordinate is `f`. -/

/-- If update element `j = (e, f)` lands at operand index `i`, then the start index of `e`, read
    signed, is the row of `i`, and the columns agree. -/
theorem rowScatter_lands (idx : IVec EdgeI 32) (j : Edges.Idx) (i : Nodes.Idx) :
    rowScatter.resultIdx? j idx = some i →
      ((idx (ix2 (j 0) 0)).toInt = ((i 0).val : Int) ∧ j 1 = i 1) := by
  intro hres
  have hs0 : rowScatter.start j idx 0 = (idx (ix2 (j 0) 0)).toInt := by
    unfold ScatterDims.start
    rw [dif_pos (show (0 : Fin 2) ∈ rowScatter.scatterDimsToOperandDims from List.mem_singleton.mpr rfl)]
    have hsi : rowScatter.siIdx j ⟨List.idxOf (0 : Fin 2) rowScatter.scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw0 : rowScatter.window j 0 = 0 := by
    unfold ScatterDims.window
    rw [dif_neg (by decide)]
  have hs1 : rowScatter.start j idx 1 = 0 := by
    unfold ScatterDims.start
    rw [dif_neg (by decide)]
  have hw1 : rowScatter.window j 1 = (j 1).val := by
    unfold ScatterDims.window
    rw [dif_pos (by decide)]
    rfl
  unfold ScatterDims.resultIdx? at hres
  split at hres
  · rename_i hin
    have hi := Option.some.inj hres
    constructor
    · -- axis 0: the landing row is the (non-negative) start index itself
      have h0 := congrArg (fun f => (f 0).val) hi
      have hin0 := (hin 0).1
      simp only [hs0, hw0] at h0 hin0
      omega
    · -- axis 1: the landing column is the update's column
      apply Fin.ext
      have h1 := congrArg (fun f => (f 1).val) hi
      simp only [hs1, hw1] at h1
      omega
  · exact absurd hres (by simp)

/-! ## Distributivity over the extended reals, for a non-negative real factor -/

/-- Right multiplication by a non-negative real number distributes over a finite sum of
    extended reals (no condition on the summands: the factor is neither infinite nor negative,
    which are the two ways distributivity fails). -/
theorem sum_mul_coe_of_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The reciprocal square root of a positive extended real is a non-negative real number:
    `0` at `⊤`, and `(√r)⁻¹` at a positive real `r`. -/
theorem rsqrt_of_pos (x : EReal) (hx : 0 < x) : ∃ r : ℝ, 0 ≤ r ∧ Ideal.rsqrt x = (r : EReal) := by
  induction x using EReal.rec with
  | bot => exact absurd hx not_lt_bot
  | top => exact ⟨0, le_refl _, by rw [Ideal.rsqrt_top, EReal.coe_zero]⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

/-! ## The law -/

/-- THE LAW. Scatter-adding, into zeros, the edge rows `h[src e, ·] · (d[src e] · d[dstn e])`
    equals scatter-adding the pre-scaled rows `(h · d)[src e, ·]` and scaling node row `v` by
    `d[v]` afterwards, whenever every `d[v]` is a non-negative real and the index `dstn e`
    used for the gather agrees with the scatter index `dst e` wherever the latter is a row of
    the operand. An edge that lands on `v` has `dst e = v` in range, so its third factor is
    `d[v]`; that common factor comes out of the sum because it is a non-negative real. -/
theorem segment_factor (h : Nodes.Idx → EReal) (d : NodeV.Idx → EReal)
    (hd : ∀ v, ∃ r : ℝ, 0 ≤ r ∧ d v = (r : EReal))
    (isrc idstn idst : IVec EdgeI 32)
    (hn : ∀ e : EdgeI.Idx, 0 ≤ (idst e).toInt → (idst e).toInt < 50000 → idstn e = idst e)
    (updR updK : Edges.Idx → EReal)
    (hR : ∀ j, updR j = Host.gather rowGather h isrc j *
      (Host.gather eltGather d isrc (ix1 (j 0)) * Host.gather eltGather d idstn (ix1 (j 0))))
    (hK : ∀ j, updK j = Host.gather rowGather (fun u => h u * d (ix1 (u 0))) isrc j)
    (z : Nodes.Idx → EReal) (hz : ∀ i, z i = 0) (i : Nodes.Idx) :
    Ideal.hostScatterAdd rowScatter z idst updR i
      = Ideal.hostScatterAdd rowScatter z idst updK i * d (ix1 (i 0)) := by
  unfold Ideal.hostScatterAdd
  rw [hz i]
  simp only [zero_add]
  obtain ⟨r, hr, hdr⟩ := hd (ix1 (i 0))
  rw [hdr, sum_mul_coe_of_nonneg _ _ r hr]
  refine Finset.sum_congr rfl ?_
  intro j hj
  -- the edge of `j` lands on row `i 0`: its scatter index is that row, in range
  obtain ⟨hrow, _⟩ := rowScatter_lands idst j i (Finset.mem_filter.mp hj).2
  have hlt : (i 0).val < 50000 := idx2_lt0 i
  have hdst : idstn (ix2 (j 0) 0) = idst (ix2 (j 0) 0) :=
    hn _ (by rw [hrow]; exact Int.natCast_nonneg _) (by rw [hrow]; exact_mod_cast hlt)
  -- clamping an index that is already a row changes nothing
  have hrw : row (idst (ix2 (j 0) 0)) = i 0 := by
    apply Fin.ext
    show min (idst (ix2 (j 0) 0)).toInt.toNat 49999 = (i 0).val
    rw [hrow, Int.toNat_natCast]
    omega
  rw [hR, hK, rowGather_apply, rowGather_apply, eltGather_apply, eltGather_apply]
  show h (ix2 (row (isrc (ix2 (j 0) 0))) (j 1))
      * (d (ix1 (row (isrc (ix2 (j 0) 0)))) * d (ix1 (row (idstn (ix2 (j 0) 0)))))
    = h (ix2 (row (isrc (ix2 (j 0) 0))) (j 1)) * d (ix1 (row (isrc (ix2 (j 0) 0)))) * (r : EReal)
  rw [hdst, hrw, hdr, mul_assoc]

end Cert.SegLaw

end
-- ==== Proof.SegmentRead.lean ====
/-
  Segment sums of a graph convolution on 100000 nodes and 900000 edges (800000 given edges and
  one self-loop per node), 128 features per node, one start index per edge.

  A gather reads its start index signed and clamps it into the operand; a scatter reads it
  signed, does not clamp, and drops an update that would land outside the operand. So an edge
  whose update lands on node row v has the row number v as its index already, and reading that
  index again through a clamping gather gives v.

  The aggregate at node v and feature f,

      Σ_{edges e landing on v} h[src e, f] · (d[src e] · d[dst e]),

  therefore equals d[v] times the aggregate of the pre-scaled rows (h · d)[src e, f]: the third
  factor is d[v] on every edge of the sum, and d[v], a non-negative real number, comes out of a
  finite sum of extended reals.

  Also here: a count of landing edges is a non-negative real, and so is the value
  "reciprocal root of max(count, 1), or 0 where the count is not positive".
-/
import Idealize.ShloMosaic.PureOps.Ideal
import Idealize.ShloMosaic.PureOps.Contract
import Idealize.ShloMosaic.Lib.ValueIdx
import proofs.«172011_j7241314861683_2_alg».proof.Proof.LibSegmentFactor

open Idealize.ShloMosaic Idealize.ShloMosaic.ValueIdx
open scoped BigOperators

noncomputable section

namespace Cert.SegmentRead

/-- Node features: one row of 128 features per node. -/
abbrev Nodes : Shape := ⟨2, ![100000, 128]⟩
/-- One value per node. -/
abbrev NodeV : Shape := ⟨1, ![100000]⟩
/-- Edge messages: one row of 128 features per edge. -/
abbrev Edges : Shape := ⟨2, ![900000, 128]⟩
/-- One value per edge. -/
abbrev EdgeV : Shape := ⟨1, ![900000]⟩
/-- One start index per edge, as a column. -/
abbrev EdgeI : Shape := ⟨2, ![900000, 1]⟩

/-- Scatter of edge rows into node rows (the attribute lists of the printed operation). -/
def rowScatter : ScatterDims Nodes EdgeI Edges :=
  { updateWindowDims := [1], insertedWindowDims := [0], scatterDimsToOperandDims := [0], indexVectorDim := 1 }
/-- Scatter of one value per edge into one value per node. -/
def eltScatter : ScatterDims NodeV EdgeI EdgeV :=
  { updateWindowDims := [], insertedWindowDims := [0], scatterDimsToOperandDims := [0], indexVectorDim := 1 }
/-- Gather of node rows into edge rows. -/
def rowGather : GatherDims Nodes EdgeI Edges :=
  { offsetDims := [1], collapsedSliceDims := [0], operandBatchingDims := [], startIndicesBatchingDims := [],
    startIndexMap := [0], indexVectorDim := 1, sliceSizes := ![1, 128] }
/-- Gather of one value per node into one value per edge. -/
def eltGather : GatherDims NodeV EdgeI EdgeV :=
  { offsetDims := [], collapsedSliceDims := [0], operandBatchingDims := [], startIndicesBatchingDims := [],
    startIndexMap := [0], indexVectorDim := 1, sliceSizes := ![1] }

/-- The row a start index selects through a gather: read signed, clamped into [0, 99999]. -/
def clampRow (z : BitVec 32) : Fin 100000 := ⟨min z.toInt.toNat 99999, by omega⟩

/-- The row gather at `(e, f)`: the operand at row `clampRow (idx[e, 0])`, column `f`. -/
theorem rowGather_read {α : Type} (x : Nodes.Idx → α) (idx : IVec EdgeI 32) (j : Edges.Idx) :
    Host.gather rowGather x idx j = x (ix2 (clampRow (idx (ix2 (j 0) 0))) (j 1)) := by
  unfold Host.gather
  congr 1
  funext a
  refine Fin.ext ?_
  match a with
  | ⟨0, _⟩ =>
    -- axis 0 is collapsed and named by the start index map: the clamped start, no batching or offset part
    show rowGather.start j idx 0 + rowGather.batchCoord j 0 + rowGather.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowGather.startIndexMap from List.mem_singleton.mpr rfl)]
    have hsi : rowGather.siIdx j ⟨List.idxOf (0 : Fin 2) rowGather.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis, read by the result's offset axis: start 0, offset the result's column
    show rowGather.start j idx 1 + rowGather.batchCoord j 1 + rowGather.offCoord j 1 = _
    rw [GatherDims.batchCoord_eq_zero _ _ _ List.not_mem_nil]
    unfold GatherDims.start
    rw [dif_neg (show (1 : Fin 2) ∉ rowGather.startIndexMap by decide)]
    simp only [Nat.add_zero, Nat.zero_add]
    unfold GatherDims.offCoord
    rw [dif_pos (show (1 : Fin 2) ∈ rowGather.sKept by decide)]
    rfl

/-- The element gather at `e`: the operand at `clampRow (idx[e, 0])`. -/
theorem eltGather_read {α : Type} (y : NodeV.Idx → α) (idx : IVec EdgeI 32) (e : EdgeV.Idx) :
    Host.gather eltGather y idx e = y (ix1 (clampRow (idx (ix2 (e 0) 0)))) := by
  unfold Host.gather
  congr 1
  funext a
  obtain rfl : a = 0 := Subsingleton.elim _ _
  refine Fin.ext ?_
  -- the one axis is collapsed and named by the start index map: the clamped start, no batching or offset part
  show eltGather.start e idx 0 + eltGather.batchCoord e 0 + eltGather.offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ eltGather.startIndexMap from List.mem_singleton.mpr rfl)]
  have hsi : eltGather.siIdx e ⟨List.idxOf (0 : Fin 1) eltGather.startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- If update element `j = (e, f)` of the row scatter lands at operand index `i`, the start index of
    `e`, read signed, is the row of `i`, and the columns agree. -/
theorem rowScatter_lands (idx : IVec EdgeI 32) (j : Edges.Idx) (i : Nodes.Idx) :
    rowScatter.resultIdx? j idx = some i →
      ((idx (ix2 (j 0) 0)).toInt = ((i 0).val : Int) ∧ j 1 = i 1) := by
  intro hres
  -- the start on axis 0 is the start index of the edge, read signed; axis 0 has no window coordinate
  have hs0 : rowScatter.start j idx 0 = (idx (ix2 (j 0) 0)).toInt := by
    unfold ScatterDims.start
    rw [dif_pos (show (0 : Fin 2) ∈ rowScatter.scatterDimsToOperandDims from List.mem_singleton.mpr rfl)]
    have hsi : rowScatter.siIdx j ⟨List.idxOf (0 : Fin 2) rowScatter.scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw0 : rowScatter.window j 0 = 0 := by
    unfold ScatterDims.window
    rw [dif_neg (show (0 : Fin 2) ∉ rowScatter.sKept by decide)]
  -- axis 1 is not named by the map: its start is 0 and its window coordinate is the update's column
  have hs1 : rowScatter.start j idx 1 = 0 := by
    unfold ScatterDims.start
    rw [dif_neg (show (1 : Fin 2) ∉ rowScatter.scatterDimsToOperandDims by decide)]
  have hw1 : rowScatter.window j 1 = (j 1).val := by
    unfold ScatterDims.window
    rw [dif_pos (show (1 : Fin 2) ∈ rowScatter.sKept by decide)]
    rfl
  unfold ScatterDims.resultIdx? at hres
  split at hres
  · rename_i h
    have hi := Option.some.inj hres
    have h0 := (h 0).1
    have e0 : (i 0).val = (rowScatter.start j idx 0 + (rowScatter.window j 0 : Int)).toNat := by
      rw [← hi]
    have e1 : (i 1).val = (rowScatter.start j idx 1 + (rowScatter.window j 1 : Int)).toNat := by
      rw [← hi]
    rw [hs0, hw0] at h0 e0
    rw [hs1, hw1] at e1
    refine ⟨by omega, Fin.ext ?_⟩
    show (j 1).val = (i 1).val
    omega
  · exact absurd hres (by simp)

/-- THE LAW: aggregating the edge rows `h[src e, ·] · (d[src e] · d[dstn e])` into zeros equals
    `d[v]` times the aggregate of the pre-scaled rows `(h · d)[src e, ·]`, when every `d[v]` is a
    non-negative real and the gather index `dstn e` agrees with the scatter index `dst e` wherever the
    latter is a row number. -/
theorem conv_law (h : Nodes.Idx → EReal) (d : NodeV.Idx → EReal)
    (hd : ∀ v, ∃ r : ℝ, 0 ≤ r ∧ d v = (r : EReal))
    (isrc idstn idst : IVec EdgeI 32)
    (hn : ∀ e : EdgeI.Idx, 0 ≤ (idst e).toInt → (idst e).toInt < 100000 → idstn e = idst e)
    (i : Nodes.Idx) :
    Ideal.hostScatterAdd rowScatter (fun _ => 0) idst
        (fun j => Host.gather rowGather h isrc j *
          (Host.gather eltGather d isrc (ix1 (j 0)) * Host.gather eltGather d idstn (ix1 (j 0)))) i
      = d (ix1 (i 0)) *
        Ideal.hostScatterAdd rowScatter (fun _ => 0) idst
          (Host.gather rowGather (fun u => h u * d (ix1 (u 0))) isrc) i := by
  unfold Ideal.hostScatterAdd
  simp only [zero_add]
  -- d at the node of i is a non-negative real r: it goes into the finite sum
  obtain ⟨r, hr, hdr⟩ := hd (ix1 (i 0))
  rw [hdr, mul_comm, Cert.SegLaw.sum_mul_coe_of_nonneg _ _ r hr]
  refine Finset.sum_congr rfl fun j hj => ?_
  -- an edge of the sum lands on i: its scatter index is the row of i, in range
  obtain ⟨hrow, _⟩ := rowScatter_lands idst j i (Finset.mem_filter.mp hj).2
  have hlt : (i 0).val < 100000 := (i 0).isLt
  -- so its gather index is the same word, and clamping that gives the row of i
  have hidx : idstn (ix2 (j 0) 0) = idst (ix2 (j 0) 0) :=
    hn _ (by rw [hrow]; exact Int.natCast_nonneg _) (by rw [hrow]; exact_mod_cast hlt)
  have hclamp : clampRow (idstn (ix2 (j 0) 0)) = i 0 := by
    rw [hidx]; refine Fin.ext ?_
    show min (idst (ix2 (j 0) 0)).toInt.toNat 99999 = (i 0).val
    rw [hrow]; omega
  -- the three gathers of the edge's term, read at their indices: the third factor is d at the node of i
  have e1 : Host.gather eltGather d isrc (ix1 (j 0)) = d (ix1 (clampRow (isrc (ix2 (j 0) 0)))) :=
    eltGather_read d isrc (ix1 (j 0))
  have e2 : Host.gather eltGather d idstn (ix1 (j 0)) = (r : EReal) := by
    rw [← hdr, ← hclamp]; exact eltGather_read d idstn (ix1 (j 0))
  have e3 : Host.gather rowGather (fun u => h u * d (ix1 (u 0))) isrc j
      = h (ix2 (clampRow (isrc (ix2 (j 0) 0))) (j 1)) * d (ix1 (clampRow (isrc (ix2 (j 0) 0)))) :=
    rowGather_read (fun u => h u * d (ix1 (u 0))) isrc j
  rw [rowGather_read h isrc j, e1, e2, e3, mul_assoc]

/-- A finite sum of ones is a non-negative real number: by induction on the index set, adding one
    to a non-negative real each time. -/
theorem sum_ones_real {ι : Type} (s : Finset ι) :
    ∃ r : ℝ, 0 ≤ r ∧ ∑ _j ∈ s, (1 : EReal) = (r : EReal) := by
  classical
  induction s using Finset.induction_on with
  | empty => exact ⟨0, le_refl 0, by rw [Finset.sum_empty, EReal.coe_zero]⟩
  | insert a s ha ih =>
    obtain ⟨r, hr, hs⟩ := ih
    refine ⟨1 + r, by linarith, ?_⟩
    rw [Finset.sum_insert ha, hs, EReal.coe_add, EReal.coe_one]

/-- A count of landing edges — ones aggregated into zeros — is a non-negative real number. -/
theorem count_real (idst : IVec EdgeI 32) (v : NodeV.Idx) :
    ∃ r : ℝ, 0 ≤ r ∧ Ideal.hostScatterAdd eltScatter (fun _ => 0) idst (fun _ => 1) v = (r : EReal) := by
  unfold Ideal.hostScatterAdd
  simp only [zero_add]
  exact sum_ones_real _

/-- The reciprocal root of `max count 1` is a non-negative real number, and so is `0`: whichever of
    the two a selection picks is a non-negative real. -/
theorem inv_root_real (x : EReal) (hx : ∃ r : ℝ, 0 ≤ r ∧ x = (r : EReal)) :
    ∃ r : ℝ, 0 ≤ r ∧ Ideal.rsqrt (max x 1) = (r : EReal) := by
  -- max x 1 is at least 1, so positive, and the reciprocal root of a positive extended real is a non-negative real
  exact Cert.SegLaw.rsqrt_of_pos (max x 1) (lt_of_lt_of_le zero_lt_one (le_max_right x 1))

end Cert.SegmentRead

end
-- ==== Proof.KernelSpec.lean ====
/-
  The factored computation's result, as one function of the argument arrays.

  With d the per-node factor, src and dst the edges' endpoints (self-loops included):

    one layer, from features X with weights W, bias b and normalisation parameters w, β, ms:
      hs  = rows of X · W, row r scaled by d[r]
      A   = the aggregate: A[v, ·] = Σ_{edges landing on v} hs[src e, ·]
      h   = d[v] · A[v, c] + b[c]
      T₁, T₂ = the tables of per-tile partial column sums of h and h²
      scale, shift = the normalisation parameters derived from T₁, T₂, w, β, ms
      layer = max (scale[c] · h[v, c] + shift[c]) 0

    the result: with x₁ the first layer of x and x₂ the second layer of x₁ (computed in place),
      out[v, c] = Σ_k (x₁[v, k] + x₂[v, k]) · Wr[k, c] + br[c].
-/
import proofs.«172011_j7241314861683_2_alg».proof.Proof.Spec
import proofs.«172011_j7241314861683_2_alg».proof.Proof.GlueSpec
import proofs.«172011_j7241314861683_2_alg».proof.Proof.EdgeDefs
import proofs.«172011_j7241314861683_2_alg».proof.Proof.SegmentRead

noncomputable section

open scoped BigOperators

namespace Cert.KSpec

open Idealize.ShloMosaic Idealize.ShloMosaic.ValueIdx Cert.Spec Cert.Glue Cert.Edge

/-- One value per node. -/
abbrev NodeV : Shape := ⟨1, ![100000]⟩

variable (src dst : IVec EdgeVec 32) (d : NodeV.Idx → EReal)

/-- The per-node factor as a column. -/
def dcol : SNx1.Idx → EReal := fun i => d (ix1 (i 0))

/-- A vector of 128 per-feature values as a 1 × 128 row. -/
def row128 (v : S128.Idx → EReal) : S1x128.Idx → EReal := fun i => v (ix1 (i 1))
/-- A vector of 64 values as a 1 × 64 row. -/
def row64 (v : S64.Idx → EReal) : S1x64.Idx → EReal := fun i => v (ix1 (i 1))

/-- The aggregate of pre-scaled rows: scatter-add, into zeros, of the rows gathered at the edges' sources. -/
def agg (hs : SNx128.Idx → EReal) : SNx128.Idx → EReal :=
  Ideal.hostScatterAdd Cert.SegmentRead.rowScatter (fun _ => 0) (col dst)
    (Host.gather Cert.SegmentRead.rowGather hs (col (wrap src)))

/-- The aggregated rows of one layer. -/
def layerAgg (X : SNx128.Idx → EReal) (W : S128x128.Idx → EReal) : SNx128.Idx → EReal :=
  agg src dst (scaledProduct X W (dcol d))

/-- The scale row of one layer. -/
def layerScale (A : SNx128.Idx → EReal) (b w ms : S128.Idx → EReal) : S1x128.Idx → EReal :=
  fun i => Glue.scale (partSum A (dcol d) (row128 b)) (partSq A (dcol d) (row128 b)) w ms (i 1)

/-- The shift row of one layer. -/
def layerShift (A : SNx128.Idx → EReal) (b w β ms : S128.Idx → EReal) : S1x128.Idx → EReal :=
  fun i => Glue.shift (partSum A (dcol d) (row128 b)) (partSq A (dcol d) (row128 b)) w β ms (i 1)

/-- One normalised, rectified layer. -/
def layer (X : SNx128.Idx → EReal) (W : S128x128.Idx → EReal) (b w β ms : S128.Idx → EReal) :
    SNx128.Idx → EReal :=
  normRelu (layerAgg src dst d X W) (dcol d) (row128 b)
    (layerScale d (layerAgg src dst d X W) b w ms) (layerShift d (layerAgg src dst d X W) b w β ms)

/-- The whole result. -/
def out (x : SNx128.Idx → EReal) (W1 : S128x128.Idx → EReal) (b1 : S128.Idx → EReal)
    (W2 : S128x128.Idx → EReal) (b2 w1 β1 ms1 w2 β2 ms2 : S128.Idx → EReal)
    (Wr : S128x64.Idx → EReal) (br : S64.Idx → EReal) : SNx64.Idx → EReal :=
  readout (layerAgg src dst d (layer src dst d x W1 b1 w1 β1 ms1) W2) (dcol d) (row128 b2)
    (layerScale d (layerAgg src dst d (layer src dst d x W1 b1 w1 β1 ms1) W2) b2 w2 ms2)
    (layerShift d (layerAgg src dst d (layer src dst d x W1 b1 w1 β1 ms1) W2) b2 w2 β2 ms2)
    (layer src dst d x W1 b1 w1 β1 ms1) Wr (row64 br)

end Cert.KSpec

end
-- ==== Proof.Consts.lean ====
/-
  The float words the two programs spell, as the real numbers their patterns denote.

  A 32-bit pattern with sign 0, exponent field E (neither 0 nor 255) and fraction field T denotes
  (2^23 + T) · 2^(E − 127 − 23):

    0x47C35000   E = 143, T = 0x435000     (2^23 + 4411392) · 2^(−7)  = 100000
    0x41000000   E = 130, T = 0            2^23 · 2^(−20)             = 8
    0x40000000   E = 128, T = 0            2^23 · 2^(−22)             = 2
    0x3F800000   E = 127, T = 0            2^23 · 2^(−23)             = 1
    0x3727C5AC   E = 110, T = 0x27C5AC     10995116 · 2^(−40)         > 0   (the float nearest 10^(−5))

  One module states them all, so that the pattern's unfolding happens in one place.
-/
import Idealize.ShloMosaic.PureOps.Ideal

noncomputable section

namespace Cert.Consts

open Idealize.ShloMosaic

/-- The number of nodes, 100000. -/
theorem ofBits_100000 : Ideal.ofBits .f32 0x47C35000#32 = ((100000 : ℝ) : EReal) := by
  simp [Ideal.ofBits, Ideal.ieee, -EReal.coe_mul]; norm_num

/-- The number of equal rows per tile in the table of partial sums, 8. -/
theorem ofBits_8 : Ideal.ofBits .f32 0x41000000#32 = ((8 : ℝ) : EReal) := by
  simp [Ideal.ofBits, Ideal.ieee, -EReal.coe_mul]; norm_num

/-- The 2 of 2 · ms − ms². -/
theorem ofBits_2 : Ideal.ofBits .f32 0x40000000#32 = ((2 : ℝ) : EReal) := by
  simp [Ideal.ofBits, Ideal.ieee, -EReal.coe_mul]; norm_num

/-- 1. -/
theorem ofBits_1 : Ideal.ofBits .f32 0x3F800000#32 = ((1 : ℝ) : EReal) := by
  simp [Ideal.ofBits, Ideal.ieee, -EReal.coe_mul]; norm_num

/-- The ε under the root is a positive real number. -/
theorem ofBits_eps : ∃ t : ℝ, 0 < t ∧ Ideal.ofBits .f32 0x3727C5AC#32 = (t : EReal) := by
  refine ⟨(10995116 : ℝ) * (2 : ℝ) ^ (-40 : ℤ), by positivity, ?_⟩
  simp [Ideal.ofBits, Ideal.ieee, -EReal.coe_mul]

end Cert.Consts

end
-- ==== Proof.EdgeRead.lean ====
/-
  The edge indices and the per-node factor of the graph convolution, read once for both programs.

  Both programs hand an edge's index vector (one 32-bit word per edge, 900000 edges) to a scatter as
  a column, and to a gather as a column after wrapping negative words by the number of nodes,
  100000. Here:

    * a vector broadcast to a column reads at (e, 0) its entry e, so the broadcast of an index vector
      is `Cert.Edge.col` of it;
    * "select (v < 0, signed) (v + 100000) v" is `Cert.Edge.wrap v`, and the wrap leaves a
      non-negative word alone;
    * hence, where the scatter index of an edge is a row number (non-negative, below 100000), the
      gather index of the same edge is the same word: the hypothesis of the graph-convolution law
      `Cert.SegmentRead.conv_law`, which is then restated over `col` and `wrap`;
    * a splat of the word 0.0 is the zero array and a splat of 1.0 the array of ones, so the printed
      scatters (operand a splat of 0.0, indices a column broadcast) are the aggregates the
      specification names;
    * the per-node factor, "reciprocal root of max(count, 1) where the condition bit is set, else 0",
      is a non-negative real number whichever branch the bit takes.

  No program is imported: each statement takes the broadcasts' validity proofs as arguments, so it
  applies to whatever proofs a printed program carries.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import Idealize.ShloMosaic.Lib.Pipeline.Value
import proofs.«172011_j7241314861683_2_alg».proof.Proof.SegmentRead
import proofs.«172011_j7241314861683_2_alg».proof.Proof.EdgeDefs
import proofs.«172011_j7241314861683_2_alg».proof.Proof.Consts

open Idealize.ShloMosaic Idealize.ShloMosaic.ValueIdx
open Cert.SegmentRead Cert.Edge
open scoped BigOperators

noncomputable section

namespace Cert.EdgeRead

/-! ## The column of a vector -/

/-- A vector with one entry per edge, broadcast to a column, reads at `(e, 0)` its entry `e`. -/
theorem colBroadcast_apply {α : Type} (h : EdgeVec.BroadcastsInDim EdgeCol ![0]) (x : EdgeVec.Idx → α)
    (e : EdgeCol.Idx) : broadcastInDim EdgeCol ![0] h x e = x (ix1 (e 0)) :=
  broadcastInDim_apply _ h x e (ix1 (e 0)) (fun a => by
    match a with
    | ⟨0, _⟩ => rfl)

/-- An index vector broadcast to a column is its column of start indices. -/
theorem col_eq (h : EdgeVec.BroadcastsInDim EdgeCol ![0]) (v : IVec EdgeVec 32) :
    broadcastInDim EdgeCol ![0] h v = col v :=
  funext fun e => colBroadcast_apply h v e

/-! ## The wrap of negative indices -/

/-- "Less than zero, signed" selects the index plus the number of nodes, else the index itself:
    the wrap of negative indices. -/
theorem wrap_eq (hz hm : (⟨0, ![]⟩ : Shape).BroadcastsInDim EdgeVec ![]) (v : IVec EdgeVec 32) :
    select (cmpi .slt v (broadcastInDim EdgeVec ![] hz (constantI ⟨0, ![]⟩ 32 0#32)))
        (addi v (broadcastInDim EdgeVec ![] hm (constantI ⟨0, ![]⟩ 32 100000#32))) v
      = wrap v := by
  funext e
  show Scalar.select (IntOp.cmpi .slt (v e) 0#32) (IntOp.addi (v e) 100000#32) (v e)
    = if (v e).toInt < 0 then v e + 100000#32 else v e
  by_cases hneg : (v e).toInt < 0
  · have hc : IntOp.cmpi .slt (v e) 0#32 = 1#1 := by
      show BitVec.ofBool (decide ((v e).toInt < (0#32 : BitVec 32).toInt)) = 1#1
      rw [BitVec.toInt_zero, decide_eq_true hneg]; rfl
    rw [hc, select_one, if_pos hneg]; rfl
  · have hc : IntOp.cmpi .slt (v e) 0#32 = 0#1 := by
      show BitVec.ofBool (decide ((v e).toInt < (0#32 : BitVec 32).toInt)) = 0#1
      rw [BitVec.toInt_zero, decide_eq_false hneg]; rfl
    rw [hc, select_zero, if_neg hneg]

/-- A non-negative index is left as it is. -/
theorem wrap_of_nonneg (v : IVec EdgeVec 32) (e : EdgeVec.Idx) (h0 : 0 ≤ (v e).toInt) : wrap v e = v e := by
  unfold wrap
  rw [if_neg (not_lt.mpr h0)]

/-- Where the scatter index of an edge is a row number, its wrapped index — the one the gather
    reads — is the same word. -/
theorem col_wrap_of_row (dst : IVec EdgeVec 32) (e : EdgeCol.Idx) (h0 : 0 ≤ (col dst e).toInt)
    (_h1 : (col dst e).toInt < 100000) : col (wrap dst) e = col dst e :=
  wrap_of_nonneg dst (ix1 (e 0)) h0

/-! ## The graph-convolution law over the programs' index vectors -/

/-- THE LAW at the programs' indices: scatter by the column of `dst`, gather by the columns of the
    wrapped `src` and `dst`. An edge that lands on a node has that node's row number as its `dst`
    index, which the wrap leaves alone, so the third factor is `d` at the node and comes out of the sum. -/
theorem conv_law_edges (h : Nodes.Idx → EReal) (d : NodeV.Idx → EReal)
    (hd : ∀ v, ∃ r : ℝ, 0 ≤ r ∧ d v = (r : EReal)) (src dst : IVec EdgeVec 32) (i : Nodes.Idx) :
    Ideal.hostScatterAdd rowScatter (fun _ => 0) (col dst)
        (fun j => Host.gather rowGather h (col (wrap src)) j *
          (Host.gather eltGather d (col (wrap src)) (ix1 (j 0)) *
            Host.gather eltGather d (col (wrap dst)) (ix1 (j 0)))) i
      = d (ix1 (i 0)) *
        Ideal.hostScatterAdd rowScatter (fun _ => 0) (col dst)
          (Host.gather rowGather (fun u => h u * d (ix1 (u 0))) (col (wrap src))) i :=
  conv_law h d hd (col (wrap src)) (col (wrap dst)) (col dst)
    (fun e h0 h1 => col_wrap_of_row dst e h0 h1) i

/-! ## Splat constants -/

/-- The scalar `0.0` broadcast to any shape is the zero array. -/
theorem bcast_zero {T : Shape} (h : (⟨0, ![]⟩ : Shape).BroadcastsInDim T ![]) :
    broadcastInDim T ![] h (constant (F := Ideal) ⟨0, ![]⟩ .f32 0x00000000#32) = fun _ => (0 : EReal) := by
  funext j
  rw [broadcastInDim_scalar_apply, constant_apply, Ideal.ofBits_zero_f32]

/-- The scalar `1.0` broadcast to any shape is the array of ones. -/
theorem bcast_one {T : Shape} (h : (⟨0, ![]⟩ : Shape).BroadcastsInDim T ![]) :
    broadcastInDim T ![] h (constant (F := Ideal) ⟨0, ![]⟩ .f32 0x3F800000#32) = fun _ => (1 : EReal) := by
  funext j
  rw [broadcastInDim_scalar_apply, constant_apply, Cert.Consts.ofBits_1, EReal.coe_one]

/-! ## The per-node factor -/

/-- For a non-negative real `x`, "the reciprocal root of `max x 1`, or `0`" is a non-negative real
    whichever of the two the condition bit selects. -/
theorem factor_real (x : EReal) (hx : ∃ r : ℝ, 0 ≤ r ∧ x = (r : EReal)) (c : BitVec 1) :
    ∃ r : ℝ, 0 ≤ r ∧ Scalar.select c (Ideal.rsqrt (max x 1)) 0 = (r : EReal) := by
  rcases BitVec.eq_zero_or_eq_one c with hc | hc
  · subst hc
    exact ⟨0, le_refl 0, by rw [select_zero, EReal.coe_zero]⟩
  · subst hc
    rw [select_one]
    exact inv_root_real x hx

/-- The same with `1` and `0` spelt as the words `1.0` and `0.0`. -/
theorem factor_real_words (x : EReal) (hx : ∃ r : ℝ, 0 ≤ r ∧ x = (r : EReal)) (c : BitVec 1) :
    ∃ r : ℝ, 0 ≤ r ∧ Scalar.select c (Ideal.rsqrt (max x (Ideal.ofBits .f32 0x3F800000#32)))
      (Ideal.ofBits .f32 0x00000000#32) = (r : EReal) := by
  rw [Cert.Consts.ofBits_1, EReal.coe_one, Ideal.ofBits_zero_f32]
  exact factor_real x hx c

/-- The factor of a node from its count of landing edges is a non-negative real. -/
theorem deg_factor_real (idst : IVec EdgeI 32) (v : NodeV.Idx) (c : BitVec 1) :
    ∃ r : ℝ, 0 ≤ r ∧ Scalar.select c
      (Ideal.rsqrt (max (Ideal.hostScatterAdd eltScatter (fun _ => 0) idst (fun _ => 1) v) 1)) 0 = (r : EReal) :=
  factor_real _ (count_real idst v) c

/-- The factor as the programs compute it on whole arrays — select, reciprocal root, maximum with the
    splat `1.0`, the splat `0.0` otherwise — is a non-negative real at every node, for any array of
    non-negative reals `deg` and any array of condition bits. -/
theorem factor_vec_real (deg : FVec Ideal NodeV .f32) (hdeg : ∀ v, ∃ r : ℝ, 0 ≤ r ∧ deg v = (r : EReal))
    (c : IVec NodeV 1) (ho hz : (⟨0, ![]⟩ : Shape).BroadcastsInDim NodeV ![]) (v : NodeV.Idx) :
    ∃ r : ℝ, 0 ≤ r ∧
      select c (Host.rsqrt (maximumf deg (broadcastInDim NodeV ![] ho (constant (F := Ideal) ⟨0, ![]⟩ .f32 0x3F800000#32))))
        (broadcastInDim NodeV ![] hz (constant (F := Ideal) ⟨0, ![]⟩ .f32 0x00000000#32)) v = (r : EReal) := by
  rw [bcast_one, bcast_zero]
  exact factor_real (deg v) (hdeg v) (c v)

/-! ## The printed scatters are the specification's aggregates -/

/-- The aggregation as printed — zeros by a splat, the scatter index by a column broadcast, the gather
    index by the wrap and a column broadcast — is the aggregate over `col dst` of the rows gathered
    at `col (wrap src)`. -/
theorem agg_term_eq (hz : (⟨0, ![]⟩ : Shape).BroadcastsInDim Nodes ![])
    (h0 : (⟨0, ![]⟩ : Shape).BroadcastsInDim EdgeV ![]) (hc : EdgeV.BroadcastsInDim EdgeI ![0])
    (hs : Nodes.Idx → EReal) (src dst : IVec EdgeVec 32) :
    Host.scatterAdd (F := Ideal) (φ := .f32) rowScatter
        (broadcastInDim Nodes ![] hz (constant (F := Ideal) ⟨0, ![]⟩ .f32 0x00000000#32))
        (broadcastInDim EdgeI ![0] hc dst)
        (Host.gather rowGather hs (broadcastInDim EdgeI ![0] hc
          (select (cmpi .slt src (broadcastInDim EdgeV ![] h0 (constantI ⟨0, ![]⟩ 32 0#32)))
            (addi src (broadcastInDim EdgeV ![] h0 (constantI ⟨0, ![]⟩ 32 100000#32))) src)))
      = Ideal.hostScatterAdd rowScatter (fun _ => 0) (col dst)
          (Host.gather rowGather hs (col (wrap src))) := by
  unfold Host.scatterAdd
  rw [Ideal.hostScatterAdd_def, bcast_zero, wrap_eq, col_eq, col_eq]

/-- The count of landing edges as printed — ones by a splat scattered into zeros by a splat, the
    scatter index by a column broadcast — is the count over `col dst`. -/
theorem deg_term_eq (hz : (⟨0, ![]⟩ : Shape).BroadcastsInDim NodeV ![])
    (ho : (⟨0, ![]⟩ : Shape).BroadcastsInDim EdgeV ![]) (hc : EdgeV.BroadcastsInDim EdgeI ![0])
    (dst : IVec EdgeVec 32) :
    Host.scatterAdd (F := Ideal) (φ := .f32) eltScatter
        (broadcastInDim NodeV ![] hz (constant (F := Ideal) ⟨0, ![]⟩ .f32 0x00000000#32))
        (broadcastInDim EdgeI ![0] hc dst)
        (broadcastInDim EdgeV ![] ho (constant (F := Ideal) ⟨0, ![]⟩ .f32 0x3F800000#32))
      = Ideal.hostScatterAdd eltScatter (fun _ => 0) (col dst) (fun _ => 1) := by
  unfold Host.scatterAdd
  rw [Ideal.hostScatterAdd_def, bcast_zero, bcast_one, col_eq]

end Cert.EdgeRead

end
-- ==== Proof.Prefix.lean ====
/-
  The host operations before the first kernel, read as terms of the edge list E (a 2 × 800000 array of node
  numbers: row 0 the sources, row 1 the destinations).  Each row is flattened and followed by the node numbers
  0 … 99999, that is, one self-loop per node is appended; the degree of a node is the number of entries of
  the extended destination column equal to it, computed as a scatter-add of ones into zeros; and the per-node
  factor is  deg^(-1/2)  where deg > 0, and 0 elsewhere, stored as a 100000 × 1 column.
-/
import proofs.«172011_j7241314861683_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Prefix

open Cert.KernelIdeal Cert.KernelIdeal.Gen Idealize.ShloMosaic Idealize.ShloMosaic.TcCoe Idealize.ShloMosaic.ValueIdx
open Idealize.SL.Sem Idealize.ShloMosaic.StableHlo

/-- One TensorCore's buffer contents. -/
abbrev Contents := Valuation τ sig (Elt Ideal)

/-- The source column: row 0 of the edge list, flattened, followed by the node numbers 0 … 99999. -/
abbrev srcCol (E : IVec S2x800000 32) : IVec S900000 32 :=
  concatenate S900000 0
    [⟨S800000, shapeCast S800000 (extractStridedSlice S1x800000 ![0, 0] E slices_S2x800000_S1x800000_0_0) shapeCasts_S1x800000_S800000⟩,
     ⟨S100000, iotaInDim S100000 32 0⟩]
    concatenates_S800000_S100000_S900000_d0

/-- The destination column: row 1 of the edge list, flattened, followed by the node numbers 0 … 99999. -/
abbrev dstCol (E : IVec S2x800000 32) : IVec S900000 32 :=
  concatenate S900000 0
    [⟨S800000, shapeCast S800000 (extractStridedSlice S1x800000 ![1, 0] E slices_S2x800000_S1x800000_1_0) shapeCasts_S1x800000_S800000⟩,
     ⟨S100000, iotaInDim S100000 32 0⟩]
    concatenates_S800000_S100000_S900000_d0

/-- The degrees along a column `d` of node numbers: ones added, along `d`, into zeros. -/
abbrev degreeOf (d : IVec S900000 32) : FVec Ideal S100000 .f32 :=
  Host.scatterAdd scatter_S100000_S900000x1_S900000_n_0_0_1
    (broadcastInDim S100000 ![] bcast_S_S100000 (constant (F := Ideal) S_ .f32 0x00000000#32))
    (broadcastInDim S900000x1 ![0] bcast_S900000_S900000x1_0 d)
    (broadcastInDim S900000 ![] bcast_S_S900000 (constant (F := Ideal) S_ .f32 0x3F800000#32))

/-- The per-node factor along a column `d`: the reciprocal square root of `max deg 1` where `deg > 0`, and 0
    elsewhere. -/
abbrev invSqrtDegreeOf (d : IVec S900000 32) : FVec Ideal S100000 .f32 :=
  select (cmpf .ogt (degreeOf d) (broadcastInDim S100000 ![] bcast_S_S100000 (constant (F := Ideal) S_ .f32 0x00000000#32)))
    (Host.rsqrt (maximumf (degreeOf d) (broadcastInDim S100000 ![] bcast_S_S100000 (constant (F := Ideal) S_ .f32 0x3F800000#32))))
    (broadcastInDim S100000 ![] bcast_S_S100000 (constant (F := Ideal) S_ .f32 0x00000000#32))

/-- Reads a chain of operations' results at a buffer: an operation's result at its own result buffer is its
    function's value, and at any other buffer what was there before it. -/
local macro "read_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The first stretch: the two columns, the degrees, and the two operands of the final select -/

/-- After the first stretch `main_v3` holds the source column. -/
theorem h0_main_v3 (W : Contents) :
    StableHlo.after (hostOps0 (F := Ideal)) W (Proc.devRef .tc main_v3) = srcCol (W (Proc.devRef .tc main_arg1)) := by
  after_results_simp
  rfl

/-- After the first stretch `main_v6` holds the destination column. -/
theorem h0_main_v6 (W : Contents) :
    StableHlo.after (hostOps0 (F := Ideal)) W (Proc.devRef .tc main_v6) = dstCol (W (Proc.devRef .tc main_arg1)) := by
  after_results_simp
  rfl

/-- After the first stretch `main_v12` holds the comparison `deg > 0`. -/
theorem h0_main_v12 (W : Contents) :
    StableHlo.after (hostOps0 (F := Ideal)) W (Proc.devRef .tc main_v12)
      = cmpf .ogt (degreeOf (dstCol (W (Proc.devRef .tc main_arg1)))) (broadcastInDim S100000 ![] bcast_S_S100000 (constant (F := Ideal) S_ .f32 0x00000000#32)) := by
  after_results_simp
  read_results
  rfl

/-- After the first stretch `main_v15` holds the reciprocal square root of `max deg 1`. -/
theorem h0_main_v15 (W : Contents) :
    StableHlo.after (hostOps0 (F := Ideal)) W (Proc.devRef .tc main_v15)
      = Host.rsqrt (maximumf (degreeOf (dstCol (W (Proc.devRef .tc main_arg1)))) (broadcastInDim S100000 ![] bcast_S_S100000 (constant (F := Ideal) S_ .f32 0x3F800000#32))) := by
  after_results_simp
  read_results
  rfl

/-- After the first stretch `main_cst_3` holds the scalar zero. -/
theorem h0_main_cst_3 (W : Contents) :
    StableHlo.after (hostOps0 (F := Ideal)) W (Proc.devRef .tc main_cst_3) = constant (F := Ideal) S_ .f32 0x00000000#32 := by
  after_results_simp

/-! ## The second stretch: the select -/

/-- The second stretch selects, by `main_v12`, between `main_v15` and the broadcast of the scalar `main_cst_3`. -/
theorem h1_main_v16 (W : Contents) :
    StableHlo.after (hostOps0_1 (F := Ideal)) W (Proc.devRef .tc main_v16)
      = select (W (Proc.devRef .tc main_v12)) (W (Proc.devRef .tc main_v15))
          (broadcastInDim S100000 ![] bcast_S_S100000 (W (Proc.devRef .tc main_cst_3))) := by
  after_results
  rfl

/-! ## The third stretch: the factor as a column -/

/-- The third stretch does not write `main_v16`. -/
theorem h2_kept_main_v16 (W : Contents) :
    StableHlo.after (hostOps0_2 (F := Ideal)) W (Proc.devRef .tc main_v16) = W (Proc.devRef .tc main_v16) := by
  after_results

/-- The factor column, at row `i 0`, is the factor vector's entry. -/
theorem col_read (W : Contents) (i : S100000x1.Idx) :
    StableHlo.after (hostOps0_2 (F := Ideal)) W (Proc.devRef .tc main_v17) i = W (Proc.devRef .tc main_v16) (ix1 (i 0)) := by
  have e : StableHlo.after (hostOps0_2 (F := Ideal)) W (Proc.devRef .tc main_v17)
      = shapeCast S100000x1 (W (Proc.devRef .tc main_v16)) shapeCasts_S100000_S100000x1 := by
    after_results
    rfl
  rw [e]
  refine shapeCast_apply _ _ i (ix1 (i 0)) ?_
  rw [Shape.rowMajor_val_two, Shape.rowMajor_val_one]
  have h1 : (i 1).val < 1 := (i 1).isLt
  show ((i 0).val : ℕ) = (i 0).val * 1 + (i 1).val
  omega

/-! ## The three stretches in order -/

/-- After the three stretches `main_v3` holds the source column. -/
theorem main_v3_term (W : Contents) :
    StableHlo.after (hostOps0_2 (F := Ideal)) (StableHlo.after (hostOps0_1 (F := Ideal)) (StableHlo.after (hostOps0 (F := Ideal)) W))
        (Proc.devRef .tc main_v3)
      = srcCol (W (Proc.devRef .tc main_arg1)) := by
  after_results_simp
  rfl

/-- After the three stretches `main_v6` holds the destination column. -/
theorem main_v6_term (W : Contents) :
    StableHlo.after (hostOps0_2 (F := Ideal)) (StableHlo.after (hostOps0_1 (F := Ideal)) (StableHlo.after (hostOps0 (F := Ideal)) W))
        (Proc.devRef .tc main_v6)
      = dstCol (W (Proc.devRef .tc main_arg1)) := by
  after_results_simp
  rfl

/-- After the three stretches `main_v16` holds the per-node factor along the destination column. -/
theorem main_v16_term (W : Contents) :
    StableHlo.after (hostOps0_2 (F := Ideal)) (StableHlo.after (hostOps0_1 (F := Ideal)) (StableHlo.after (hostOps0 (F := Ideal)) W))
        (Proc.devRef .tc main_v16)
      = invSqrtDegreeOf (dstCol (W (Proc.devRef .tc main_arg1))) := by
  rw [h2_kept_main_v16, h1_main_v16, h0_main_v12, h0_main_v15, h0_main_cst_3]

/-- The three stretches do not write `main_arg0`. -/
theorem kept_main_arg0 (W : Contents) :
    StableHlo.after (hostOps0_2 (F := Ideal)) (StableHlo.after (hostOps0_1 (F := Ideal)) (StableHlo.after (hostOps0 (F := Ideal)) W))
        (Proc.devRef .tc main_arg0)
      = W (Proc.devRef .tc main_arg0) := by
  after_results_simp

/-- The three stretches do not write `main_arg1`. -/
theorem kept_main_arg1 (W : Contents) :
    StableHlo.after (hostOps0_2 (F := Ideal)) (StableHlo.after (hostOps0_1 (F := Ideal)) (StableHlo.after (hostOps0 (F := Ideal)) W))
        (Proc.devRef .tc main_arg1)
      = W (Proc.devRef .tc main_arg1) := by
  after_results_simp

/-- The three stretches do not write `main_arg2`. -/
theorem kept_main_arg2 (W : Contents) :
    StableHlo.after (hostOps0_2 (F := Ideal)) (StableHlo.after (hostOps0_1 (F := Ideal)) (StableHlo.after (hostOps0 (F := Ideal)) W))
        (Proc.devRef .tc main_arg2)
      = W (Proc.devRef .tc main_arg2) := by
  after_results_simp

/-- The three stretches do not write `main_arg3`. -/
theorem kept_main_arg3 (W : Contents) :
    StableHlo.after (hostOps0_2 (F := Ideal)) (StableHlo.after (hostOps0_1 (F := Ideal)) (StableHlo.after (hostOps0 (F := Ideal)) W))
        (Proc.devRef .tc main_arg3)
      = W (Proc.devRef .tc main_arg3) := by
  after_results_simp

/-- The three stretches do not write `main_arg4`. -/
theorem kept_main_arg4 (W : Contents) :
    StableHlo.after (hostOps0_2 (F := Ideal)) (StableHlo.after (hostOps0_1 (F := Ideal)) (StableHlo.after (hostOps0 (F := Ideal)) W))
        (Proc.devRef .tc main_arg4)
      = W (Proc.devRef .tc main_arg4) := by
  after_results_simp

/-- The three stretches do not write `main_arg5`. -/
theorem kept_main_arg5 (W : Contents) :
    StableHlo.after (hostOps0_2 (F := Ideal)) (StableHlo.after (hostOps0_1 (F := Ideal)) (StableHlo.after (hostOps0 (F := Ideal)) W))
        (Proc.devRef .tc main_arg5)
      = W (Proc.devRef .tc main_arg5) := by
  after_results_simp

/-- The three stretches do not write `main_arg6`. -/
theorem kept_main_arg6 (W : Contents) :
    StableHlo.after (hostOps0_2 (F := Ideal)) (StableHlo.after (hostOps0_1 (F := Ideal)) (StableHlo.after (hostOps0 (F := Ideal)) W))
        (Proc.devRef .tc main_arg6)
      = W (Proc.devRef .tc main_arg6) := by
  after_results_simp

/-- The three stretches do not write `main_arg7`. -/
theorem kept_main_arg7 (W : Contents) :
    StableHlo.after (hostOps0_2 (F := Ideal)) (StableHlo.after (hostOps0_1 (F := Ideal)) (StableHlo.after (hostOps0 (F := Ideal)) W))
        (Proc.devRef .tc main_arg7)
      = W (Proc.devRef .tc main_arg7) := by
  after_results_simp

/-- The three stretches do not write `main_arg8`. -/
theorem kept_main_arg8 (W : Contents) :
    StableHlo.after (hostOps0_2 (F := Ideal)) (StableHlo.after (hostOps0_1 (F := Ideal)) (StableHlo.after (hostOps0 (F := Ideal)) W))
        (Proc.devRef .tc main_arg8)
      = W (Proc.devRef .tc main_arg8) := by
  after_results_simp

/-- The three stretches do not write `main_arg9`. -/
theorem kept_main_arg9 (W : Contents) :
    StableHlo.after (hostOps0_2 (F := Ideal)) (StableHlo.after (hostOps0_1 (F := Ideal)) (StableHlo.after (hostOps0 (F := Ideal)) W))
        (Proc.devRef .tc main_arg9)
      = W (Proc.devRef .tc main_arg9) := by
  after_results_simp

/-- The three stretches do not write `main_arg10`. -/
theorem kept_main_arg10 (W : Contents) :
    StableHlo.after (hostOps0_2 (F := Ideal)) (StableHlo.after (hostOps0_1 (F := Ideal)) (StableHlo.after (hostOps0 (F := Ideal)) W))
        (Proc.devRef .tc main_arg10)
      = W (Proc.devRef .tc main_arg10) := by
  after_results_simp

/-- The three stretches do not write `main_arg11`. -/
theorem kept_main_arg11 (W : Contents) :
    StableHlo.after (hostOps0_2 (F := Ideal)) (StableHlo.after (hostOps0_1 (F := Ideal)) (StableHlo.after (hostOps0 (F := Ideal)) W))
        (Proc.devRef .tc main_arg11)
      = W (Proc.devRef .tc main_arg11) := by
  after_results_simp

/-- The three stretches do not write `main_arg12`. -/
theorem kept_main_arg12 (W : Contents) :
    StableHlo.after (hostOps0_2 (F := Ideal)) (StableHlo.after (hostOps0_1 (F := Ideal)) (StableHlo.after (hostOps0 (F := Ideal)) W))
        (Proc.devRef .tc main_arg12)
      = W (Proc.devRef .tc main_arg12) := by
  after_results_simp

/-- The three stretches do not write `main_arg13`. -/
theorem kept_main_arg13 (W : Contents) :
    StableHlo.after (hostOps0_2 (F := Ideal)) (StableHlo.after (hostOps0_1 (F := Ideal)) (StableHlo.after (hostOps0 (F := Ideal)) W))
        (Proc.devRef .tc main_arg13)
      = W (Proc.devRef .tc main_arg13) := by
  after_results_simp

end Cert.KernelIdeal.Prefix

end
-- ==== Proof.EdgeStretch1.lean ====
/-
  The host operations around the layer-1 graph aggregation, read as terms.  From the edge list's source
  column s (negative entries wrapped by adding the node count), its destination column d and the scaled node
  features X they compute the segment sum  A[v, c] = Σ_{e : d[e] = v} X[s[e], c]  as a scatter-add, into a
  zero array, of the gathered rows; they reshape the layer's bias vector to a 1 × 128 row; and they write
  nothing else that a later stage reads.
-/
import proofs.«172011_j7241314861683_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeStretch1

open Cert.KernelIdeal Cert.KernelIdeal.Gen Idealize.ShloMosaic Idealize.ShloMosaic.TcCoe Idealize.ShloMosaic.ValueIdx
open Idealize.SL.Sem Idealize.ShloMosaic.StableHlo

/-- One TensorCore's buffer contents. -/
abbrev Contents := Valuation τ sig (Elt Ideal)

/-- The aggregated features are the scatter-add, along the destination column, of the rows of the scaled
    features gathered along the (wrapped) source column, into zeros. -/
theorem agg_term (W : Contents) :
    StableHlo.after (hostOps1 (F := Ideal)) W (Proc.devRef .tc main_v28)
      = Host.scatterAdd scatter_S100000x128_S900000x1_S900000x128_1_0_0_1
          (broadcastInDim S100000x128 ![] bcast_S_S100000x128 (constant (F := Ideal) S_ .f32 0x00000000#32))
          (broadcastInDim S900000x1 ![0] bcast_S900000_S900000x1_0 (W (Proc.devRef .tc main_v6)))
          (Host.gather gather_S100000x128_S900000x1_S900000x128_1_0_n_n_0_1_1128 (W (Proc.devRef .tc main_v18))
            (broadcastInDim S900000x1 ![0] bcast_S900000_S900000x1_0
              (select (cmpi .slt (W (Proc.devRef .tc main_v3)) (broadcastInDim S900000 ![] bcast_S_S900000 (constantI S_ 32 0#32)))
                (addi (W (Proc.devRef .tc main_v3)) (broadcastInDim S900000 ![] bcast_S_S900000 (constantI S_ 32 100000#32)))
                (W (Proc.devRef .tc main_v3))))) := by
  after_results

/-- The bias row, at column `i 1`, is the bias vector's entry. -/
theorem bias_read (W : Contents) (i : S1x128.Idx) :
    StableHlo.after (hostOps1 (F := Ideal)) W (Proc.devRef .tc main_v29) i = W (Proc.devRef .tc main_arg3) (ix1 (i 1)) := by
  have e : StableHlo.after (hostOps1 (F := Ideal)) W (Proc.devRef .tc main_v29)
      = shapeCast S1x128 (W (Proc.devRef .tc main_arg3)) shapeCasts_S128_S1x128 := by
    after_results
    rfl
  rw [e]
  refine shapeCast_apply _ _ i (ix1 (i 1)) ?_
  rw [Shape.rowMajor_val_two, Shape.rowMajor_val_one]
  have h0 : (i 0).val < 1 := (i 0).isLt
  show ((i 1).val : ℕ) = (i 0).val * 128 + (i 1).val
  omega

/-- The stretch does not write `main_v17`. -/
theorem kept_main_v17 (W : Contents) :
    StableHlo.after (hostOps1 (F := Ideal)) W (Proc.devRef .tc main_v17) = W (Proc.devRef .tc main_v17) := by
  after_results

/-- The stretch does not write `main_v3`. -/
theorem kept_main_v3 (W : Contents) :
    StableHlo.after (hostOps1 (F := Ideal)) W (Proc.devRef .tc main_v3) = W (Proc.devRef .tc main_v3) := by
  after_results

/-- The stretch does not write `main_v6`. -/
theorem kept_main_v6 (W : Contents) :
    StableHlo.after (hostOps1 (F := Ideal)) W (Proc.devRef .tc main_v6) = W (Proc.devRef .tc main_v6) := by
  after_results

/-- The stretch does not write `main_arg4`. -/
theorem kept_main_arg4 (W : Contents) :
    StableHlo.after (hostOps1 (F := Ideal)) W (Proc.devRef .tc main_arg4) = W (Proc.devRef .tc main_arg4) := by
  after_results

/-- The stretch does not write `main_arg5`. -/
theorem kept_main_arg5 (W : Contents) :
    StableHlo.after (hostOps1 (F := Ideal)) W (Proc.devRef .tc main_arg5) = W (Proc.devRef .tc main_arg5) := by
  after_results

/-- The stretch does not write `main_arg6`. -/
theorem kept_main_arg6 (W : Contents) :
    StableHlo.after (hostOps1 (F := Ideal)) W (Proc.devRef .tc main_arg6) = W (Proc.devRef .tc main_arg6) := by
  after_results

/-- The stretch does not write `main_arg7`. -/
theorem kept_main_arg7 (W : Contents) :
    StableHlo.after (hostOps1 (F := Ideal)) W (Proc.devRef .tc main_arg7) = W (Proc.devRef .tc main_arg7) := by
  after_results

/-- The stretch does not write `main_arg8`. -/
theorem kept_main_arg8 (W : Contents) :
    StableHlo.after (hostOps1 (F := Ideal)) W (Proc.devRef .tc main_arg8) = W (Proc.devRef .tc main_arg8) := by
  after_results

/-- The stretch does not write `main_arg9`. -/
theorem kept_main_arg9 (W : Contents) :
    StableHlo.after (hostOps1 (F := Ideal)) W (Proc.devRef .tc main_arg9) = W (Proc.devRef .tc main_arg9) := by
  after_results

/-- The stretch does not write `main_arg10`. -/
theorem kept_main_arg10 (W : Contents) :
    StableHlo.after (hostOps1 (F := Ideal)) W (Proc.devRef .tc main_arg10) = W (Proc.devRef .tc main_arg10) := by
  after_results

/-- The stretch does not write `main_arg11`. -/
theorem kept_main_arg11 (W : Contents) :
    StableHlo.after (hostOps1 (F := Ideal)) W (Proc.devRef .tc main_arg11) = W (Proc.devRef .tc main_arg11) := by
  after_results

/-- The stretch does not write `main_arg12`. -/
theorem kept_main_arg12 (W : Contents) :
    StableHlo.after (hostOps1 (F := Ideal)) W (Proc.devRef .tc main_arg12) = W (Proc.devRef .tc main_arg12) := by
  after_results

/-- The stretch does not write `main_arg13`. -/
theorem kept_main_arg13 (W : Contents) :
    StableHlo.after (hostOps1 (F := Ideal)) W (Proc.devRef .tc main_arg13) = W (Proc.devRef .tc main_arg13) := by
  after_results

end Cert.KernelIdeal.EdgeStretch1

end
-- ==== Proof.EdgeStretch2.lean ====
/-
  The host operations around the layer-2 graph aggregation, read as terms.  From the edge list's source
  column s (negative entries wrapped by adding the node count), its destination column d and the scaled node
  features X they compute the segment sum  A[v, c] = Σ_{e : d[e] = v} X[s[e], c]  as a scatter-add, into a
  zero array, of the gathered rows; they reshape the layer's bias vector to a 1 × 128 row; and they write
  nothing else that a later stage reads.
-/
import proofs.«172011_j7241314861683_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeStretch2

open Cert.KernelIdeal Cert.KernelIdeal.Gen Idealize.ShloMosaic Idealize.ShloMosaic.TcCoe Idealize.ShloMosaic.ValueIdx
open Idealize.SL.Sem Idealize.ShloMosaic.StableHlo

/-- One TensorCore's buffer contents. -/
abbrev Contents := Valuation τ sig (Elt Ideal)

/-- The aggregated features are the scatter-add, along the destination column, of the rows of the scaled
    features gathered along the (wrapped) source column, into zeros. -/
theorem agg_term (W : Contents) :
    StableHlo.after (hostOps4 (F := Ideal)) W (Proc.devRef .tc main_v71)
      = Host.scatterAdd scatter_S100000x128_S900000x1_S900000x128_1_0_0_1
          (broadcastInDim S100000x128 ![] bcast_S_S100000x128 (constant (F := Ideal) S_ .f32 0x00000000#32))
          (broadcastInDim S900000x1 ![0] bcast_S900000_S900000x1_0 (W (Proc.devRef .tc main_v6)))
          (Host.gather gather_S100000x128_S900000x1_S900000x128_1_0_n_n_0_1_1128 (W (Proc.devRef .tc main_v61))
            (broadcastInDim S900000x1 ![0] bcast_S900000_S900000x1_0
              (select (cmpi .slt (W (Proc.devRef .tc main_v3)) (broadcastInDim S900000 ![] bcast_S_S900000 (constantI S_ 32 0#32)))
                (addi (W (Proc.devRef .tc main_v3)) (broadcastInDim S900000 ![] bcast_S_S900000 (constantI S_ 32 100000#32)))
                (W (Proc.devRef .tc main_v3))))) := by
  after_results_simp

/-- The bias row, at column `i 1`, is the bias vector's entry. -/
theorem bias_read (W : Contents) (i : S1x128.Idx) :
    StableHlo.after (hostOps4 (F := Ideal)) W (Proc.devRef .tc main_v72) i = W (Proc.devRef .tc main_arg5) (ix1 (i 1)) := by
  have e : StableHlo.after (hostOps4 (F := Ideal)) W (Proc.devRef .tc main_v72)
      = shapeCast S1x128 (W (Proc.devRef .tc main_arg5)) shapeCasts_S128_S1x128 := by
    after_results
    rfl
  rw [e]
  refine shapeCast_apply _ _ i (ix1 (i 1)) ?_
  rw [Shape.rowMajor_val_two, Shape.rowMajor_val_one]
  have h0 : (i 0).val < 1 := (i 0).isLt
  show ((i 1).val : ℕ) = (i 0).val * 128 + (i 1).val
  omega

/-- The stretch does not write `main_v17`. -/
theorem kept_main_v17 (W : Contents) :
    StableHlo.after (hostOps4 (F := Ideal)) W (Proc.devRef .tc main_v17) = W (Proc.devRef .tc main_v17) := by
  after_results

/-- The stretch does not write `main_v60`. -/
theorem kept_main_v60 (W : Contents) :
    StableHlo.after (hostOps4 (F := Ideal)) W (Proc.devRef .tc main_v60) = W (Proc.devRef .tc main_v60) := by
  after_results

/-- The stretch does not write `main_v3`. -/
theorem kept_main_v3 (W : Contents) :
    StableHlo.after (hostOps4 (F := Ideal)) W (Proc.devRef .tc main_v3) = W (Proc.devRef .tc main_v3) := by
  after_results

/-- The stretch does not write `main_v6`. -/
theorem kept_main_v6 (W : Contents) :
    StableHlo.after (hostOps4 (F := Ideal)) W (Proc.devRef .tc main_v6) = W (Proc.devRef .tc main_v6) := by
  after_results

/-- The stretch does not write `main_arg9`. -/
theorem kept_main_arg9 (W : Contents) :
    StableHlo.after (hostOps4 (F := Ideal)) W (Proc.devRef .tc main_arg9) = W (Proc.devRef .tc main_arg9) := by
  after_results

/-- The stretch does not write `main_arg10`. -/
theorem kept_main_arg10 (W : Contents) :
    StableHlo.after (hostOps4 (F := Ideal)) W (Proc.devRef .tc main_arg10) = W (Proc.devRef .tc main_arg10) := by
  after_results

/-- The stretch does not write `main_arg11`. -/
theorem kept_main_arg11 (W : Contents) :
    StableHlo.after (hostOps4 (F := Ideal)) W (Proc.devRef .tc main_arg11) = W (Proc.devRef .tc main_arg11) := by
  after_results

/-- The stretch does not write `main_arg12`. -/
theorem kept_main_arg12 (W : Contents) :
    StableHlo.after (hostOps4 (F := Ideal)) W (Proc.devRef .tc main_arg12) = W (Proc.devRef .tc main_arg12) := by
  after_results

/-- The stretch does not write `main_arg13`. -/
theorem kept_main_arg13 (W : Contents) :
    StableHlo.after (hostOps4 (F := Ideal)) W (Proc.devRef .tc main_arg13) = W (Proc.devRef .tc main_arg13) := by
  after_results

end Cert.KernelIdeal.EdgeStretch2

end
-- ==== Proof.NormStretch1.lean ====
/-
  The host operations between the layer-1 statistics and the layer-1 normalisation, read at an index:
  from the two tables of partial column sums they compute, per feature column c,
      μ = ((Σ_p T₁[p, c]) / 8) / n,  E = ((Σ_p T₂[p, c]) / 8) / n,  var = E − μ² · (2 · ms[c] − ms[c]²),
      scale[c] = w[c] · rsqrt (var + ε),  shift[c] = b[c] − scale[c] · ms[c] · μ,
  as 1 × 128 rows, and write nothing else that a later stage reads.
-/
import proofs.«172011_j7241314861683_2_alg».proof.Proof.Gen.KernelIdeal.Launch
import proofs.«172011_j7241314861683_2_alg».proof.Proof.GlueSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.NormStretch1

open Cert.KernelIdeal Cert.KernelIdeal.Gen Idealize.ShloMosaic Idealize.ShloMosaic.TcCoe Idealize.ShloMosaic.ValueIdx
open Idealize.SL.Sem Idealize.ShloMosaic.StableHlo

/-- One TensorCore's buffer contents. -/
abbrev Contents := Valuation τ sig (Elt Ideal)

/-! ## The stretch's three kinds of row

Every value the stretch computes is a 1 × 128 row, built by elementwise operations from three kinds of leaf:
a word broadcast to the row, a 128-vector cast to the row, and a table's column sums broadcast to the row. -/

/-- A word broadcast to the row is the number it denotes, at every column. -/
theorem wordRow_eq (h : S_.BroadcastsInDim S1x128 (![] : Fin 0 → Fin S1x128.rank)) (w : BitVec 32) :
    broadcastInDim S1x128 ![] h (constant (F := Ideal) S_ .f32 w) = fun _ => Ideal.ofBits .f32 w := by
  funext j
  rw [broadcastInDim_scalar_apply]
  rfl

/-- A 128-vector cast to the row reads the vector at the column. -/
theorem vecRow_eq (x : FVec Ideal S128 .f32) (h : S128.ShapeCasts S1x128) :
    shapeCast S1x128 x h = fun i => x (ix1 (i 1)) := by
  funext i
  obtain ⟨u, c, rfl⟩ : ∃ (u : Fin 1) (c : Fin 128), i = ix2 u c := ⟨i 0, i 1, eq_ix2 i⟩
  exact shapeCast_a_1a_apply x h u c

/-- The table's column sums, from the zero word, broadcast to the row: 0 + Σ_p T[p, c] at column c. -/
theorem colSumRow_eq (x : FVec Ideal S160x128 .f32)
    (hb : S128.BroadcastsInDim S1x128 (![1] : Fin 1 → Fin S1x128.rank))
    (hr : S160x128.ReducesTo [0] S128) (hu : 0 < S_.numel) :
    broadcastInDim S1x128 ![1] hb (Host.reduceAdd x (constant (F := Ideal) S_ .f32 0x00000000#32) hr hu)
      = fun i => 0 + ∑ p : Fin 160, x (ix2 p (i 1)) := by
  funext i
  obtain ⟨u, c, rfl⟩ : ∃ (u : Fin 1) (c : Fin 128), i = ix2 u c := ⟨i 0, i 1, eq_ix2 i⟩
  have hR : S160x128.Reduces [0] S128 := by decide
  rw [broadcastInDim_apply _ hb _ (ix2 u c) (ix1 c) (fun a => by
    match a with
    | ⟨0, _⟩ => show c.val = if (128 : ℕ) = 1 then 0 else c.val; rw [if_neg (by decide)])]
  rw [hostReduceAdd_apply, Ideal.hostReduceAdd_single hr hR]
  show Ideal.ofBits .f32 0x00000000#32 + ∑ k : Fin 160, x (hR.lift (ix1 c) k) = _
  rw [Ideal.ofBits_zero_f32]
  refine congrArg (fun t => (0 : EReal) + t) (Finset.sum_congr rfl fun k _ => congrArg x ?_)
  funext a
  match a with
  | ⟨0, _⟩ => exact Fin.ext rfl
  | ⟨1, _⟩ => exact Fin.ext rfl

/-! ## The two rows the normalisation reads -/

/-- The scale row, at column `i 1`. -/
theorem scale_read (W : Contents) (i : S1x128.Idx) :
    StableHlo.after (hostOps2 (F := Ideal)) W (Proc.devRef .tc main_v56) i
      = Cert.Glue.scale (W (Proc.devRef .tc main_v30_0)) (W (Proc.devRef .tc main_v30_1))
          (W (Proc.devRef .tc main_arg6)) (W (Proc.devRef .tc main_arg8)) (i 1) := by
  obtain ⟨u, c, rfl⟩ : ∃ (u : Fin 1) (c : Fin 128), i = ix2 u c := ⟨i 0, i 1, eq_ix2 i⟩
  show _ = Cert.Glue.scale (W (Proc.devRef .tc main_v30_0)) (W (Proc.devRef .tc main_v30_1))
          (W (Proc.devRef .tc main_arg6)) (W (Proc.devRef .tc main_arg8)) c
  after_results_simp
  rw [wordRow_eq _ 0x41000000#32, wordRow_eq _ 0x47C35000#32, wordRow_eq _ 0x40000000#32,
    wordRow_eq _ 0x3727C5AC#32, colSumRow_eq (W (Proc.devRef .tc main_v30_0)),
    colSumRow_eq (W (Proc.devRef .tc main_v30_1))]
  erw [vecRow_eq (W (Proc.devRef .tc main_arg6)), vecRow_eq (W (Proc.devRef .tc main_arg8))]
  rfl

/-- The shift row, at column `i 1`. -/
theorem shift_read (W : Contents) (i : S1x128.Idx) :
    StableHlo.after (hostOps2 (F := Ideal)) W (Proc.devRef .tc main_v59) i
      = Cert.Glue.shift (W (Proc.devRef .tc main_v30_0)) (W (Proc.devRef .tc main_v30_1))
          (W (Proc.devRef .tc main_arg6)) (W (Proc.devRef .tc main_arg7)) (W (Proc.devRef .tc main_arg8)) (i 1) := by
  obtain ⟨u, c, rfl⟩ : ∃ (u : Fin 1) (c : Fin 128), i = ix2 u c := ⟨i 0, i 1, eq_ix2 i⟩
  show _ = Cert.Glue.shift (W (Proc.devRef .tc main_v30_0)) (W (Proc.devRef .tc main_v30_1))
          (W (Proc.devRef .tc main_arg6)) (W (Proc.devRef .tc main_arg7)) (W (Proc.devRef .tc main_arg8)) c
  after_results_simp
  rw [wordRow_eq _ 0x41000000#32, wordRow_eq _ 0x47C35000#32, wordRow_eq _ 0x40000000#32,
    wordRow_eq _ 0x3727C5AC#32, colSumRow_eq (W (Proc.devRef .tc main_v30_0)),
    colSumRow_eq (W (Proc.devRef .tc main_v30_1))]
  erw [vecRow_eq (W (Proc.devRef .tc main_arg6)), vecRow_eq (W (Proc.devRef .tc main_arg7)),
    vecRow_eq (W (Proc.devRef .tc main_arg8))]
  rfl

/-- The stretch does not write `main_v28`. -/
theorem kept_main_v28 (W : Contents) :
    StableHlo.after (hostOps2 (F := Ideal)) W (Proc.devRef .tc main_v28) = W (Proc.devRef .tc main_v28) := by
  after_results_simp

/-- The stretch does not write `main_v17`. -/
theorem kept_main_v17 (W : Contents) :
    StableHlo.after (hostOps2 (F := Ideal)) W (Proc.devRef .tc main_v17) = W (Proc.devRef .tc main_v17) := by
  after_results_simp

/-- The stretch does not write `main_v29`. -/
theorem kept_main_v29 (W : Contents) :
    StableHlo.after (hostOps2 (F := Ideal)) W (Proc.devRef .tc main_v29) = W (Proc.devRef .tc main_v29) := by
  after_results_simp

/-- The stretch does not write `main_v3`. -/
theorem kept_main_v3 (W : Contents) :
    StableHlo.after (hostOps2 (F := Ideal)) W (Proc.devRef .tc main_v3) = W (Proc.devRef .tc main_v3) := by
  after_results_simp

/-- The stretch does not write `main_v6`. -/
theorem kept_main_v6 (W : Contents) :
    StableHlo.after (hostOps2 (F := Ideal)) W (Proc.devRef .tc main_v6) = W (Proc.devRef .tc main_v6) := by
  after_results_simp

/-- The stretch does not write `main_arg4`. -/
theorem kept_main_arg4 (W : Contents) :
    StableHlo.after (hostOps2 (F := Ideal)) W (Proc.devRef .tc main_arg4) = W (Proc.devRef .tc main_arg4) := by
  after_results_simp

/-- The stretch does not write `main_arg5`. -/
theorem kept_main_arg5 (W : Contents) :
    StableHlo.after (hostOps2 (F := Ideal)) W (Proc.devRef .tc main_arg5) = W (Proc.devRef .tc main_arg5) := by
  after_results_simp

/-- The stretch does not write `main_arg9`. -/
theorem kept_main_arg9 (W : Contents) :
    StableHlo.after (hostOps2 (F := Ideal)) W (Proc.devRef .tc main_arg9) = W (Proc.devRef .tc main_arg9) := by
  after_results_simp

/-- The stretch does not write `main_arg10`. -/
theorem kept_main_arg10 (W : Contents) :
    StableHlo.after (hostOps2 (F := Ideal)) W (Proc.devRef .tc main_arg10) = W (Proc.devRef .tc main_arg10) := by
  after_results_simp

/-- The stretch does not write `main_arg11`. -/
theorem kept_main_arg11 (W : Contents) :
    StableHlo.after (hostOps2 (F := Ideal)) W (Proc.devRef .tc main_arg11) = W (Proc.devRef .tc main_arg11) := by
  after_results_simp

/-- The stretch does not write `main_arg12`. -/
theorem kept_main_arg12 (W : Contents) :
    StableHlo.after (hostOps2 (F := Ideal)) W (Proc.devRef .tc main_arg12) = W (Proc.devRef .tc main_arg12) := by
  after_results_simp

/-- The stretch does not write `main_arg13`. -/
theorem kept_main_arg13 (W : Contents) :
    StableHlo.after (hostOps2 (F := Ideal)) W (Proc.devRef .tc main_arg13) = W (Proc.devRef .tc main_arg13) := by
  after_results_simp

end Cert.KernelIdeal.NormStretch1

end
-- ==== Proof.NormStretch2.lean ====
/-
  The host operations between the layer-2 statistics and the layer-2 normalisation, read at an index:
  from the two tables of partial column sums they compute, per feature column c,
      μ = ((Σ_p T₁[p, c]) / 8) / n,  E = ((Σ_p T₂[p, c]) / 8) / n,  var = E − μ² · (2 · ms[c] − ms[c]²),
      scale[c] = w[c] · rsqrt (var + ε),  shift[c] = b[c] − scale[c] · ms[c] · μ,
  as 1 × 128 rows, and write nothing else that a later stage reads.
-/
import proofs.«172011_j7241314861683_2_alg».proof.Proof.Gen.KernelIdeal.Launch
import proofs.«172011_j7241314861683_2_alg».proof.Proof.GlueSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.NormStretch2

open Cert.KernelIdeal Cert.KernelIdeal.Gen Idealize.ShloMosaic Idealize.ShloMosaic.TcCoe Idealize.ShloMosaic.ValueIdx
open Idealize.SL.Sem Idealize.ShloMosaic.StableHlo

/-- One TensorCore's buffer contents. -/
abbrev Contents := Valuation τ sig (Elt Ideal)

/-! ## The stretch's three kinds of row

Every value the stretch computes is a 1 × 128 row, built by elementwise operations from three kinds of leaf:
a word broadcast to the row, a 128-vector cast to the row, and a table's column sums broadcast to the row. -/

/-- A word broadcast to the row is the number it denotes, at every column. -/
theorem wordRow_eq (h : S_.BroadcastsInDim S1x128 (![] : Fin 0 → Fin S1x128.rank)) (w : BitVec 32) :
    broadcastInDim S1x128 ![] h (constant (F := Ideal) S_ .f32 w) = fun _ => Ideal.ofBits .f32 w := by
  funext j
  rw [broadcastInDim_scalar_apply]
  rfl

/-- A 128-vector cast to the row reads the vector at the column. -/
theorem vecRow_eq (x : FVec Ideal S128 .f32) (h : S128.ShapeCasts S1x128) :
    shapeCast S1x128 x h = fun i => x (ix1 (i 1)) := by
  funext i
  obtain ⟨u, c, rfl⟩ : ∃ (u : Fin 1) (c : Fin 128), i = ix2 u c := ⟨i 0, i 1, eq_ix2 i⟩
  exact shapeCast_a_1a_apply x h u c

/-- The table's column sums, from the zero word, broadcast to the row: 0 + Σ_p T[p, c] at column c. -/
theorem colSumRow_eq (x : FVec Ideal S160x128 .f32)
    (hb : S128.BroadcastsInDim S1x128 (![1] : Fin 1 → Fin S1x128.rank))
    (hr : S160x128.ReducesTo [0] S128) (hu : 0 < S_.numel) :
    broadcastInDim S1x128 ![1] hb (Host.reduceAdd x (constant (F := Ideal) S_ .f32 0x00000000#32) hr hu)
      = fun i => 0 + ∑ p : Fin 160, x (ix2 p (i 1)) := by
  funext i
  obtain ⟨u, c, rfl⟩ : ∃ (u : Fin 1) (c : Fin 128), i = ix2 u c := ⟨i 0, i 1, eq_ix2 i⟩
  have hR : S160x128.Reduces [0] S128 := by decide
  rw [broadcastInDim_apply _ hb _ (ix2 u c) (ix1 c) (fun a => by
    match a with
    | ⟨0, _⟩ => show c.val = if (128 : ℕ) = 1 then 0 else c.val; rw [if_neg (by decide)])]
  rw [hostReduceAdd_apply, Ideal.hostReduceAdd_single hr hR]
  show Ideal.ofBits .f32 0x00000000#32 + ∑ k : Fin 160, x (hR.lift (ix1 c) k) = _
  rw [Ideal.ofBits_zero_f32]
  refine congrArg (fun t => (0 : EReal) + t) (Finset.sum_congr rfl fun k _ => congrArg x ?_)
  funext a
  match a with
  | ⟨0, _⟩ => exact Fin.ext rfl
  | ⟨1, _⟩ => exact Fin.ext rfl

/-! ## The rows the normalisation and the readout read -/

/-- The scale row, at column `i 1`. -/
theorem scale_read (W : Contents) (i : S1x128.Idx) :
    StableHlo.after (hostOps5 (F := Ideal)) W (Proc.devRef .tc main_v99) i
      = Cert.Glue.scale (W (Proc.devRef .tc main_v73_0)) (W (Proc.devRef .tc main_v73_1))
          (W (Proc.devRef .tc main_arg9)) (W (Proc.devRef .tc main_arg11)) (i 1) := by
  obtain ⟨u, c, rfl⟩ : ∃ (u : Fin 1) (c : Fin 128), i = ix2 u c := ⟨i 0, i 1, eq_ix2 i⟩
  show _ = Cert.Glue.scale (W (Proc.devRef .tc main_v73_0)) (W (Proc.devRef .tc main_v73_1))
          (W (Proc.devRef .tc main_arg9)) (W (Proc.devRef .tc main_arg11)) c
  after_results_simp
  rw [wordRow_eq _ 0x41000000#32, wordRow_eq _ 0x47C35000#32, wordRow_eq _ 0x40000000#32,
    wordRow_eq _ 0x3727C5AC#32, colSumRow_eq (W (Proc.devRef .tc main_v73_0)),
    colSumRow_eq (W (Proc.devRef .tc main_v73_1))]
  erw [vecRow_eq (W (Proc.devRef .tc main_arg9)), vecRow_eq (W (Proc.devRef .tc main_arg11))]
  rfl

/-- The shift row, at column `i 1`. -/
theorem shift_read (W : Contents) (i : S1x128.Idx) :
    StableHlo.after (hostOps5 (F := Ideal)) W (Proc.devRef .tc main_v102) i
      = Cert.Glue.shift (W (Proc.devRef .tc main_v73_0)) (W (Proc.devRef .tc main_v73_1))
          (W (Proc.devRef .tc main_arg9)) (W (Proc.devRef .tc main_arg10)) (W (Proc.devRef .tc main_arg11)) (i 1) := by
  obtain ⟨u, c, rfl⟩ : ∃ (u : Fin 1) (c : Fin 128), i = ix2 u c := ⟨i 0, i 1, eq_ix2 i⟩
  show _ = Cert.Glue.shift (W (Proc.devRef .tc main_v73_0)) (W (Proc.devRef .tc main_v73_1))
          (W (Proc.devRef .tc main_arg9)) (W (Proc.devRef .tc main_arg10)) (W (Proc.devRef .tc main_arg11)) c
  after_results_simp
  rw [wordRow_eq _ 0x41000000#32, wordRow_eq _ 0x47C35000#32, wordRow_eq _ 0x40000000#32,
    wordRow_eq _ 0x3727C5AC#32, colSumRow_eq (W (Proc.devRef .tc main_v73_0)),
    colSumRow_eq (W (Proc.devRef .tc main_v73_1))]
  erw [vecRow_eq (W (Proc.devRef .tc main_arg9)), vecRow_eq (W (Proc.devRef .tc main_arg10)),
    vecRow_eq (W (Proc.devRef .tc main_arg11))]
  rfl

/-- The readout's bias as a 1 × 64 row: entry `(0, c)` is `br[c]`. -/
theorem bias_read (W : Contents) (i : S1x64.Idx) :
    StableHlo.after (hostOps5 (F := Ideal)) W (Proc.devRef .tc main_v103) i
      = W (Proc.devRef .tc main_arg13) (ix1 (i 1)) := by
  obtain ⟨u, c, rfl⟩ : ∃ (u : Fin 1) (c : Fin 64), i = ix2 u c := ⟨i 0, i 1, eq_ix2 i⟩
  show _ = W (Proc.devRef .tc main_arg13) (ix1 c)
  after_results_simp
  exact shapeCast_a_1a_apply (W (Proc.devRef .tc main_arg13)) _ u c

/-- The stretch does not write `main_v71`. -/
theorem kept_main_v71 (W : Contents) :
    StableHlo.after (hostOps5 (F := Ideal)) W (Proc.devRef .tc main_v71) = W (Proc.devRef .tc main_v71) := by
  after_results_simp

/-- The stretch does not write `main_v17`. -/
theorem kept_main_v17 (W : Contents) :
    StableHlo.after (hostOps5 (F := Ideal)) W (Proc.devRef .tc main_v17) = W (Proc.devRef .tc main_v17) := by
  after_results_simp

/-- The stretch does not write `main_v72`. -/
theorem kept_main_v72 (W : Contents) :
    StableHlo.after (hostOps5 (F := Ideal)) W (Proc.devRef .tc main_v72) = W (Proc.devRef .tc main_v72) := by
  after_results_simp

/-- The stretch does not write `main_v60`. -/
theorem kept_main_v60 (W : Contents) :
    StableHlo.after (hostOps5 (F := Ideal)) W (Proc.devRef .tc main_v60) = W (Proc.devRef .tc main_v60) := by
  after_results_simp

/-- The stretch does not write `main_arg12`. -/
theorem kept_main_arg12 (W : Contents) :
    StableHlo.after (hostOps5 (F := Ideal)) W (Proc.devRef .tc main_arg12) = W (Proc.devRef .tc main_arg12) := by
  after_results_simp

end Cert.KernelIdeal.NormStretch2

end
-- ==== Proof.RegionScaled0.lean ====
/-
  The first scaled product, as one array: the tiles of 5000 node rows written back by the 20 grid
  points fill the 100000 × 128 result, and element (r, c) of the tile holding row r is
  ((x · W₁)[r, c]) · d[r] — a bf16 rounding of the operands is the identity on the extended reals and
  a product accumulated into zeros is the plain sum over the contracted axis.
-/
import proofs.«172011_j7241314861683_2_alg».proof.Proof.Gen.KernelIdeal.Frame
import proofs.«172011_j7241314861683_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline

/-- The TensorCore's buffer contents when the region is entered. -/
abbrev Entry := (c : Dev nD) → (b : Ref sig .tc) → Buf (Elt Ideal) ((c : Thread nD τ).loc b)

/-- The matrix product's dimension numbers: rows × contraction times contraction × columns. -/
abbrev MM := dot_S5000x128_S128x128_S5000x128_1_0_0_1_n_n

theorem hz : (![0, 0] : Fin 2 → Nat) = fun _ => 0 := funext fun a => by fin_cases a <;> rfl

/-! ## The operand indices of the product at an output index -/

theorem lhs_row (i : S5000x128.Idx) (q : MM.contr.Idx) : (MM.lhsIdx i q 0).val = (i 0).val := by
  unfold DotDims.lhsIdx
  rw [dif_neg (show ¬(0 : Fin S5000x128.rank) ∈ MM.lhsBatch by decide),
    dif_pos (show (0 : Fin S5000x128.rank) ∈ MM.lhsNonContracting by decide)]
  rfl
theorem lhs_col (i : S5000x128.Idx) (q : MM.contr.Idx) : (MM.lhsIdx i q 1).val = (q ⟨0, by decide⟩).val :=
  MM.lhsIdx_val_of_single rfl i q
theorem rhs_row (i : S5000x128.Idx) (q : MM.contr.Idx) : (MM.rhsIdx i q 0).val = (q ⟨0, by decide⟩).val :=
  MM.rhsIdx_val_of_single rfl i q
theorem rhs_col (i : S5000x128.Idx) (q : MM.contr.Idx) : (MM.rhsIdx i q 1).val = (i 1).val := by
  unfold DotDims.rhsIdx
  rw [dif_neg (show ¬(1 : Fin S128x128.rank) ∈ MM.rhsBatch by decide),
    dif_pos (show (1 : Fin S128x128.rank) ∈ MM.rhsNonContracting by decide)]
  rfl

/-- A product accumulated into zeros, read at row `p`, column `q`: the sum over the contracted axis. -/
theorem matmul_at (a : FVec Ideal S5000x128 .bf16) (b : FVec Ideal S128x128 .bf16) (p : Fin 5000) (q : Fin 128) :
    matmul MM none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 MM 128 rfl rfl).symm]
  refine Finset.sum_congr rfl fun k _ => ?_
  have hk := contrEquiv1_symm_val MM 128 rfl rfl k
  have el : MM.lhsIdx (ix2 p q) ((contrEquiv1 MM 128 rfl rfl).symm k) = ix2 p k := funext fun a => Fin.ext (by
    match a with
    | ⟨0, _⟩ => exact lhs_row _ _
    | ⟨1, _⟩ => exact (lhs_col _ _).trans hk)
  have er : MM.rhsIdx (ix2 p q) ((contrEquiv1 MM 128 rfl rfl).symm k) = ix2 k q := funext fun a => Fin.ext (by
    match a with
    | ⟨0, _⟩ => exact (rhs_row _ _).trans hk
    | ⟨1, _⟩ => exact rhs_col _ _)
  rw [el, er]

/-- A column broadcast along the rows, read at row `p`, column `q`: the column's entry of row `p`. -/
theorem colBroadcast_at (d : FVec Ideal S5000x1 .f32) (p : Fin 5000) (q : Fin 128) :
    broadcastTo S5000x128 d broadcasts_S5000x1_S5000x128 (ix2 p q) = d (ix2 p (0 : Fin 1)) := by
  refine broadcastTo_apply d broadcasts_S5000x1_S5000x128 (ix2 p q) (ix2 p (0 : Fin 1)) fun a => ?_
  match a with
  | ⟨0, _⟩ => rfl
  | ⟨1, _⟩ => rfl

/-! ## The body's arithmetic at one element -/

/-- Element `(p, q)` of the stored tile: the product of the loaded tiles summed over the contracted axis,
    times the factor of row `p` (the roundings to bf16 are the identity on the extended reals). -/
theorem payload_at (x0 : Vec Ideal S5000x128 .f32) (x1 : Vec Ideal S128x128 .f32) (x2 : Vec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  rw [mulf_apply, matmul_at, colBroadcast_at, shapeCast_self]
  rfl

/-! ## The specification at one element -/

/-- The specified array at an index whose coordinates are `r` and `q`. -/
theorem spec_at (X : Cert.Spec.SNx128.Idx → EReal) (W : Cert.Spec.S128x128.Idx → EReal) (d : Cert.Spec.SNx1.Idx → EReal)
    (i : Cert.Spec.SNx128.Idx) (r : Fin 100000) (q : Fin 128) (h0 : (i 0).val = r.val) (h1 : (i 1).val = q.val) :
    Cert.Spec.scaledProduct X W d i = (∑ k : Fin 128, X (ix2 r k) * W (ix2 k q)) * d (ix2 r (0 : Fin 1)) := by
  obtain ⟨a, b, rfl⟩ : ∃ (a : Fin 100000) (b : Fin 128), i = ix2 a b := ⟨i 0, i 1, eq_ix2 i⟩
  obtain rfl : a = r := Fin.ext h0
  obtain rfl : b = q := Fin.ext h1
  rfl

/-! ## The tiles' positions -/

/-- The printed index maps, decided once over the grid: at point `t` the windows of node rows sit at tile `t`,
    the weights' window at the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the tile of node rows at point `t` is row `5000 t + p` of the array. -/
theorem rowsTile_at (V : Entry) (c : Dev nD) (t : Fin cfg0.N) (p : Fin 5000) (k : Fin 128) (r : Fin 100000)
    (hr : r.val = t.val * 5000 + p.val) :
    (iblk0 (F := Ideal) V c 0 t : Vec Ideal S5000x128 .f32) (ix2 p k)
      = (V c main_arg0 : S100000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' tile at every point is the whole array. -/
theorem weightsTile_at (V : Entry) (c : Dev nD) (t : Fin cfg0.N) (k : Fin 128) (q : Fin 128) :
    (iblk0 (F := Ideal) V c 1 t : Vec Ideal S128x128 .f32) (ix2 k q)
      = (V c main_arg2 : S128x128.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Row `p` of the tile of row factors at point `t` is the factor of row `5000 t + p`. -/
theorem factorTile_at (V : Entry) (c : Dev nD) (t : Fin cfg0.N) (p : Fin 5000) (r : Fin 100000)
    (hr : r.val = t.val * 5000 + p.val) :
    (iblk0 (F := Ideal) V c 2 t : Vec Ideal S5000x1 .f32) (ix2 p (0 : Fin 1))
      = (V c main_v17 : S100000x1.Idx → EReal) (ix2 r (0 : Fin 1)) := by
  obtain ⟨-, -, -, -, e4, e5, -⟩ := idx_facts t
  unfold iblk0
  rw [View.read_apply]
  show V c main_v17 _ = V c main_v17 _
  congr 1
  funext a
  apply Fin.ext
  match a with
  | ⟨0, _⟩ => show win0_2.index t (0 : Fin 2) * 5000 + 1 * p.val = r.val; rw [e4, hr]; omega
  | ⟨1, _⟩ => show win0_2.index t (1 : Fin 2) * 1 + 1 * 0 = 0; rw [e5]

/-! ## What a grid point writes back -/

/-- Point `t` writes back tile `t` of the specified array. -/
theorem flushed_eq (V : Entry) (c : Dev nD) (t : Fin cfg0.N) :
    (dat0 (F := Ideal) V c).flushed 3 t
      = ((cfg0.win 3).blk t).view.read (Elt Ideal)
          (Cert.Spec.scaledProduct (V c main_arg0) (V c main_arg2) (V c main_v17)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz,
    View.ld_unit_zero (S := S5000x1) hz]
  obtain ⟨-, -, -, -, -, -, e6, e7⟩ := idx_facts t
  have hN : grid0.N = 20 := N_0
  have ht : t.val < 20 := by have h : t.val < grid0.N := t.isLt; rw [hN] at h; exact h
  funext j
  obtain ⟨p, q, rfl⟩ : ∃ (p : Fin 5000) (q : Fin 128), j = ix2 p q := ⟨j 0, j 1, eq_ix2 j⟩
  have hp : p.val < 5000 := p.isLt
  refine (payload_at (iblk0 V c 0 t) (iblk0 V c 1 t) (iblk0 V c 2 t) p q).trans ?_
  show _ = Cert.Spec.scaledProduct (V c main_arg0) (V c main_arg2) (V c main_v17)
    (((cfg0.win 3).blk t).view.emb (ix2 p q))
  rw [spec_at _ _ _ _ (⟨t.val * 5000 + p.val, by omega⟩ : Fin 100000) q
    (by show win0_3.index t (0 : Fin 2) * 5000 + 1 * p.val = t.val * 5000 + p.val; rw [e6]; omega)
    (by show win0_3.index t (1 : Fin 2) * 128 + 1 * q.val = q.val; rw [e7]; omega)]
  exact congrArg₂ (· * ·)
    (Finset.sum_congr rfl fun k _ => congrArg₂ (· * ·) (rowsTile_at V c t p k _ rfl) (weightsTile_at V c t k q))
    (factorTile_at V c t p _ rfl)

/-! ## The tiles fill the array -/

/-- An index of the array is in point `t`'s tile iff each coordinate is in the tile's range on its axis. -/
theorem mem_tile (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Row `r` is in the tile of point `r / 5000`, which is written back. -/
theorem cover (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : grid0.N = 20 := N_0
  have hlt : (i 0).val / 5000 < grid0.N := by rw [hN]; omega
  obtain ⟨-, -, -, -, -, -, e6, e7⟩ := idx_facts ⟨(i 0).val / 5000, hlt⟩
  refine ⟨⟨(i 0).val / 5000, hlt⟩, flush0_3 _, ?_⟩
  rw [mem_tile]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e7]
    omega

/-- The array after the region: the specified scaled product, every element. -/
theorem final (V : Entry) (c : Dev nD) :
    (dat0 (F := Ideal) V c).arrAt 3 cfg0.N
      = Cert.Spec.scaledProduct (V c main_arg0) (V c main_arg2) (V c main_v17) := by
  exact (dat0 (F := Ideal) V c).arrAt_eq_of_cover 3
    (Cert.Spec.scaledProduct (V c main_arg0) (V c main_arg2) (V c main_v17))
    (fun t _ => flushed_eq V c t) cover

end Cert.KernelIdeal.Region0

end
-- ==== Proof.RegionStats1.lean ====
/-
  The first layer's partial column sums, as two arrays: grid point t writes rows 8t … 8t+7 of each
  160 × 128 table, every one of those rows holding the column sums, over the 5000 nodes of tile t, of
  h = d · A + b and of h².
-/
import proofs.«172011_j7241314861683_2_alg».proof.Proof.Gen.KernelIdeal.Frame
import proofs.«172011_j7241314861683_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline

/-- The TensorCore's buffer contents when the region is entered. -/
abbrev Entry := (c : Dev nD) → (b : Ref sig .tc) → Buf (Elt Ideal) ((c : Thread nD τ).loc b)

/-- The zero offsets of a whole-buffer access, however spelt. -/
theorem hz : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value `h = d · A + b` at row `p`, column `q` of the tile. -/
theorem pay1_apply (v0 : Vec Ideal S5000x1 .f32) (v2 : Vec Ideal S5000x128 .f32) (v6 : Vec Ideal S1x128 .f32)
    (p : Fin 5000) (q : Fin 128) :
    k1_pay1 (F := Ideal) v0 v2 v6 (ix2 p q)
      = (v0 (ix2 p (0 : Fin 1)) : EReal) * v2 (ix2 p q) + v6 (ix2 (0 : Fin 1) q) := by
  unfold k1_pay1
  rw [addf_apply, mulf_apply, broadcastTo_a1_ab_apply, broadcastTo_1b_ab_apply, shapeCast_self, shapeCast_self,
    shapeCast_self]

/-- A sum over the rows of a `[5000, 128]` value, read at lane `q`. -/
theorem laneSum_apply (src : FVec Ideal S5000x128 .f32) (h : S5000x128.Reduces [0] S128) (hφ : FKind.Formats .f32)
    (hacc : (0x00000000#32 : BitVec 32) = 0x00000000#32) (q : Fin 128) :
    multiReduction (F := Ideal) .add [0] S128 src 0x00000000#32 h hφ hacc (ix1 q) = ∑ r : Fin 5000, src (ix2 r q) := by
  refine (Ideal.multiReduction_add_single src 0x00000000#32 h hφ hacc (ix1 q)).trans ?_
  refine Finset.sum_congr rfl fun r _ => congrArg src ?_
  funext a
  match a with
  | ⟨0, _⟩ => rfl
  | ⟨1, _⟩ => rfl

/-- What the body stores in the table of sums: every one of the 8 rows holds the column sums of `h` over the tile. -/
theorem pay2_apply (v0 : Vec Ideal S5000x1 .f32) (v2 : Vec Ideal S5000x128 .f32) (v6 : Vec Ideal S1x128 .f32)
    (p : Fin 8) (q : Fin 128) :
    k1_pay2 (F := Ideal) v0 v2 v6 (ix2 p q) = ∑ r : Fin 5000, k1_pay1 (F := Ideal) v0 v2 v6 (ix2 r q) := by
  unfold k1_pay2
  rw [broadcastTo_1b_ab_apply, shapeCast_self, shapeCast_a_1a_apply, laneSum_apply]

/-- What the body stores in the table of sums of squares. -/
theorem pay3_apply (v0 : Vec Ideal S5000x1 .f32) (v2 : Vec Ideal S5000x128 .f32) (v6 : Vec Ideal S1x128 .f32)
    (p : Fin 8) (q : Fin 128) :
    k1_pay3 (F := Ideal) v0 v2 v6 (ix2 p q)
      = ∑ r : Fin 5000, k1_pay1 (F := Ideal) v0 v2 v6 (ix2 r q) * k1_pay1 (F := Ideal) v0 v2 v6 (ix2 r q) := by
  unfold k1_pay3
  rw [broadcastTo_1b_ab_apply, shapeCast_self, shapeCast_a_1a_apply, laneSum_apply]
  rfl

/-- Where each window's block sits at grid point `t`: the three tables move with the point along the rows, the
    bias row stays. Decided over the 20 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The aggregated rows' block at point `t` is rows `5000 t … 5000 t + 4999` of the array. -/
theorem blockA_apply (V : Entry) (c : Dev nD) (t : Fin cfg1.N) (r : Fin 5000) (q : Fin 128) (k : Fin 100000)
    (hk : k.val = 5000 * t.val + r.val) :
    (iblk1 (F := Ideal) V c 0 t : Vec Ideal S5000x128 .f32) (ix2 r q)
      = (V c main_v28 : S100000x128.Idx → EReal) (ix2 k q) := by
  obtain ⟨e0, e1, -⟩ := idx_facts t
  unfold iblk1
  rw [View.read_apply]
  show V c main_v28 _ = V c main_v28 _
  congr 1
  funext a
  apply Fin.ext
  match a with
  | ⟨0, _⟩ => show win1_0.index t (0 : Fin 2) * 5000 + 1 * r.val = k.val; rw [e0, hk]; omega
  | ⟨1, _⟩ => show win1_0.index t (1 : Fin 2) * 128 + 1 * q.val = q.val; rw [e1]; omega

/-- The per-node factors' block at point `t` is rows `5000 t … 5000 t + 4999` of the column. -/
theorem blockD_apply (V : Entry) (c : Dev nD) (t : Fin cfg1.N) (r : Fin 5000) (k : Fin 100000)
    (hk : k.val = 5000 * t.val + r.val) :
    (iblk1 (F := Ideal) V c 1 t : Vec Ideal S5000x1 .f32) (ix2 r (0 : Fin 1))
      = (V c main_v17 : S100000x1.Idx → EReal) (ix2 k (0 : Fin 1)) := by
  obtain ⟨-, -, e0, e1, -⟩ := idx_facts t
  unfold iblk1
  rw [View.read_apply]
  show V c main_v17 _ = V c main_v17 _
  congr 1
  funext a
  apply Fin.ext
  match a with
  | ⟨0, _⟩ => show win1_1.index t (0 : Fin 2) * 5000 + 1 * r.val = k.val; rw [e0, hk]; omega
  | ⟨1, _⟩ => show win1_1.index t (1 : Fin 2) * 1 + 1 * 0 = 0; rw [e1]

/-- The bias row's block is the whole row at every point. -/
theorem blockB_apply (V : Entry) (c : Dev nD) (t : Fin cfg1.N) (q : Fin 128) :
    (iblk1 (F := Ideal) V c 2 t : Vec Ideal S1x128 .f32) (ix2 (0 : Fin 1) q)
      = (V c main_v29 : S1x128.Idx → EReal) (ix2 (0 : Fin 1) q) := by
  obtain ⟨-, -, -, -, e0, e1, -⟩ := idx_facts t
  unfold iblk1
  rw [View.read_apply]
  show V c main_v29 _ = V c main_v29 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The rows of tile `t`: the node with position `r` in the tile that table row `8 t + p` belongs to. -/
theorem tileNode_val (t : Fin cfg1.N) (p : Fin 8) (k0 : Fin 160) (hk0 : k0.val = 8 * t.val + p.val) (r : Fin 5000) :
    (Cert.Spec.tileNode k0 r).val = 5000 * t.val + r.val := by
  show 5000 * (k0.val / 8) + r.val = 5000 * t.val + r.val
  have := p.isLt
  rw [hk0]; omega

/-- The body's value at row `r` of tile `t` is the convolution's output at that node. -/
theorem conv_point (V : Entry) (c : Dev nD) (t : Fin cfg1.N) (p : Fin 8) (q : Fin 128) (i : S160x128.Idx)
    (h0 : (i 0).val = 8 * t.val + p.val) (h1 : (i 1).val = q.val) (r : Fin 5000) :
    k1_pay1 (F := Ideal) (iblk1 V c 1 t) (iblk1 V c 0 t) (iblk1 V c 2 t) (ix2 r q)
      = Cert.Spec.convOutAt (V c main_v28) (V c main_v17) (V c main_v29) (Cert.Spec.tileNode (i 0) r) (i 1) := by
  have hq : (i 1 : Fin 128) = q := Fin.ext h1
  rw [pay1_apply, blockA_apply V c t r q (Cert.Spec.tileNode (i 0) r) (tileNode_val t p (i 0) h0 r),
    blockD_apply V c t r (Cert.Spec.tileNode (i 0) r) (tileNode_val t p (i 0) h0 r), blockB_apply V c t q, hq]
  rfl

/-- What point `t` leaves in the table of sums, element by element. -/
theorem sum_point (V : Entry) (c : Dev nD) (t : Fin cfg1.N) (j : S8x128.Idx) (i : S160x128.Idx)
    (h0 : (i 0).val = 8 * t.val + (j 0).val) (h1 : (i 1).val = (j 1).val) :
    k1_pay2 (F := Ideal) (iblk1 V c 1 t) (iblk1 V c 0 t) (iblk1 V c 2 t) j
      = Cert.Spec.partSum (V c main_v28) (V c main_v17) (V c main_v29) i := by
  obtain ⟨p, q, rfl⟩ : ∃ (p : Fin 8) (q : Fin 128), j = ix2 p q := ⟨j 0, j 1, eq_ix2 j⟩
  rw [pay2_apply]
  show _ = ∑ r : Fin 5000, Cert.Spec.convOutAt _ _ _ (Cert.Spec.tileNode (i 0) r) (i 1)
  exact Finset.sum_congr rfl fun r _ => conv_point V c t p q i h0 h1 r

/-- What point `t` leaves in the table of sums of squares, element by element. -/
theorem sq_point (V : Entry) (c : Dev nD) (t : Fin cfg1.N) (j : S8x128.Idx) (i : S160x128.Idx)
    (h0 : (i 0).val = 8 * t.val + (j 0).val) (h1 : (i 1).val = (j 1).val) :
    k1_pay3 (F := Ideal) (iblk1 V c 1 t) (iblk1 V c 0 t) (iblk1 V c 2 t) j
      = Cert.Spec.partSq (V c main_v28) (V c main_v17) (V c main_v29) i := by
  obtain ⟨p, q, rfl⟩ : ∃ (p : Fin 8) (q : Fin 128), j = ix2 p q := ⟨j 0, j 1, eq_ix2 j⟩
  rw [pay3_apply]
  show _ = ∑ r : Fin 5000, Cert.Spec.convOutAt _ _ _ (Cert.Spec.tileNode (i 0) r) (i 1)
      * Cert.Spec.convOutAt _ _ _ (Cert.Spec.tileNode (i 0) r) (i 1)
  exact Finset.sum_congr rfl fun r _ => by rw [conv_point V c t p q i h0 h1 r]

/-- WHAT POINT `t` WRITES BACK to the table of sums is block `t` of the partial sums. -/
theorem flushed_sum (V : Entry) (c : Dev nD) (t : Fin cfg1.N) :
    (dat1 (F := Ideal) V c).flushed 3 t
      = ((cfg1.win 3).blk t).view.read (Elt Ideal)
          (Cert.Spec.partSum (V c main_v28) (V c main_v17) (V c main_v29)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz,
    View.ld_unit_zero (S := S1x128) hz]
  obtain ⟨-, -, -, -, -, -, e0, e1, -⟩ := idx_facts t
  funext j
  show k1_pay2 (F := Ideal) (iblk1 V c 1 t) (iblk1 V c 0 t) (iblk1 V c 2 t) j
      = Cert.Spec.partSum (V c main_v28) (V c main_v17) (V c main_v29) (((cfg1.win 3).blk t).view.emb j)
  refine sum_point V c t j _ ?_ ?_
  · show win1_3.index t (0 : Fin 2) * 8 + 1 * (j 0).val = 8 * t.val + (j 0).val; rw [e0]; omega
  · show win1_3.index t (1 : Fin 2) * 128 + 1 * (j 1).val = (j 1).val; rw [e1]; omega

/-- WHAT POINT `t` WRITES BACK to the table of sums of squares is block `t` of the partial sums of squares. -/
theorem flushed_sq (V : Entry) (c : Dev nD) (t : Fin cfg1.N) :
    (dat1 (F := Ideal) V c).flushed 4 t
      = ((cfg1.win 4).blk t).view.read (Elt Ideal)
          (Cert.Spec.partSq (V c main_v28) (V c main_v17) (V c main_v29)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S1x128) hz]
  obtain ⟨-, -, -, -, -, -, -, -, e0, e1⟩ := idx_facts t
  funext j
  show k1_pay3 (F := Ideal) (iblk1 V c 1 t) (iblk1 V c 0 t) (iblk1 V c 2 t) j
      = Cert.Spec.partSq (V c main_v28) (V c main_v17) (V c main_v29) (((cfg1.win 4).blk t).view.emb j)
  refine sq_point V c t j _ ?_ ?_
  · show win1_4.index t (0 : Fin 2) * 8 + 1 * (j 0).val = 8 * t.val + (j 0).val; rw [e0]; omega
  · show win1_4.index t (1 : Fin 2) * 128 + 1 * (j 1).val = (j 1).val; rw [e1]; omega

/-- A table index is in point `t`'s block of the table of sums iff each coordinate is in the block's range. -/
theorem mem_blk_sum (t : Fin cfg1.N) (i : S160x128.Idx) :
    i ∈ ((cfg1.win 3).blk t).view.set ↔ ∀ a : Fin 2, win1_3.index t a * S8x128.size a ≤ (i a).val
      ∧ (i a).val < win1_3.index t a * S8x128.size a + S8x128.size a := by
  show i ∈ ((View.whole main_v30_0).slice (win1_3.rect t)).set ↔ _
  rw [View.set_slice_whole, Rect.mem_set_unit]
  exact Iff.rfl

/-- The same for the table of sums of squares. -/
theorem mem_blk_sq (t : Fin cfg1.N) (i : S160x128.Idx) :
    i ∈ ((cfg1.win 4).blk t).view.set ↔ ∀ a : Fin 2, win1_4.index t a * S8x128.size a ≤ (i a).val
      ∧ (i a).val < win1_4.index t a * S8x128.size a + S8x128.size a := by
  show i ∈ ((View.whole main_v30_1).slice (win1_4.rect t)).set ↔ _
  rw [View.set_slice_whole, Rect.mem_set_unit]
  exact Iff.rfl

/-- Row `q` of the table of sums is written by the point `q / 8`: the blocks tile the table. -/
theorem cover_sum (i : S160x128.Idx) :
    ∃ t : Fin cfg1.N, (cfg1.win 3).flush t = true ∧ i ∈ ((cfg1.win 3).blk t).view.set := by
  have hN : cfg1.N = 20 := N_1
  have hi0 : (i 0).val < 160 := idx2_lt0 i
  have hi1 : (i 1).val < 128 := idx2_lt1 i
  obtain ⟨t, ht⟩ : ∃ t : Fin cfg1.N, t.val = (i 0).val / 8 := ⟨⟨(i 0).val / 8, by rw [hN]; omega⟩, rfl⟩
  obtain ⟨-, -, -, -, -, -, e0, e1, -⟩ := idx_facts t
  refine ⟨t, flush1_3 t, ?_⟩
  rw [mem_blk_sum]
  intro a
  match a with
  | ⟨0, _⟩ =>
    show win1_3.index t (0 : Fin 2) * 8 ≤ (i 0).val ∧ (i 0).val < win1_3.index t (0 : Fin 2) * 8 + 8
    rw [e0]; omega
  | ⟨1, _⟩ =>
    show win1_3.index t (1 : Fin 2) * 128 ≤ (i 1).val ∧ (i 1).val < win1_3.index t (1 : Fin 2) * 128 + 128
    rw [e1]; omega

/-- The same for the table of sums of squares. -/
theorem cover_sq (i : S160x128.Idx) :
    ∃ t : Fin cfg1.N, (cfg1.win 4).flush t = true ∧ i ∈ ((cfg1.win 4).blk t).view.set := by
  have hN : cfg1.N = 20 := N_1
  have hi0 : (i 0).val < 160 := idx2_lt0 i
  have hi1 : (i 1).val < 128 := idx2_lt1 i
  obtain ⟨t, ht⟩ : ∃ t : Fin cfg1.N, t.val = (i 0).val / 8 := ⟨⟨(i 0).val / 8, by rw [hN]; omega⟩, rfl⟩
  obtain ⟨-, -, -, -, -, -, -, -, e0, e1⟩ := idx_facts t
  refine ⟨t, flush1_4 t, ?_⟩
  rw [mem_blk_sq]
  intro a
  match a with
  | ⟨0, _⟩ =>
    show win1_4.index t (0 : Fin 2) * 8 ≤ (i 0).val ∧ (i 0).val < win1_4.index t (0 : Fin 2) * 8 + 8
    rw [e0]; omega
  | ⟨1, _⟩ =>
    show win1_4.index t (1 : Fin 2) * 128 ≤ (i 1).val ∧ (i 1).val < win1_4.index t (1 : Fin 2) * 128 + 128
    rw [e1]; omega

/-- THE TABLE OF SUMS after the region: row `q`, column `c` holds the sum of `h` over the tile of `q`. -/
theorem final_sum (V : Entry) (c : Dev nD) :
    (dat1 (F := Ideal) V c).arrAt 3 cfg1.N
      = Cert.Spec.partSum (V c main_v28) (V c main_v17) (V c main_v29) :=
  (dat1 (F := Ideal) V c).arrAt_eq_of_cover 3 _ (fun t _ => flushed_sum V c t) cover_sum

/-- THE TABLE OF SUMS OF SQUARES after the region: row `q`, column `c` holds the sum of `h²` over the tile of `q`. -/
theorem final_sq (V : Entry) (c : Dev nD) :
    (dat1 (F := Ideal) V c).arrAt 4 cfg1.N
      = Cert.Spec.partSq (V c main_v28) (V c main_v17) (V c main_v29) :=
  (dat1 (F := Ideal) V c).arrAt_eq_of_cover 4 _ (fun t _ => flushed_sq V c t) cover_sq

end Cert.KernelIdeal.Region1

end
-- ==== Proof.RegionNorm2.lean ====
/-
  The first layer's output, as one array: element (r, c) is max (scale[c] · (d[r] · A[r, c] + b[c]) + shift[c]) 0.
-/
import proofs.«172011_j7241314861683_2_alg».proof.Proof.Gen.KernelIdeal.Frame
import proofs.«172011_j7241314861683_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline

/-- The TensorCore's buffer contents when the region is entered. -/
abbrev Entry := (c : Dev nD) → (b : Ref sig .tc) → Buf (Elt Ideal) ((c : Thread nD τ).loc b)

/-! ## One element of a block -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p`, column `q` of a block: the row's factor times the entry, plus the
    first row vector, scaled by the second, plus the third, rectified. -/
theorem pay_apply (v0 : Vec Ideal S5000x1 .f32) (v2 : Vec Ideal S5000x128 .f32) (v6 v10 v14 : Vec Ideal S1x128 .f32)
    (p : Fin 5000) (q : Fin 128) :
    k2_pay1 (F := Ideal) v0 v2 v6 v10 v14 (ix2 p q)
      = max (v10 (ix2 (0 : Fin 1) q) * (v0 (ix2 p (0 : Fin 1)) * v2 (ix2 p q) + v6 (ix2 (0 : Fin 1) q))
          + v14 (ix2 (0 : Fin 1) q)) 0 := by
  unfold k2_pay1
  simp only [shapeCast_self]
  rw [maximumf_apply, addf_apply, mulf_apply, addf_apply, mulf_apply, broadcast_apply,
    broadcastTo_a1_ab_apply, broadcastTo_1b_ab_apply, broadcastTo_1b_ab_apply, broadcastTo_1b_ab_apply]
  show max _ (Ideal.ofBits .f32 0x00000000#32) = _
  rw [Ideal.ofBits_zero_f32]

/-- The same, with each loaded value named by the array entry it is: the specification's element. -/
theorem pay_eq_spec (A : Cert.Spec.SNx128.Idx → EReal) (d : Cert.Spec.SNx1.Idx → EReal)
    (b sc sh : Cert.Spec.S1x128.Idx → EReal)
    (x0 : Vec Ideal S5000x128 .f32) (x1 : Vec Ideal S5000x1 .f32) (x2 x3 x4 : Vec Ideal S1x128 .f32)
    (p : Fin 5000) (q : Fin 128) (r : Fin 100000)
    (h0 : x0 (ix2 p q) = A (ix2 r q)) (h1 : x1 (ix2 p (0 : Fin 1)) = d (ix2 r (0 : Fin 1)))
    (h2 : x2 (ix2 (0 : Fin 1) q) = b (ix2 (0 : Fin 1) q)) (h3 : x3 (ix2 (0 : Fin 1) q) = sc (ix2 (0 : Fin 1) q))
    (h4 : x4 (ix2 (0 : Fin 1) q) = sh (ix2 (0 : Fin 1) q)) :
    k2_pay1 (F := Ideal) x1 x0 x2 x3 x4 (ix2 p q) = Cert.Spec.normReluAt A d b sc sh r q := by
  rw [pay_apply, h0, h1, h2, h3, h4]
  rfl

/-! ## From blocks to the array -/

theorem hz : (![0, 0] : Fin 2 → Nat) = fun _ => 0 := funext fun a => by fin_cases a <;> rfl

/-- The index maps over the grid: at point `t` the two row-block inputs and the output sit at block `(t, 0)`, the three
    row vectors at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is block `t` of the specification's array. -/
theorem flushed_eq (V : Entry) (c : Dev nD) (t : Fin cfg2.N) :
    (dat2 (F := Ideal) V c).flushed 5 t
      = ((cfg2.win 5).blk t).view.read (Elt Ideal)
          (Cert.Spec.normRelu (V c main_v28) (V c main_v17) (V c main_v29) (V c main_v56) (V c main_v59)) := by
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41, e50, e51⟩ := idx_facts t
  have hN : cfg2.N = 20 := N_2
  have ht : t.val < 20 := hN ▸ t.isLt
  funext j
  obtain ⟨p, q, rfl⟩ : ∃ (p : Fin 5000) (q : Fin 128), j = ix2 p q := ⟨j 0, j 1, eq_ix2 (n0 := 5000) (n1 := 128) j⟩
  have hr : 5000 * t.val + p.val < 100000 := by have := p.isLt; omega
  refine (pay_eq_spec (V c main_v28) (V c main_v17) (V c main_v29) (V c main_v56) (V c main_v59)
    (iblk2 V c 0 t) (iblk2 V c 1 t) (iblk2 V c 2 t) (iblk2 V c 3 t) (iblk2 V c 4 t) p q ⟨5000 * t.val + p.val, hr⟩
    ?_ ?_ ?_ ?_ ?_).trans ?_
  · show (V c main_v28 : Cert.Spec.SNx128.Idx → EReal) (((cfg2.win 0).blk t).view.emb (ix2 p q)) = _
    refine congrArg (V c main_v28 : Cert.Spec.SNx128.Idx → EReal) (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * q.val = q.val; omega
  · show (V c main_v17 : Cert.Spec.SNx1.Idx → EReal) (((cfg2.win 1).blk t).view.emb (ix2 p (0 : Fin 1))) = _
    refine congrArg (V c main_v17 : Cert.Spec.SNx1.Idx → EReal) (funext fun a => Fin.ext ?_)
    match a with
    | ⟨0, _⟩ => show win2_1.index t (0 : Fin 2) * 5000 + 1 * p.val = 5000 * t.val + p.val; omega
    | ⟨1, _⟩ => show win2_1.index t (1 : Fin 2) * 1 + 1 * 0 = 0; omega
  · show (V c main_v29 : Cert.Spec.S1x128.Idx → EReal) (((cfg2.win 2).blk t).view.emb (ix2 (0 : Fin 1) q)) = _
    refine congrArg (V c main_v29 : Cert.Spec.S1x128.Idx → EReal) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · show (V c main_v56 : Cert.Spec.S1x128.Idx → EReal) (((cfg2.win 3).blk t).view.emb (ix2 (0 : Fin 1) q)) = _
    refine congrArg (V c main_v56 : Cert.Spec.S1x128.Idx → EReal) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show (V c main_v59 : Cert.Spec.S1x128.Idx → EReal) (((cfg2.win 4).blk t).view.emb (ix2 (0 : Fin 1) q)) = _
    refine congrArg (V c main_v59 : Cert.Spec.S1x128.Idx → EReal) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  · show _ = Cert.Spec.normReluAt _ _ _ _ _ ((((cfg2.win 5).blk t).view.emb (ix2 p q)) 0) ((((cfg2.win 5).blk t).view.emb (ix2 p q)) 1)
    have h0 : ((((cfg2.win 5).blk t).view.emb (ix2 p q)) 0 : Fin 100000) = ⟨5000 * t.val + p.val, hr⟩ :=
      Fin.ext (by show win2_5.index t (0 : Fin 2) * 5000 + 1 * p.val = 5000 * t.val + p.val; omega)
    have h1 : ((((cfg2.win 5).blk t).view.emb (ix2 p q)) 1 : Fin 128) = q :=
      Fin.ext (by show win2_5.index t (1 : Fin 2) * 128 + 1 * q.val = q.val; omega)
    rw [h0, h1]
    rfl

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v60).slice (win2_5.rect t)).set ↔ _
  rw [View.set_slice_whole, Rect.mem_set_unit]
  exact Iff.rfl

/-- THE ARRAY after the run is the specification's: row `r` lies in the block of point `r / 5000`. -/
theorem final (V : Entry) (c : Dev nD) :
    (dat2 (F := Ideal) V c).arrAt 5 cfg2.N
      = Cert.Spec.normRelu (V c main_v28) (V c main_v17) (V c main_v29) (V c main_v56) (V c main_v59) :=
  (dat2 V c).arrAt_eq_of_cover 5 _ (fun t _ => flushed_eq V c t) fun i => by
    have hi0 : (i 0).val < 100000 := (i 0).isLt
    have hi1 : (i 1).val < 128 := (i 1).isLt
    have hN : cfg2.N = 20 := N_2
    obtain ⟨t, htv⟩ : ∃ t : Fin cfg2.N, t.val = (i 0).val / 5000 := ⟨⟨(i 0).val / 5000, by rw [hN]; omega⟩, rfl⟩
    obtain ⟨-, -, -, -, -, -, -, -, -, -, e50, e51⟩ := idx_facts t
    refine ⟨t, flush2_5 t, ?_⟩
    rw [mem_blk]
    intro a
    match a with
    | ⟨0, _⟩ =>
      show win2_5.index t (0 : Fin 2) * 5000 ≤ (i 0).val ∧ (i 0).val < win2_5.index t (0 : Fin 2) * 5000 + 5000
      omega
    | ⟨1, _⟩ =>
      show win2_5.index t (1 : Fin 2) * 128 ≤ (i 1).val ∧ (i 1).val < win2_5.index t (1 : Fin 2) * 128 + 128
      omega

end Cert.KernelIdeal.Region2

end
-- ==== Proof.RegionScaled3.lean ====
/-
  The second scaled product, as one array: as the first, on the first layer's output and W₂.
-/
import proofs.«172011_j7241314861683_2_alg».proof.Proof.Gen.KernelIdeal.Frame
import proofs.«172011_j7241314861683_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.SL.Sem Idealize.ShloMosaic.Pipeline

/-- The TensorCore's buffer contents when the region is entered. -/
abbrev Entry := (c : Dev nD) → (b : Ref sig .tc) → Buf (Elt Ideal) ((c : Thread nD τ).loc b)

/-- The matrix product's dimension numbers: rows × contraction times contraction × columns. -/
abbrev MM := dot_S5000x128_S128x128_S5000x128_1_0_0_1_n_n

theorem hz : (![0, 0] : Fin 2 → Nat) = fun _ => 0 := funext fun a => by fin_cases a <;> rfl

/-! ## The operand indices of the product at an output index -/

theorem lhs_row (i : S5000x128.Idx) (q : MM.contr.Idx) : (MM.lhsIdx i q 0).val = (i 0).val := by
  unfold DotDims.lhsIdx
  rw [dif_neg (show ¬(0 : Fin S5000x128.rank) ∈ MM.lhsBatch by decide),
    dif_pos (show (0 : Fin S5000x128.rank) ∈ MM.lhsNonContracting by decide)]
  rfl
theorem lhs_col (i : S5000x128.Idx) (q : MM.contr.Idx) : (MM.lhsIdx i q 1).val = (q ⟨0, by decide⟩).val :=
  MM.lhsIdx_val_of_single rfl i q
theorem rhs_row (i : S5000x128.Idx) (q : MM.contr.Idx) : (MM.rhsIdx i q 0).val = (q ⟨0, by decide⟩).val :=
  MM.rhsIdx_val_of_single rfl i q
theorem rhs_col (i : S5000x128.Idx) (q : MM.contr.Idx) : (MM.rhsIdx i q 1).val = (i 1).val := by
  unfold DotDims.rhsIdx
  rw [dif_neg (show ¬(1 : Fin S128x128.rank) ∈ MM.rhsBatch by decide),
    dif_pos (show (1 : Fin S128x128.rank) ∈ MM.rhsNonContracting by decide)]
  rfl

/-- A product accumulated into zeros, read at row `p`, column `q`: the sum over the contracted axis. -/
theorem matmul_at (a : FVec Ideal S5000x128 .bf16) (b : FVec Ideal S128x128 .bf16) (p : Fin 5000) (q : Fin 128) :
    matmul MM none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 MM 128 rfl rfl).symm]
  refine Finset.sum_congr rfl fun k _ => ?_
  have hk := contrEquiv1_symm_val MM 128 rfl rfl k
  have el : MM.lhsIdx (ix2 p q) ((contrEquiv1 MM 128 rfl rfl).symm k) = ix2 p k := funext fun a => Fin.ext (by
    match a with
    | ⟨0, _⟩ => exact lhs_row _ _
    | ⟨1, _⟩ => exact (lhs_col _ _).trans hk)
  have er : MM.rhsIdx (ix2 p q) ((contrEquiv1 MM 128 rfl rfl).symm k) = ix2 k q := funext fun a => Fin.ext (by
    match a with
    | ⟨0, _⟩ => exact (rhs_row _ _).trans hk
    | ⟨1, _⟩ => exact rhs_col _ _)
  rw [el, er]

/-- A column broadcast along the rows, read at row `p`, column `q`: the column's entry of row `p`. -/
theorem colBroadcast_at (d : FVec Ideal S5000x1 .f32) (p : Fin 5000) (q : Fin 128) :
    broadcastTo S5000x128 d broadcasts_S5000x1_S5000x128 (ix2 p q) = d (ix2 p (0 : Fin 1)) := by
  refine broadcastTo_apply d broadcasts_S5000x1_S5000x128 (ix2 p q) (ix2 p (0 : Fin 1)) fun a => ?_
  match a with
  | ⟨0, _⟩ => rfl
  | ⟨1, _⟩ => rfl

/-! ## The body's arithmetic at one element -/

/-- Element `(p, q)` of the stored tile: the product of the loaded tiles summed over the contracted axis,
    times the factor of row `p` (the roundings to bf16 are the identity on the extended reals). -/
theorem payload_at (x0 : Vec Ideal S5000x128 .f32) (x1 : Vec Ideal S128x128 .f32) (x2 : Vec Ideal S5000x1 .f32)
    (p : Fin 5000) (q : Fin 128) :
    k3_pay1 (F := Ideal) x0 x1 x2 (ix2 p q)
      = (∑ k : Fin 128, x0 (ix2 p k) * x1 (ix2 k q)) * x2 (ix2 p (0 : Fin 1)) := by
  unfold k3_pay1
  rw [mulf_apply, matmul_at, colBroadcast_at, shapeCast_self, shapeCast_self]
  rfl

/-! ## The specification at one element -/

/-- The specified array at an index whose coordinates are `r` and `q`. -/
theorem spec_at (X : Cert.Spec.SNx128.Idx → EReal) (W : Cert.Spec.S128x128.Idx → EReal) (d : Cert.Spec.SNx1.Idx → EReal)
    (i : Cert.Spec.SNx128.Idx) (r : Fin 100000) (q : Fin 128) (h0 : (i 0).val = r.val) (h1 : (i 1).val = q.val) :
    Cert.Spec.scaledProduct X W d i = (∑ k : Fin 128, X (ix2 r k) * W (ix2 k q)) * d (ix2 r (0 : Fin 1)) := by
  obtain ⟨a, b, rfl⟩ : ∃ (a : Fin 100000) (b : Fin 128), i = ix2 a b := ⟨i 0, i 1, eq_ix2 i⟩
  obtain rfl : a = r := Fin.ext h0
  obtain rfl : b = q := Fin.ext h1
  rfl

/-! ## The tiles' positions -/

/-- The printed index maps, decided once over the grid: at point `t` the windows of node rows sit at tile `t`,
    the weights' window at the whole array. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `p` of the tile of node rows at point `t` is row `5000 t + p` of the array. -/
theorem rowsTile_at (V : Entry) (c : Dev nD) (t : Fin cfg3.N) (p : Fin 5000) (k : Fin 128) (r : Fin 100000)
    (hr : r.val = t.val * 5000 + p.val) :
    (iblk3 (F := Ideal) V c 0 t : Vec Ideal S5000x128 .f32) (ix2 p k)
      = (V c main_v60 : S100000x128.Idx → EReal) (ix2 r k) := by
  obtain ⟨e0, e1, -⟩ := idx_facts t
  unfold iblk3
  rw [View.read_apply]
  show V c main_v60 _ = V c main_v60 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- The weights' tile at every point is the whole array. -/
theorem weightsTile_at (V : Entry) (c : Dev nD) (t : Fin cfg3.N) (k : Fin 128) (q : Fin 128) :
    (iblk3 (F := Ideal) V c 1 t : Vec Ideal S128x128 .f32) (ix2 k q)
      = (V c main_arg4 : S128x128.Idx → EReal) (ix2 k q) := by
  obtain ⟨-, -, e2, e3, -⟩ := idx_facts t
  unfold iblk3
  rw [View.read_apply]
  show V c main_arg4 _ = V c main_arg4 _
  congr 1
  funext a
  apply Fin.ext
  match a with
  | ⟨0, _⟩ => show win3_1.index t (0 : Fin 2) * 128 + 1 * k.val = k.val; rw [e2]; omega
  | ⟨1, _⟩ => show win3_1.index t (1 : Fin 2) * 128 + 1 * q.val = q.val; rw [e3]; omega

/-- Row `p` of the tile of row factors at point `t` is the factor of row `5000 t + p`. -/
theorem factorTile_at (V : Entry) (c : Dev nD) (t : Fin cfg3.N) (p : Fin 5000) (r : Fin 100000)
    (hr : r.val = t.val * 5000 + p.val) :
    (iblk3 (F := Ideal) V c 2 t : Vec Ideal S5000x1 .f32) (ix2 p (0 : Fin 1))
      = (V c main_v17 : S100000x1.Idx → EReal) (ix2 r (0 : Fin 1)) := by
  obtain ⟨-, -, -, -, e4, e5, -⟩ := idx_facts t
  unfold iblk3
  rw [View.read_apply]
  show V c main_v17 _ = V c main_v17 _
  congr 1
  funext a
  apply Fin.ext
  match a with
  | ⟨0, _⟩ => show win3_2.index t (0 : Fin 2) * 5000 + 1 * p.val = r.val; rw [e4, hr]; omega
  | ⟨1, _⟩ => show win3_2.index t (1 : Fin 2) * 1 + 1 * 0 = 0; rw [e5]

/-! ## What a grid point writes back -/

/-- Point `t` writes back tile `t` of the specified array. -/
theorem flushed_eq (V : Entry) (c : Dev nD) (t : Fin cfg3.N) :
    (dat3 (F := Ideal) V c).flushed 3 t
      = ((cfg3.win 3).blk t).view.read (Elt Ideal)
          (Cert.Spec.scaledProduct (V c main_v60) (V c main_arg4) (V c main_v17)) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S128x128) hz,
    View.ld_unit_zero (S := S5000x1) hz]
  obtain ⟨-, -, -, -, -, -, e6, e7⟩ := idx_facts t
  have hN : grid3.N = 20 := N_3
  have ht : t.val < 20 := by have h : t.val < grid3.N := t.isLt; rw [hN] at h; exact h
  funext j
  obtain ⟨p, q, rfl⟩ : ∃ (p : Fin 5000) (q : Fin 128), j = ix2 p q := ⟨j 0, j 1, eq_ix2 j⟩
  have hp : p.val < 5000 := p.isLt
  refine (payload_at (iblk3 V c 0 t) (iblk3 V c 1 t) (iblk3 V c 2 t) p q).trans ?_
  show _ = Cert.Spec.scaledProduct (V c main_v60) (V c main_arg4) (V c main_v17)
    (((cfg3.win 3).blk t).view.emb (ix2 p q))
  rw [spec_at _ _ _ _ (⟨t.val * 5000 + p.val, by omega⟩ : Fin 100000) q
    (by show win3_3.index t (0 : Fin 2) * 5000 + 1 * p.val = t.val * 5000 + p.val; rw [e6]; omega)
    (by show win3_3.index t (1 : Fin 2) * 128 + 1 * q.val = q.val; rw [e7]; omega)]
  exact congrArg₂ (· * ·)
    (Finset.sum_congr rfl fun k _ => congrArg₂ (· * ·) (rowsTile_at V c t p k _ rfl) (weightsTile_at V c t k q))
    (factorTile_at V c t p _ rfl)

/-! ## The tiles fill the array -/

/-- An index of the array is in point `t`'s tile iff each coordinate is in the tile's range on its axis. -/
theorem mem_tile (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v61).slice (win3_3.rect t)).set ↔ _
  rw [View.set_slice_whole, Rect.mem_set_unit]
  exact Iff.rfl

/-- Row `r` is in the tile of point `r / 5000`, which is written back. -/
theorem cover (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  have hN : grid3.N = 20 := N_3
  have hlt : (i 0).val / 5000 < grid3.N := by rw [hN]; omega
  obtain ⟨-, -, -, -, -, -, e6, e7⟩ := idx_facts ⟨(i 0).val / 5000, hlt⟩
  refine ⟨⟨(i 0).val / 5000, hlt⟩, flush3_3 _, ?_⟩
  rw [mem_tile]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win3_3.index ⟨(i 0).val / 5000, hlt⟩ (1 : Fin 2) * 128 ≤ (i 1).val
      ∧ (i 1).val < win3_3.index ⟨(i 0).val / 5000, hlt⟩ (1 : Fin 2) * 128 + 128
    rw [e7]
    omega

/-- The array after the region: the specified scaled product, every element. -/
theorem final (V : Entry) (c : Dev nD) :
    (dat3 (F := Ideal) V c).arrAt 3 cfg3.N
      = Cert.Spec.scaledProduct (V c main_v60) (V c main_arg4) (V c main_v17) := by
  exact (dat3 (F := Ideal) V c).arrAt_eq_of_cover 3
    (Cert.Spec.scaledProduct (V c main_v60) (V c main_arg4) (V c main_v17))
    (fun t _ => flushed_eq V c t) cover

end Cert.KernelIdeal.Region3

end
-- ==== Proof.RegionStats4.lean ====
/-
  The second layer's partial column sums, as two arrays: as the first layer's.
-/
import proofs.«172011_j7241314861683_2_alg».proof.Proof.Gen.KernelIdeal.Frame
import proofs.«172011_j7241314861683_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx
open Idealize.SL.Sem Idealize.ShloMosaic.Pipeline

/-- The TensorCore's buffer contents when the region is entered. -/
abbrev Entry := (c : Dev nD) → (b : Ref sig .tc) → Buf (Elt Ideal) ((c : Thread nD τ).loc b)

/-- The zero offsets of a whole-buffer access, however spelt. -/
theorem hz : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value `h = d · A + b` at row `p`, column `q` of the tile. -/
theorem pay1_apply (v0 : Vec Ideal S5000x1 .f32) (v2 : Vec Ideal S5000x128 .f32) (v6 : Vec Ideal S1x128 .f32)
    (p : Fin 5000) (q : Fin 128) :
    k4_pay1 (F := Ideal) v0 v2 v6 (ix2 p q)
      = (v0 (ix2 p (0 : Fin 1)) : EReal) * v2 (ix2 p q) + v6 (ix2 (0 : Fin 1) q) := by
  unfold k4_pay1
  rw [addf_apply, mulf_apply, broadcastTo_a1_ab_apply, broadcastTo_1b_ab_apply, shapeCast_self, shapeCast_self,
    shapeCast_self]

/-- A sum over the rows of a `[5000, 128]` value, read at lane `q`. -/
theorem laneSum_apply (src : FVec Ideal S5000x128 .f32) (h : S5000x128.Reduces [0] S128) (hφ : FKind.Formats .f32)
    (hacc : (0x00000000#32 : BitVec 32) = 0x00000000#32) (q : Fin 128) :
    multiReduction (F := Ideal) .add [0] S128 src 0x00000000#32 h hφ hacc (ix1 q) = ∑ r : Fin 5000, src (ix2 r q) := by
  refine (Ideal.multiReduction_add_single src 0x00000000#32 h hφ hacc (ix1 q)).trans ?_
  refine Finset.sum_congr rfl fun r _ => congrArg src ?_
  funext a
  match a with
  | ⟨0, _⟩ => rfl
  | ⟨1, _⟩ => rfl

/-- What the body stores in the table of sums: every one of the 8 rows holds the column sums of `h` over the tile. -/
theorem pay2_apply (v0 : Vec Ideal S5000x1 .f32) (v2 : Vec Ideal S5000x128 .f32) (v6 : Vec Ideal S1x128 .f32)
    (p : Fin 8) (q : Fin 128) :
    k4_pay2 (F := Ideal) v0 v2 v6 (ix2 p q) = ∑ r : Fin 5000, k4_pay1 (F := Ideal) v0 v2 v6 (ix2 r q) := by
  unfold k4_pay2
  rw [broadcastTo_1b_ab_apply, shapeCast_self, shapeCast_a_1a_apply, laneSum_apply]

/-- What the body stores in the table of sums of squares. -/
theorem pay3_apply (v0 : Vec Ideal S5000x1 .f32) (v2 : Vec Ideal S5000x128 .f32) (v6 : Vec Ideal S1x128 .f32)
    (p : Fin 8) (q : Fin 128) :
    k4_pay3 (F := Ideal) v0 v2 v6 (ix2 p q)
      = ∑ r : Fin 5000, k4_pay1 (F := Ideal) v0 v2 v6 (ix2 r q) * k4_pay1 (F := Ideal) v0 v2 v6 (ix2 r q) := by
  unfold k4_pay3
  rw [broadcastTo_1b_ab_apply, shapeCast_self, shapeCast_a_1a_apply, laneSum_apply]
  rfl

/-- Where each window's block sits at grid point `t`: the three tables move with the point along the rows, the
    bias row stays. Decided over the 20 points. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The aggregated rows' block at point `t` is rows `5000 t … 5000 t + 4999` of the array. -/
theorem blockA_apply (V : Entry) (c : Dev nD) (t : Fin cfg4.N) (r : Fin 5000) (q : Fin 128) (k : Fin 100000)
    (hk : k.val = 5000 * t.val + r.val) :
    (iblk4 (F := Ideal) V c 0 t : Vec Ideal S5000x128 .f32) (ix2 r q)
      = (V c main_v71 : S100000x128.Idx → EReal) (ix2 k q) := by
  obtain ⟨e0, e1, -⟩ := idx_facts t
  unfold iblk4
  rw [View.read_apply]
  show V c main_v71 _ = V c main_v71 _
  congr 1
  funext a
  apply Fin.ext
  match a with
  | ⟨0, _⟩ => show win4_0.index t (0 : Fin 2) * 5000 + 1 * r.val = k.val; rw [e0, hk]; omega
  | ⟨1, _⟩ => show win4_0.index t (1 : Fin 2) * 128 + 1 * q.val = q.val; rw [e1]; omega

/-- The per-node factors' block at point `t` is rows `5000 t … 5000 t + 4999` of the column. -/
theorem blockD_apply (V : Entry) (c : Dev nD) (t : Fin cfg4.N) (r : Fin 5000) (k : Fin 100000)
    (hk : k.val = 5000 * t.val + r.val) :
    (iblk4 (F := Ideal) V c 1 t : Vec Ideal S5000x1 .f32) (ix2 r (0 : Fin 1))
      = (V c main_v17 : S100000x1.Idx → EReal) (ix2 k (0 : Fin 1)) := by
  obtain ⟨-, -, e0, e1, -⟩ := idx_facts t
  unfold iblk4
  rw [View.read_apply]
  show V c main_v17 _ = V c main_v17 _
  congr 1
  funext a
  apply Fin.ext
  match a with
  | ⟨0, _⟩ => show win4_1.index t (0 : Fin 2) * 5000 + 1 * r.val = k.val; rw [e0, hk]; omega
  | ⟨1, _⟩ => show win4_1.index t (1 : Fin 2) * 1 + 1 * 0 = 0; rw [e1]

/-- The bias row's block is the whole row at every point. -/
theorem blockB_apply (V : Entry) (c : Dev nD) (t : Fin cfg4.N) (q : Fin 128) :
    (iblk4 (F := Ideal) V c 2 t : Vec Ideal S1x128 .f32) (ix2 (0 : Fin 1) q)
      = (V c main_v72 : S1x128.Idx → EReal) (ix2 (0 : Fin 1) q) := by
  obtain ⟨-, -, -, -, e0, e1, -⟩ := idx_facts t
  unfold iblk4
  rw [View.read_apply]
  show V c main_v72 _ = V c main_v72 _
  congr 1
  funext a
  apply Fin.ext
  match a with
  | ⟨0, _⟩ => show win4_2.index t (0 : Fin 2) * 1 + 1 * 0 = 0; rw [e0]
  | ⟨1, _⟩ => show win4_2.index t (1 : Fin 2) * 128 + 1 * q.val = q.val; rw [e1]; omega

/-- The rows of tile `t`: the node with position `r` in the tile that table row `8 t + p` belongs to. -/
theorem tileNode_val (t : Fin cfg4.N) (p : Fin 8) (k0 : Fin 160) (hk0 : k0.val = 8 * t.val + p.val) (r : Fin 5000) :
    (Cert.Spec.tileNode k0 r).val = 5000 * t.val + r.val := by
  show 5000 * (k0.val / 8) + r.val = 5000 * t.val + r.val
  have := p.isLt
  rw [hk0]; omega

/-- The body's value at row `r` of tile `t` is the convolution's output at that node. -/
theorem conv_point (V : Entry) (c : Dev nD) (t : Fin cfg4.N) (p : Fin 8) (q : Fin 128) (i : S160x128.Idx)
    (h0 : (i 0).val = 8 * t.val + p.val) (h1 : (i 1).val = q.val) (r : Fin 5000) :
    k4_pay1 (F := Ideal) (iblk4 V c 1 t) (iblk4 V c 0 t) (iblk4 V c 2 t) (ix2 r q)
      = Cert.Spec.convOutAt (V c main_v71) (V c main_v17) (V c main_v72) (Cert.Spec.tileNode (i 0) r) (i 1) := by
  have hq : (i 1 : Fin 128) = q := Fin.ext h1
  rw [pay1_apply, blockA_apply V c t r q (Cert.Spec.tileNode (i 0) r) (tileNode_val t p (i 0) h0 r),
    blockD_apply V c t r (Cert.Spec.tileNode (i 0) r) (tileNode_val t p (i 0) h0 r), blockB_apply V c t q, hq]
  rfl

/-- What point `t` leaves in the table of sums, element by element. -/
theorem sum_point (V : Entry) (c : Dev nD) (t : Fin cfg4.N) (j : S8x128.Idx) (i : S160x128.Idx)
    (h0 : (i 0).val = 8 * t.val + (j 0).val) (h1 : (i 1).val = (j 1).val) :
    k4_pay2 (F := Ideal) (iblk4 V c 1 t) (iblk4 V c 0 t) (iblk4 V c 2 t) j
      = Cert.Spec.partSum (V c main_v71) (V c main_v17) (V c main_v72) i := by
  obtain ⟨p, q, rfl⟩ : ∃ (p : Fin 8) (q : Fin 128), j = ix2 p q := ⟨j 0, j 1, eq_ix2 j⟩
  rw [pay2_apply]
  show _ = ∑ r : Fin 5000, Cert.Spec.convOutAt _ _ _ (Cert.Spec.tileNode (i 0) r) (i 1)
  exact Finset.sum_congr rfl fun r _ => conv_point V c t p q i h0 h1 r

/-- What point `t` leaves in the table of sums of squares, element by element. -/
theorem sq_point (V : Entry) (c : Dev nD) (t : Fin cfg4.N) (j : S8x128.Idx) (i : S160x128.Idx)
    (h0 : (i 0).val = 8 * t.val + (j 0).val) (h1 : (i 1).val = (j 1).val) :
    k4_pay3 (F := Ideal) (iblk4 V c 1 t) (iblk4 V c 0 t) (iblk4 V c 2 t) j
      = Cert.Spec.partSq (V c main_v71) (V c main_v17) (V c main_v72) i := by
  obtain ⟨p, q, rfl⟩ : ∃ (p : Fin 8) (q : Fin 128), j = ix2 p q := ⟨j 0, j 1, eq_ix2 j⟩
  rw [pay3_apply]
  show _ = ∑ r : Fin 5000, Cert.Spec.convOutAt _ _ _ (Cert.Spec.tileNode (i 0) r) (i 1)
      * Cert.Spec.convOutAt _ _ _ (Cert.Spec.tileNode (i 0) r) (i 1)
  exact Finset.sum_congr rfl fun r _ => by rw [conv_point V c t p q i h0 h1 r]

/-- WHAT POINT `t` WRITES BACK to the table of sums is block `t` of the partial sums. -/
theorem flushed_sum (V : Entry) (c : Dev nD) (t : Fin cfg4.N) :
    (dat4 (F := Ideal) V c).flushed 3 t
      = ((cfg4.win 3).blk t).view.read (Elt Ideal)
          (Cert.Spec.partSum (V c main_v71) (V c main_v17) (V c main_v72)) := by
  show (cfg4.win 3).cut (grid4.coords t) ((dat4 V c).after 3 t) = _
  rw [after4_3]
  unfold out4_3
  rw [View.canon_unit_zero hz]
  simp only [View.ld_unit_zero (S := S5000x128) hz, View.ld_unit_zero (S := S5000x1) hz,
    View.ld_unit_zero (S := S1x128) hz]
  obtain ⟨-, -, -, -, -, -, e0, e1, -⟩ := idx_facts t
  funext j
  show k4_pay2 (F := Ideal) (iblk4 V c 1 t) (iblk4 V c 0 t) (iblk4 V c 2 t) j
      = Cert.Spec.partSum (V c main_v71) (V c main_v17) (V c main_v72) (((cfg4.win 3).blk t).view.emb j)
  refine sum_point V c t j _ ?_ ?_
  · show win4_3.index t (0 : Fin 2) * 8 + 1 * (j 0).val = 8 * t.val + (j 0).val; rw [e0]; omega
  · show win4_3.index t (1 : Fin 2) * 128 + 1 * (j 1).val = (j 1).val; rw [e1]; omega

/-- WHAT POINT `t` WRITES BACK to the table of sums of squares is block `t` of the partial sums of squares. -/
theorem flushed_sq (V : Entry) (c : Dev nD) (t : Fin cfg4.N) :
    (dat4 (F := Ideal) V c).flushed 4 t
      = ((cfg4.win 4).blk t).view.read (Elt Ideal)
          (Cert.Spec.partSq (V c main_v71) (V c main_v17) (V c main_v72)) := by
  show (cfg4.win 4).cut (grid4.coords t) ((dat4 V c).after 4 t) = _
  rw [after4_4]
  unfold out4_4
  rw [View.canon_unit_zero hz]
  simp only [View.ld_unit_zero (S := S5000x128) hz, View.ld_unit_zero (S := S5000x1) hz,
    View.ld_unit_zero (S := S1x128) hz]
  obtain ⟨-, -, -, -, -, -, -, -, e0, e1⟩ := idx_facts t
  funext j
  show k4_pay3 (F := Ideal) (iblk4 V c 1 t) (iblk4 V c 0 t) (iblk4 V c 2 t) j
      = Cert.Spec.partSq (V c main_v71) (V c main_v17) (V c main_v72) (((cfg4.win 4).blk t).view.emb j)
  refine sq_point V c t j _ ?_ ?_
  · show win4_4.index t (0 : Fin 2) * 8 + 1 * (j 0).val = 8 * t.val + (j 0).val; rw [e0]; omega
  · show win4_4.index t (1 : Fin 2) * 128 + 1 * (j 1).val = (j 1).val; rw [e1]; omega

/-- A table index is in point `t`'s block of the table of sums iff each coordinate is in the block's range. -/
theorem mem_blk_sum (t : Fin cfg4.N) (i : S160x128.Idx) :
    i ∈ ((cfg4.win 3).blk t).view.set ↔ ∀ a : Fin 2, win4_3.index t a * S8x128.size a ≤ (i a).val
      ∧ (i a).val < win4_3.index t a * S8x128.size a + S8x128.size a := by
  show i ∈ ((View.whole main_v73_0).slice (win4_3.rect t)).set ↔ _
  rw [View.set_slice_whole, Rect.mem_set_unit]
  exact Iff.rfl

/-- The same for the table of sums of squares. -/
theorem mem_blk_sq (t : Fin cfg4.N) (i : S160x128.Idx) :
    i ∈ ((cfg4.win 4).blk t).view.set ↔ ∀ a : Fin 2, win4_4.index t a * S8x128.size a ≤ (i a).val
      ∧ (i a).val < win4_4.index t a * S8x128.size a + S8x128.size a := by
  show i ∈ ((View.whole main_v73_1).slice (win4_4.rect t)).set ↔ _
  rw [View.set_slice_whole, Rect.mem_set_unit]
  exact Iff.rfl

/-- Row `q` of the table of sums is written by the point `q / 8`: the blocks tile the table. -/
theorem cover_sum (i : S160x128.Idx) :
    ∃ t : Fin cfg4.N, (cfg4.win 3).flush t = true ∧ i ∈ ((cfg4.win 3).blk t).view.set := by
  have hN : cfg4.N = 20 := N_4
  have hi0 : (i 0).val < 160 := idx2_lt0 i
  have hi1 : (i 1).val < 128 := idx2_lt1 i
  obtain ⟨t, ht⟩ : ∃ t : Fin cfg4.N, t.val = (i 0).val / 8 := ⟨⟨(i 0).val / 8, by rw [hN]; omega⟩, rfl⟩
  obtain ⟨-, -, -, -, -, -, e0, e1, -⟩ := idx_facts t
  refine ⟨t, flush4_3 t, ?_⟩
  rw [mem_blk_sum]
  intro a
  match a with
  | ⟨0, _⟩ =>
    show win4_3.index t (0 : Fin 2) * 8 ≤ (i 0).val ∧ (i 0).val < win4_3.index t (0 : Fin 2) * 8 + 8
    rw [e0]; omega
  | ⟨1, _⟩ =>
    show win4_3.index t (1 : Fin 2) * 128 ≤ (i 1).val ∧ (i 1).val < win4_3.index t (1 : Fin 2) * 128 + 128
    rw [e1]; omega

/-- The same for the table of sums of squares. -/
theorem cover_sq (i : S160x128.Idx) :
    ∃ t : Fin cfg4.N, (cfg4.win 4).flush t = true ∧ i ∈ ((cfg4.win 4).blk t).view.set := by
  have hN : cfg4.N = 20 := N_4
  have hi0 : (i 0).val < 160 := idx2_lt0 i
  have hi1 : (i 1).val < 128 := idx2_lt1 i
  obtain ⟨t, ht⟩ : ∃ t : Fin cfg4.N, t.val = (i 0).val / 8 := ⟨⟨(i 0).val / 8, by rw [hN]; omega⟩, rfl⟩
  obtain ⟨-, -, -, -, -, -, -, -, e0, e1⟩ := idx_facts t
  refine ⟨t, flush4_4 t, ?_⟩
  rw [mem_blk_sq]
  intro a
  match a with
  | ⟨0, _⟩ =>
    show win4_4.index t (0 : Fin 2) * 8 ≤ (i 0).val ∧ (i 0).val < win4_4.index t (0 : Fin 2) * 8 + 8
    rw [e0]; omega
  | ⟨1, _⟩ =>
    show win4_4.index t (1 : Fin 2) * 128 ≤ (i 1).val ∧ (i 1).val < win4_4.index t (1 : Fin 2) * 128 + 128
    rw [e1]; omega

/-- THE TABLE OF SUMS after the region: row `q`, column `c` holds the sum of `h` over the tile of `q`. -/
theorem final_sum (V : Entry) (c : Dev nD) :
    (dat4 (F := Ideal) V c).arrAt 3 cfg4.N
      = Cert.Spec.partSum (V c main_v71) (V c main_v17) (V c main_v72) :=
  (dat4 (F := Ideal) V c).arrAt_eq_of_cover 3 _ (fun t _ => flushed_sum V c t) cover_sum

/-- THE TABLE OF SUMS OF SQUARES after the region: row `q`, column `c` holds the sum of `h²` over the tile of `q`. -/
theorem final_sq (V : Entry) (c : Dev nD) :
    (dat4 (F := Ideal) V c).arrAt 4 cfg4.N
      = Cert.Spec.partSq (V c main_v71) (V c main_v17) (V c main_v72) :=
  (dat4 (F := Ideal) V c).arrAt_eq_of_cover 4 _ (fun t _ => flushed_sq V c t) cover_sq

end Cert.KernelIdeal.Region4

end
-- ==== Proof.RegionReadout5.lean ====
/-
  The readout, as one array: element (r, c) of the 100000 × 64 result is
  Σ_k (x₁[r, k] + x₂[r, k]) · Wr[k, c] + br[c], with x₂ the second layer's normalised, rectified value
  computed in place from the aggregated rows.
-/
import proofs.«172011_j7241314861683_2_alg».proof.Proof.Gen.KernelIdeal.Frame
import proofs.«172011_j7241314861683_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx
open Idealize.SL.Sem Idealize.ShloMosaic.Pipeline

/-- The TensorCore's buffer contents when the region is entered. -/
abbrev Entry := (c : Dev nD) → (b : Ref sig .tc) → Buf (Elt Ideal) ((c : Thread nD τ).loc b)

/-! ## One element of a block -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's dimension numbers: rows of the left operand against columns of the right, one contracted axis. -/
abbrev D5 : DotDims S5000x128 S128x64 S5000x64 := dot_S5000x128_S128x64_S5000x64_1_0_0_1_n_n

theorem lhs0 (i : S5000x64.Idx) (k : D5.contr.Idx) : (D5.lhsIdx i k 0).val = (i 0).val := by
  unfold DotDims.lhsIdx
  rw [dif_neg (show ¬(0 : Fin S5000x128.rank) ∈ D5.lhsBatch by decide),
    dif_pos (show (0 : Fin S5000x128.rank) ∈ D5.lhsNonContracting by decide)]
  rfl
theorem lhs1 (i : S5000x64.Idx) (k : D5.contr.Idx) : (D5.lhsIdx i k 1).val = (k ⟨0, by decide⟩).val :=
  D5.lhsIdx_val_of_single rfl i k
theorem rhs0 (i : S5000x64.Idx) (k : D5.contr.Idx) : (D5.rhsIdx i k 0).val = (k ⟨0, by decide⟩).val :=
  D5.rhsIdx_val_of_single rfl i k
theorem rhs1 (i : S5000x64.Idx) (k : D5.contr.Idx) : (D5.rhsIdx i k 1).val = (i 1).val := by
  unfold DotDims.rhsIdx
  rw [dif_neg (show ¬(1 : Fin S128x64.rank) ∈ D5.rhsBatch by decide),
    dif_pos (show (1 : Fin S128x64.rank) ∈ D5.rhsNonContracting by decide)]
  rfl

/-- The matrix product into a zero accumulator at row `p`, column `q`: the sum over the 128 contracted coordinates. -/
theorem matmul_zero_apply {φ₁ φ₂ : FTy} (lhs : FVec Ideal S5000x128 φ₁) (rhs : FVec Ideal S128x64 φ₂) (p : Fin 5000) (q : Fin 64) :
    matmul dot_S5000x128_S128x64_S5000x64_1_0_0_1_n_n none lhs rhs (constant (F := Ideal) S5000x64 .f32 0x00000000#32) (ix2 p q)
      = ∑ k : Fin 128, lhs (ix2 p k) * rhs (ix2 k q) := by
  simp only [matmul]
  rw [Ideal.matmul_constant_zero_apply, ← Equiv.sum_comp (contrEquiv1 D5 128 rfl rfl).symm]
  refine Finset.sum_congr rfl fun k _ => ?_
  have hk := contrEquiv1_symm_val D5 128 rfl rfl k
  have el : D5.lhsIdx (ix2 p q) ((contrEquiv1 D5 128 rfl rfl).symm k) = ix2 p k := funext fun a => Fin.ext (by
    match a with
    | ⟨0, _⟩ => exact lhs0 _ _
    | ⟨1, _⟩ => exact (lhs1 _ _).trans hk)
  have er : D5.rhsIdx (ix2 p q) ((contrEquiv1 D5 128 rfl rfl).symm k) = ix2 k q := funext fun a => Fin.ext (by
    match a with
    | ⟨0, _⟩ => exact (rhs0 _ _).trans hk
    | ⟨1, _⟩ => exact rhs1 _ _)
  rw [el, er]

/-- The body's arithmetic at row `p`, column `q` of a block: the normalised, rectified entry added to the first
    layer's, the row of sums against the weight's column, plus the bias. -/
theorem pay_apply (v0 : Vec Ideal S5000x1 .f32) (v2 : Vec Ideal S5000x128 .f32) (v6 v10 v14 : Vec Ideal S1x128 .f32)
    (v20 : Vec Ideal S5000x128 .f32) (v24 : Vec Ideal S128x64 .f32) (v27 : Vec Ideal S1x64 .f32)
    (p : Fin 5000) (q : Fin 64) :
    k5_pay1 (F := Ideal) v0 v2 v6 v10 v14 v20 v24 v27 (ix2 p q)
      = (∑ k : Fin 128, (v20 (ix2 p k)
            + max (v10 (ix2 (0 : Fin 1) k) * (v0 (ix2 p (0 : Fin 1)) * v2 (ix2 p k) + v6 (ix2 (0 : Fin 1) k))
                + v14 (ix2 (0 : Fin 1) k)) 0) * v24 (ix2 k q))
        + v27 (ix2 (0 : Fin 1) q) := by
  unfold k5_pay1
  simp only [shapeCast_self]
  rw [addf_apply, broadcastTo_1b_ab_apply, matmul_zero_apply]
  refine congrArg (· + v27 (ix2 (0 : Fin 1) q)) (Finset.sum_congr rfl fun k _ => ?_)
  rw [truncf_apply, truncf_apply, addf_apply, maximumf_apply, addf_apply, mulf_apply, addf_apply, mulf_apply, broadcast_apply,
    broadcastTo_a1_ab_apply, broadcastTo_1b_ab_apply, broadcastTo_1b_ab_apply, broadcastTo_1b_ab_apply]
  show (_ + max _ (Ideal.ofBits .f32 0x00000000#32)) * _ = _
  rw [Ideal.ofBits_zero_f32]

/-- The same, with each loaded value named by the array entry it is: the specification's element. -/
theorem pay_eq_spec (A : Cert.Spec.SNx128.Idx → EReal) (d : Cert.Spec.SNx1.Idx → EReal)
    (b sc sh : Cert.Spec.S1x128.Idx → EReal) (X1 : Cert.Spec.SNx128.Idx → EReal)
    (Wr : Cert.Spec.S128x64.Idx → EReal) (br : Cert.Spec.S1x64.Idx → EReal)
    (x0 : Vec Ideal S5000x128 .f32) (x1 : Vec Ideal S5000x1 .f32) (x2 x3 x4 : Vec Ideal S1x128 .f32)
    (x5 : Vec Ideal S5000x128 .f32) (x6 : Vec Ideal S128x64 .f32) (x7 : Vec Ideal S1x64 .f32)
    (p : Fin 5000) (q : Fin 64) (r : Fin 100000)
    (h0 : ∀ k : Fin 128, x0 (ix2 p k) = A (ix2 r k)) (h1 : x1 (ix2 p (0 : Fin 1)) = d (ix2 r (0 : Fin 1)))
    (h2 : ∀ k : Fin 128, x2 (ix2 (0 : Fin 1) k) = b (ix2 (0 : Fin 1) k))
    (h3 : ∀ k : Fin 128, x3 (ix2 (0 : Fin 1) k) = sc (ix2 (0 : Fin 1) k))
    (h4 : ∀ k : Fin 128, x4 (ix2 (0 : Fin 1) k) = sh (ix2 (0 : Fin 1) k))
    (h5 : ∀ k : Fin 128, x5 (ix2 p k) = X1 (ix2 r k)) (h6 : ∀ k : Fin 128, x6 (ix2 k q) = Wr (ix2 k q))
    (h7 : x7 (ix2 (0 : Fin 1) q) = br (ix2 (0 : Fin 1) q)) :
    k5_pay1 (F := Ideal) x1 x0 x2 x3 x4 x5 x6 x7 (ix2 p q) = Cert.Spec.readoutAt A d b sc sh X1 Wr br r q := by
  rw [pay_apply, h1, h7]
  unfold Cert.Spec.readoutAt
  refine congrArg (· + br (ix2 (0 : Fin 1) q)) (Finset.sum_congr rfl fun k _ => ?_)
  rw [h0, h2, h3, h4, h5, h6]
  rfl

/-! ## From blocks to the array -/

theorem hz : (![0, 0] : Fin 2 → Nat) = fun _ => 0 := funext fun a => by fin_cases a <;> rfl

/-- The index maps over the grid: at point `t` the three row-block inputs and the output sit at block `(t, 0)`, the
    row vectors and the weight at block `(0, 0)`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- WHAT POINT `t` WRITES BACK is block `t` of the specification's array. -/
theorem flushed_eq (V : Entry) (c : Dev nD) (t : Fin cfg5.N) :
    (dat5 (F := Ideal) V c).flushed 8 t
      = ((cfg5.win 8).blk t).view.read (Elt Ideal)
          (Cert.Spec.readout (V c main_v71) (V c main_v17) (V c main_v72) (V c main_v99) (V c main_v102)
            (V c main_v60) (V c main_arg12) (V c main_v103)) := by
  show (cfg5.win 8).cut (grid5.coords t) ((dat5 V c).after 8 t) = _
  rw [after5_8]
  unfold out5_8
  rw [View.canon_unit_zero hz]
  simp only [View.ld_unit_zero (S := S5000x128) hz, View.ld_unit_zero (S := S5000x1) hz, View.ld_unit_zero (S := S1x128) hz,
    View.ld_unit_zero (S := S128x64) hz, View.ld_unit_zero (S := S1x64) hz]
  obtain ⟨e00, e01, e10, e11, e20, e21, e30, e31, e40, e41, e50, e51, e60, e61, e70, e71, e80, e81⟩ := idx_facts t
  have hN : cfg5.N = 20 := N_5
  have ht : t.val < 20 := hN ▸ t.isLt
  funext j
  obtain ⟨p, q, rfl⟩ : ∃ (p : Fin 5000) (q : Fin 64), j = ix2 p q := ⟨j 0, j 1, eq_ix2 (n0 := 5000) (n1 := 64) j⟩
  have hr : 5000 * t.val + p.val < 100000 := by have := p.isLt; omega
  refine (pay_eq_spec (V c main_v71) (V c main_v17) (V c main_v72) (V c main_v99) (V c main_v102)
    (V c main_v60) (V c main_arg12) (V c main_v103)
    (iblk5 V c 0 t) (iblk5 V c 1 t) (iblk5 V c 2 t) (iblk5 V c 3 t) (iblk5 V c 4 t) (iblk5 V c 5 t) (iblk5 V c 6 t) (iblk5 V c 7 t)
    p q ⟨5000 * t.val + p.val, hr⟩ (fun k => ?_) ?_ (fun k => ?_) (fun k => ?_) (fun k => ?_) (fun k => ?_) (fun k => ?_) ?_).trans ?_
  · show (V c main_v71 : Cert.Spec.SNx128.Idx → EReal) (((cfg5.win 0).blk t).view.emb (ix2 p k)) = _
    refine congrArg (V c main_v71 : Cert.Spec.SNx128.Idx → EReal) (funext fun a => Fin.ext ?_)
    match a with
    | ⟨0, _⟩ => show win5_0.index t (0 : Fin 2) * 5000 + 1 * p.val = 5000 * t.val + p.val; omega
    | ⟨1, _⟩ => show win5_0.index t (1 : Fin 2) * 128 + 1 * k.val = k.val; omega
  · show (V c main_v17 : Cert.Spec.SNx1.Idx → EReal) (((cfg5.win 1).blk t).view.emb (ix2 p (0 : Fin 1))) = _
    refine congrArg (V c main_v17 : Cert.Spec.SNx1.Idx → EReal) (funext fun a => Fin.ext ?_)
    match a with
    | ⟨0, _⟩ => show win5_1.index t (0 : Fin 2) * 5000 + 1 * p.val = 5000 * t.val + p.val; omega
    | ⟨1, _⟩ => show win5_1.index t (1 : Fin 2) * 1 + 1 * 0 = 0; omega
  · show (V c main_v72 : Cert.Spec.S1x128.Idx → EReal) (((cfg5.win 2).blk t).view.emb (ix2 (0 : Fin 1) k)) = _
    refine congrArg (V c main_v72 : Cert.Spec.S1x128.Idx → EReal) (funext fun a => Fin.ext ?_)
    match a with
    | ⟨0, _⟩ => show win5_2.index t (0 : Fin 2) * 1 + 1 * 0 = 0; omega
    | ⟨1, _⟩ => show win5_2.index t (1 : Fin 2) * 128 + 1 * k.val = k.val; omega
  · show (V c main_v99 : Cert.Spec.S1x128.Idx → EReal) (((cfg5.win 3).blk t).view.emb (ix2 (0 : Fin 1) k)) = _
    refine congrArg (V c main_v99 : Cert.Spec.S1x128.Idx → EReal) (funext fun a => Fin.ext ?_)
    match a with
    | ⟨0, _⟩ => show win5_3.index t (0 : Fin 2) * 1 + 1 * 0 = 0; omega
    | ⟨1, _⟩ => show win5_3.index t (1 : Fin 2) * 128 + 1 * k.val = k.val; omega
  · show (V c main_v102 : Cert.Spec.S1x128.Idx → EReal) (((cfg5.win 4).blk t).view.emb (ix2 (0 : Fin 1) k)) = _
    refine congrArg (V c main_v102 : Cert.Spec.S1x128.Idx → EReal) (funext fun a => Fin.ext ?_)
    match a with
    | ⟨0, _⟩ => show win5_4.index t (0 : Fin 2) * 1 + 1 * 0 = 0; omega
    | ⟨1, _⟩ => show win5_4.index t (1 : Fin 2) * 128 + 1 * k.val = k.val; omega
  · show (V c main_v60 : Cert.Spec.SNx128.Idx → EReal) (((cfg5.win 5).blk t).view.emb (ix2 p k)) = _
    refine congrArg (V c main_v60 : Cert.Spec.SNx128.Idx → EReal) (funext fun a => Fin.ext ?_)
    match a with
    | ⟨0, _⟩ => show win5_5.index t (0 : Fin 2) * 5000 + 1 * p.val = 5000 * t.val + p.val; omega
    | ⟨1, _⟩ => show win5_5.index t (1 : Fin 2) * 128 + 1 * k.val = k.val; omega
  · show (V c main_arg12 : Cert.Spec.S128x64.Idx → EReal) (((cfg5.win 6).blk t).view.emb (ix2 k q)) = _
    refine congrArg (V c main_arg12 : Cert.Spec.S128x64.Idx → EReal) (funext fun a => Fin.ext ?_)
    match a with
    | ⟨0, _⟩ => show win5_6.index t (0 : Fin 2) * 128 + 1 * k.val = k.val; omega
    | ⟨1, _⟩ => show win5_6.index t (1 : Fin 2) * 64 + 1 * q.val = q.val; omega
  · show (V c main_v103 : Cert.Spec.S1x64.Idx → EReal) (((cfg5.win 7).blk t).view.emb (ix2 (0 : Fin 1) q)) = _
    refine congrArg (V c main_v103 : Cert.Spec.S1x64.Idx → EReal) (funext fun a => Fin.ext ?_)
    match a with
    | ⟨0, _⟩ => show win5_7.index t (0 : Fin 2) * 1 + 1 * 0 = 0; omega
    | ⟨1, _⟩ => show win5_7.index t (1 : Fin 2) * 64 + 1 * q.val = q.val; omega
  · show _ = Cert.Spec.readoutAt _ _ _ _ _ _ _ _ ((((cfg5.win 8).blk t).view.emb (ix2 p q)) 0) ((((cfg5.win 8).blk t).view.emb (ix2 p q)) 1)
    have h0 : ((((cfg5.win 8).blk t).view.emb (ix2 p q)) 0 : Fin 100000) = ⟨5000 * t.val + p.val, hr⟩ :=
      Fin.ext (by show win5_8.index t (0 : Fin 2) * 5000 + 1 * p.val = 5000 * t.val + p.val; omega)
    have h1 : ((((cfg5.win 8).blk t).view.emb (ix2 p q)) 1 : Fin 64) = q :=
      Fin.ext (by show win5_8.index t (1 : Fin 2) * 64 + 1 * q.val = q.val; omega)
    rw [h0, h1]
    rfl

/-- An index of the array is in point `t`'s block iff each coordinate is in the block's range on its axis. -/
theorem mem_blk (t : Fin cfg5.N) (i : S100000x64.Idx) :
    i ∈ ((cfg5.win 8).blk t).view.set ↔ ∀ a : Fin 2, win5_8.index t a * S5000x64.size a ≤ (i a).val
      ∧ (i a).val < win5_8.index t a * S5000x64.size a + S5000x64.size a := by
  show i ∈ ((View.whole main_v104).slice (win5_8.rect t)).set ↔ _
  rw [View.set_slice_whole, Rect.mem_set_unit]
  exact Iff.rfl

/-- THE ARRAY after the run is the specification's: row `r` lies in the block of point `r / 5000`. -/
theorem final (V : Entry) (c : Dev nD) :
    (dat5 (F := Ideal) V c).arrAt 8 cfg5.N
      = Cert.Spec.readout (V c main_v71) (V c main_v17) (V c main_v72) (V c main_v99) (V c main_v102)
          (V c main_v60) (V c main_arg12) (V c main_v103) :=
  (dat5 V c).arrAt_eq_of_cover 8 _ (fun t _ => flushed_eq V c t) fun i => by
    have hi0 : (i 0).val < 100000 := (i 0).isLt
    have hi1 : (i 1).val < 64 := (i 1).isLt
    have hN : cfg5.N = 20 := N_5
    obtain ⟨t, htv⟩ : ∃ t : Fin cfg5.N, t.val = (i 0).val / 5000 := ⟨⟨(i 0).val / 5000, by rw [hN]; omega⟩, rfl⟩
    obtain ⟨-, -, -, -, -, -, -, -, -, -, -, -, -, -, -, -, e80, e81⟩ := idx_facts t
    refine ⟨t, flush5_8 t, ?_⟩
    rw [mem_blk]
    intro a
    match a with
    | ⟨0, _⟩ =>
      show win5_8.index t (0 : Fin 2) * 5000 ≤ (i 0).val ∧ (i 0).val < win5_8.index t (0 : Fin 2) * 5000 + 5000
      omega
    | ⟨1, _⟩ =>
      show win5_8.index t (1 : Fin 2) * 64 ≤ (i 1).val ∧ (i 1).val < win5_8.index t (1 : Fin 2) * 64 + 64
      omega

end Cert.KernelIdeal.Region5

end
-- ==== Proof.KernelChain.lean ====
/-
  The kernel's result buffer as one function of the argument arrays.

  Walking @main's thirteen segments in order: each region's output array is the specification's
  function of that region's input arrays as the region finds them; each stretch of host operations
  writes the aggregate, the bias row or the normalisation parameters from what the previous segment
  left; and every buffer a later segment reads has been carried unchanged across the segments between.
  The per-node factor d and the two edge-index vectors are whatever the first stretches leave in their
  buffers: the result is stated as a function of those three and of the argument arrays.
-/
import proofs.«172011_j7241314861683_2_alg».proof.Proof.KernelKept
import proofs.«172011_j7241314861683_2_alg».proof.Proof.KernelSpec
import proofs.«172011_j7241314861683_2_alg».proof.Proof.EdgeRead
import proofs.«172011_j7241314861683_2_alg».proof.Proof.Prefix
import proofs.«172011_j7241314861683_2_alg».proof.Proof.EdgeStretch1
import proofs.«172011_j7241314861683_2_alg».proof.Proof.EdgeStretch2
import proofs.«172011_j7241314861683_2_alg».proof.Proof.NormStretch1
import proofs.«172011_j7241314861683_2_alg».proof.Proof.NormStretch2
import proofs.«172011_j7241314861683_2_alg».proof.Proof.RegionScaled0
import proofs.«172011_j7241314861683_2_alg».proof.Proof.RegionStats1
import proofs.«172011_j7241314861683_2_alg».proof.Proof.RegionNorm2
import proofs.«172011_j7241314861683_2_alg».proof.Proof.RegionScaled3
import proofs.«172011_j7241314861683_2_alg».proof.Proof.RegionStats4
import proofs.«172011_j7241314861683_2_alg».proof.Proof.RegionReadout5

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Cert.Spec Cert.KSpec

variable (m : (ℓ : Loc nD τ sig) → Buf (Elt Ideal) ℓ) (ρ : Dev nD → PrngReg) (c : Dev nD)

/-- An argument array as launched. -/
abbrev A (b : Ref sig .tc) : Buf (Elt Ideal) ((c : Thread nD τ).loc b) := m ((c : Thread nD τ).loc b)

/-- The edges' sources, destinations and the per-node factor, as the first stretches leave them. -/
abbrev srcK : IVec Cert.Edge.EdgeVec 32 := W3 m ρ c (Proc.devRef .tc main_v3)
abbrev dstK : IVec Cert.Edge.EdgeVec 32 := W3 m ρ c (Proc.devRef .tc main_v6)
abbrev dK : Cert.KSpec.NodeV.Idx → EReal := W3 m ρ c (Proc.devRef .tc main_v16)

/-! ### Carried buffers, at the boundaries where they are read -/

/-- The per-node factor as a column: the reshape reads the vector at the row's number. -/
theorem v17_at3 : W3 m ρ c (Proc.devRef .tc main_v17) = dcol (dK m ρ c) := by
  funext i
  refine (Prefix.col_read (W2 m ρ c) i).trans ?_
  show W2 m ρ c (Proc.devRef .tc main_v16) (ix1 (i 0)) = W3 m ρ c (Proc.devRef .tc main_v16) (ix1 (i 0))
  rw [Kept.v16_at3]
theorem v17_at4 : W4 m ρ c (Proc.devRef .tc main_v17) = dcol (dK m ρ c) :=
  (Kept.keep4_v17 m ρ c).trans (v17_at3 m ρ c)
theorem v17_at5 : W5 m ρ c (Proc.devRef .tc main_v17) = dcol (dK m ρ c) :=
  (Kept.keep5_v17 m ρ c).trans (v17_at4 m ρ c)
theorem v17_at6 : W6 m ρ c (Proc.devRef .tc main_v17) = dcol (dK m ρ c) :=
  (Kept.keep6_v17 m ρ c).trans (v17_at5 m ρ c)
theorem v17_at7 : W7 m ρ c (Proc.devRef .tc main_v17) = dcol (dK m ρ c) :=
  (Kept.keep7_v17 m ρ c).trans (v17_at6 m ρ c)
theorem v17_at8 : W8 m ρ c (Proc.devRef .tc main_v17) = dcol (dK m ρ c) :=
  (Kept.keep8_v17 m ρ c).trans (v17_at7 m ρ c)
theorem v17_at9 : W9 m ρ c (Proc.devRef .tc main_v17) = dcol (dK m ρ c) :=
  (Kept.keep9_v17 m ρ c).trans (v17_at8 m ρ c)
theorem v17_at10 : W10 m ρ c (Proc.devRef .tc main_v17) = dcol (dK m ρ c) :=
  (Kept.keep10_v17 m ρ c).trans (v17_at9 m ρ c)
theorem v17_at11 : W11 m ρ c (Proc.devRef .tc main_v17) = dcol (dK m ρ c) :=
  (Kept.keep11_v17 m ρ c).trans (v17_at10 m ρ c)
theorem v17_at12 : W12 m ρ c (Proc.devRef .tc main_v17) = dcol (dK m ρ c) :=
  (Kept.keep12_v17 m ρ c).trans (v17_at11 m ρ c)

theorem v3_at4 : W4 m ρ c (Proc.devRef .tc main_v3) = srcK m ρ c := Kept.keep4_v3 m ρ c
theorem v6_at4 : W4 m ρ c (Proc.devRef .tc main_v6) = dstK m ρ c := Kept.keep4_v6 m ρ c
theorem v3_at9 : W9 m ρ c (Proc.devRef .tc main_v3) = srcK m ρ c := (Kept.keep9_v3 m ρ c).trans ((Kept.keep8_v3 m ρ c).trans ((Kept.keep7_v3 m ρ c).trans ((Kept.keep6_v3 m ρ c).trans ((Kept.keep5_v3 m ρ c).trans (Kept.keep4_v3 m ρ c)))))
theorem v6_at9 : W9 m ρ c (Proc.devRef .tc main_v6) = dstK m ρ c := (Kept.keep9_v6 m ρ c).trans ((Kept.keep8_v6 m ρ c).trans ((Kept.keep7_v6 m ρ c).trans ((Kept.keep6_v6 m ρ c).trans ((Kept.keep5_v6 m ρ c).trans (Kept.keep4_v6 m ρ c)))))

theorem arg3_at4 : W4 m ρ c (Proc.devRef .tc main_arg3) = A m c main_arg3 :=
  (Kept.keep4_arg3 m ρ c).trans (Kept.arg3_at3 m ρ c)
theorem arg6_at6 : W6 m ρ c (Proc.devRef .tc main_arg6) = A m c main_arg6 :=
  ((Kept.keep6_arg6 m ρ c).trans ((Kept.keep5_arg6 m ρ c).trans (Kept.keep4_arg6 m ρ c))).trans (Kept.arg6_at3 m ρ c)
theorem arg7_at6 : W6 m ρ c (Proc.devRef .tc main_arg7) = A m c main_arg7 :=
  ((Kept.keep6_arg7 m ρ c).trans ((Kept.keep5_arg7 m ρ c).trans (Kept.keep4_arg7 m ρ c))).trans (Kept.arg7_at3 m ρ c)
theorem arg8_at6 : W6 m ρ c (Proc.devRef .tc main_arg8) = A m c main_arg8 :=
  ((Kept.keep6_arg8 m ρ c).trans ((Kept.keep5_arg8 m ρ c).trans (Kept.keep4_arg8 m ρ c))).trans (Kept.arg8_at3 m ρ c)
theorem arg4_at8 : W8 m ρ c (Proc.devRef .tc main_arg4) = A m c main_arg4 :=
  ((Kept.keep8_arg4 m ρ c).trans ((Kept.keep7_arg4 m ρ c).trans ((Kept.keep6_arg4 m ρ c).trans ((Kept.keep5_arg4 m ρ c).trans (Kept.keep4_arg4 m ρ c))))).trans (Kept.arg4_at3 m ρ c)
theorem arg5_at9 : W9 m ρ c (Proc.devRef .tc main_arg5) = A m c main_arg5 :=
  ((Kept.keep9_arg5 m ρ c).trans ((Kept.keep8_arg5 m ρ c).trans ((Kept.keep7_arg5 m ρ c).trans ((Kept.keep6_arg5 m ρ c).trans ((Kept.keep5_arg5 m ρ c).trans (Kept.keep4_arg5 m ρ c)))))).trans (Kept.arg5_at3 m ρ c)
theorem arg9_at11 : W11 m ρ c (Proc.devRef .tc main_arg9) = A m c main_arg9 :=
  ((Kept.keep11_arg9 m ρ c).trans ((Kept.keep10_arg9 m ρ c).trans ((Kept.keep9_arg9 m ρ c).trans ((Kept.keep8_arg9 m ρ c).trans ((Kept.keep7_arg9 m ρ c).trans ((Kept.keep6_arg9 m ρ c).trans ((Kept.keep5_arg9 m ρ c).trans (Kept.keep4_arg9 m ρ c)))))))).trans (Kept.arg9_at3 m ρ c)
theorem arg10_at11 : W11 m ρ c (Proc.devRef .tc main_arg10) = A m c main_arg10 :=
  ((Kept.keep11_arg10 m ρ c).trans ((Kept.keep10_arg10 m ρ c).trans ((Kept.keep9_arg10 m ρ c).trans ((Kept.keep8_arg10 m ρ c).trans ((Kept.keep7_arg10 m ρ c).trans ((Kept.keep6_arg10 m ρ c).trans ((Kept.keep5_arg10 m ρ c).trans (Kept.keep4_arg10 m ρ c)))))))).trans (Kept.arg10_at3 m ρ c)
theorem arg11_at11 : W11 m ρ c (Proc.devRef .tc main_arg11) = A m c main_arg11 :=
  ((Kept.keep11_arg11 m ρ c).trans ((Kept.keep10_arg11 m ρ c).trans ((Kept.keep9_arg11 m ρ c).trans ((Kept.keep8_arg11 m ρ c).trans ((Kept.keep7_arg11 m ρ c).trans ((Kept.keep6_arg11 m ρ c).trans ((Kept.keep5_arg11 m ρ c).trans (Kept.keep4_arg11 m ρ c)))))))).trans (Kept.arg11_at3 m ρ c)
theorem arg13_at11 : W11 m ρ c (Proc.devRef .tc main_arg13) = A m c main_arg13 :=
  ((Kept.keep11_arg13 m ρ c).trans ((Kept.keep10_arg13 m ρ c).trans ((Kept.keep9_arg13 m ρ c).trans ((Kept.keep8_arg13 m ρ c).trans ((Kept.keep7_arg13 m ρ c).trans ((Kept.keep6_arg13 m ρ c).trans ((Kept.keep5_arg13 m ρ c).trans (Kept.keep4_arg13 m ρ c)))))))).trans (Kept.arg13_at3 m ρ c)
theorem arg12_at12 : W12 m ρ c (Proc.devRef .tc main_arg12) = A m c main_arg12 :=
  ((Kept.keep12_arg12 m ρ c).trans ((Kept.keep11_arg12 m ρ c).trans ((Kept.keep10_arg12 m ρ c).trans ((Kept.keep9_arg12 m ρ c).trans ((Kept.keep8_arg12 m ρ c).trans ((Kept.keep7_arg12 m ρ c).trans ((Kept.keep6_arg12 m ρ c).trans ((Kept.keep5_arg12 m ρ c).trans (Kept.keep4_arg12 m ρ c))))))))).trans (Kept.arg12_at3 m ρ c)

/-! ### Layer 1 -/

/-- Region 0: the pre-scaled rows of x · W₁. -/
theorem v18_at4 : W4 m ρ c (Proc.devRef .tc main_v18)
    = scaledProduct (A m c main_arg0) (A m c main_arg2) (dcol (dK m ρ c)) := by
  refine (W4_arr m ρ c 3).trans ((Region0.final (V3 m ρ) c).trans ?_)
  show scaledProduct (W3 m ρ c (Proc.devRef .tc main_arg0)) (W3 m ρ c (Proc.devRef .tc main_arg2)) (W3 m ρ c (Proc.devRef .tc main_v17)) = _
  rw [Kept.arg0_at3, Kept.arg2_at3, v17_at3]

/-- The first aggregate. -/
theorem v28_at5 : W5 m ρ c (Proc.devRef .tc main_v28)
    = layerAgg (srcK m ρ c) (dstK m ρ c) (dK m ρ c) (A m c main_arg0) (A m c main_arg2) := by
  refine (EdgeStretch1.agg_term (W4 m ρ c)).trans ?_
  rw [v18_at4, v3_at4, v6_at4]
  exact Cert.EdgeRead.agg_term_eq _ _ _ _ _ _

/-- The first bias as a row. -/
theorem v29_at5 : W5 m ρ c (Proc.devRef .tc main_v29) = row128 (A m c main_arg3) := by
  funext i
  refine (EdgeStretch1.bias_read (W4 m ρ c) i).trans ?_
  rw [arg3_at4]; rfl

theorem v28_at7 : W7 m ρ c (Proc.devRef .tc main_v28)
    = layerAgg (srcK m ρ c) (dstK m ρ c) (dK m ρ c) (A m c main_arg0) (A m c main_arg2) :=
  (Kept.keep7_v28 m ρ c).trans ((Kept.keep6_v28 m ρ c).trans (v28_at5 m ρ c))
theorem v29_at7 : W7 m ρ c (Proc.devRef .tc main_v29) = row128 (A m c main_arg3) :=
  (Kept.keep7_v29 m ρ c).trans ((Kept.keep6_v29 m ρ c).trans (v29_at5 m ρ c))

/-- Region 1: the two tables of partial column sums. -/
theorem v30_0_at6 : W6 m ρ c (Proc.devRef .tc main_v30_0)
    = partSum (layerAgg (srcK m ρ c) (dstK m ρ c) (dK m ρ c) (A m c main_arg0) (A m c main_arg2)) (dcol (dK m ρ c)) (row128 (A m c main_arg3)) := by
  refine (W6_arr m ρ c 3).trans ((Region1.final_sum (V5 m ρ) c).trans ?_)
  show partSum (W5 m ρ c (Proc.devRef .tc main_v28)) (W5 m ρ c (Proc.devRef .tc main_v17)) (W5 m ρ c (Proc.devRef .tc main_v29)) = _
  rw [v28_at5, v17_at5, v29_at5]
theorem v30_1_at6 : W6 m ρ c (Proc.devRef .tc main_v30_1)
    = partSq (layerAgg (srcK m ρ c) (dstK m ρ c) (dK m ρ c) (A m c main_arg0) (A m c main_arg2)) (dcol (dK m ρ c)) (row128 (A m c main_arg3)) := by
  refine (W6_arr m ρ c 4).trans ((Region1.final_sq (V5 m ρ) c).trans ?_)
  show partSq (W5 m ρ c (Proc.devRef .tc main_v28)) (W5 m ρ c (Proc.devRef .tc main_v17)) (W5 m ρ c (Proc.devRef .tc main_v29)) = _
  rw [v28_at5, v17_at5, v29_at5]

/-- The first layer's scale and shift rows. -/
theorem v56_at7 : W7 m ρ c (Proc.devRef .tc main_v56)
    = layerScale (dK m ρ c) (layerAgg (srcK m ρ c) (dstK m ρ c) (dK m ρ c) (A m c main_arg0) (A m c main_arg2))
        (A m c main_arg3) (A m c main_arg6) (A m c main_arg8) := by
  funext i
  refine (NormStretch1.scale_read (W6 m ρ c) i).trans ?_
  rw [v30_0_at6, v30_1_at6, arg6_at6, arg8_at6]; rfl
theorem v59_at7 : W7 m ρ c (Proc.devRef .tc main_v59)
    = layerShift (dK m ρ c) (layerAgg (srcK m ρ c) (dstK m ρ c) (dK m ρ c) (A m c main_arg0) (A m c main_arg2))
        (A m c main_arg3) (A m c main_arg6) (A m c main_arg7) (A m c main_arg8) := by
  funext i
  refine (NormStretch1.shift_read (W6 m ρ c) i).trans ?_
  rw [v30_0_at6, v30_1_at6, arg6_at6, arg7_at6, arg8_at6]; rfl

/-- Region 2: the first layer. -/
theorem v60_at8 : W8 m ρ c (Proc.devRef .tc main_v60)
    = layer (srcK m ρ c) (dstK m ρ c) (dK m ρ c) (A m c main_arg0) (A m c main_arg2) (A m c main_arg3)
        (A m c main_arg6) (A m c main_arg7) (A m c main_arg8) := by
  refine (W8_arr m ρ c 5).trans ((Region2.final (V7 m ρ) c).trans ?_)
  show normRelu (W7 m ρ c (Proc.devRef .tc main_v28)) (W7 m ρ c (Proc.devRef .tc main_v17)) (W7 m ρ c (Proc.devRef .tc main_v29))
      (W7 m ρ c (Proc.devRef .tc main_v56)) (W7 m ρ c (Proc.devRef .tc main_v59)) = _
  rw [v28_at7, v17_at7, v29_at7, v56_at7, v59_at7]; rfl

/-! ### Layer 2 -/

/-- The first layer's output, abbreviated. -/
abbrev X1 : SNx128.Idx → EReal :=
  layer (srcK m ρ c) (dstK m ρ c) (dK m ρ c) (A m c main_arg0) (A m c main_arg2) (A m c main_arg3)
    (A m c main_arg6) (A m c main_arg7) (A m c main_arg8)

theorem v60_at12 : W12 m ρ c (Proc.devRef .tc main_v60) = X1 m ρ c :=
  ((Kept.keep12_v60 m ρ c).trans ((Kept.keep11_v60 m ρ c).trans ((Kept.keep10_v60 m ρ c).trans (Kept.keep9_v60 m ρ c)))).trans (v60_at8 m ρ c)

/-- Region 3: the pre-scaled rows of x₁ · W₂. -/
theorem v61_at9 : W9 m ρ c (Proc.devRef .tc main_v61)
    = scaledProduct (X1 m ρ c) (A m c main_arg4) (dcol (dK m ρ c)) := by
  refine (W9_arr m ρ c 3).trans ((Region3.final (V8 m ρ) c).trans ?_)
  show scaledProduct (W8 m ρ c (Proc.devRef .tc main_v60)) (W8 m ρ c (Proc.devRef .tc main_arg4)) (W8 m ρ c (Proc.devRef .tc main_v17)) = _
  rw [v60_at8, arg4_at8, v17_at8]

/-- The second aggregate and bias row. -/
theorem v71_at10 : W10 m ρ c (Proc.devRef .tc main_v71)
    = layerAgg (srcK m ρ c) (dstK m ρ c) (dK m ρ c) (X1 m ρ c) (A m c main_arg4) := by
  refine (EdgeStretch2.agg_term (W9 m ρ c)).trans ?_
  rw [v61_at9, v3_at9, v6_at9]
  exact Cert.EdgeRead.agg_term_eq _ _ _ _ _ _
theorem v72_at10 : W10 m ρ c (Proc.devRef .tc main_v72) = row128 (A m c main_arg5) := by
  funext i
  refine (EdgeStretch2.bias_read (W9 m ρ c) i).trans ?_
  rw [arg5_at9]; rfl
theorem v71_at12 : W12 m ρ c (Proc.devRef .tc main_v71)
    = layerAgg (srcK m ρ c) (dstK m ρ c) (dK m ρ c) (X1 m ρ c) (A m c main_arg4) :=
  (Kept.keep12_v71 m ρ c).trans ((Kept.keep11_v71 m ρ c).trans (v71_at10 m ρ c))
theorem v72_at12 : W12 m ρ c (Proc.devRef .tc main_v72) = row128 (A m c main_arg5) :=
  (Kept.keep12_v72 m ρ c).trans ((Kept.keep11_v72 m ρ c).trans (v72_at10 m ρ c))

/-- Region 4: the second layer's tables. -/
theorem v73_0_at11 : W11 m ρ c (Proc.devRef .tc main_v73_0)
    = partSum (layerAgg (srcK m ρ c) (dstK m ρ c) (dK m ρ c) (X1 m ρ c) (A m c main_arg4)) (dcol (dK m ρ c)) (row128 (A m c main_arg5)) := by
  refine (W11_arr m ρ c 3).trans ((Region4.final_sum (V10 m ρ) c).trans ?_)
  show partSum (W10 m ρ c (Proc.devRef .tc main_v71)) (W10 m ρ c (Proc.devRef .tc main_v17)) (W10 m ρ c (Proc.devRef .tc main_v72)) = _
  rw [v71_at10, v17_at10, v72_at10]
theorem v73_1_at11 : W11 m ρ c (Proc.devRef .tc main_v73_1)
    = partSq (layerAgg (srcK m ρ c) (dstK m ρ c) (dK m ρ c) (X1 m ρ c) (A m c main_arg4)) (dcol (dK m ρ c)) (row128 (A m c main_arg5)) := by
  refine (W11_arr m ρ c 4).trans ((Region4.final_sq (V10 m ρ) c).trans ?_)
  show partSq (W10 m ρ c (Proc.devRef .tc main_v71)) (W10 m ρ c (Proc.devRef .tc main_v17)) (W10 m ρ c (Proc.devRef .tc main_v72)) = _
  rw [v71_at10, v17_at10, v72_at10]

/-- The second layer's scale and shift rows, and the readout's bias row. -/
theorem v99_at12 : W12 m ρ c (Proc.devRef .tc main_v99)
    = layerScale (dK m ρ c) (layerAgg (srcK m ρ c) (dstK m ρ c) (dK m ρ c) (X1 m ρ c) (A m c main_arg4))
        (A m c main_arg5) (A m c main_arg9) (A m c main_arg11) := by
  funext i
  refine (NormStretch2.scale_read (W11 m ρ c) i).trans ?_
  rw [v73_0_at11, v73_1_at11, arg9_at11, arg11_at11]; rfl
theorem v102_at12 : W12 m ρ c (Proc.devRef .tc main_v102)
    = layerShift (dK m ρ c) (layerAgg (srcK m ρ c) (dstK m ρ c) (dK m ρ c) (X1 m ρ c) (A m c main_arg4))
        (A m c main_arg5) (A m c main_arg9) (A m c main_arg10) (A m c main_arg11) := by
  funext i
  refine (NormStretch2.shift_read (W11 m ρ c) i).trans ?_
  rw [v73_0_at11, v73_1_at11, arg9_at11, arg10_at11, arg11_at11]; rfl
theorem v103_at12 : W12 m ρ c (Proc.devRef .tc main_v103) = row64 (A m c main_arg13) := by
  funext i
  refine (NormStretch2.bias_read (W11 m ρ c) i).trans ?_
  rw [arg13_at11]; rfl

/-! ### The result -/

/-- Region 5: the result buffer, at the last boundary, is the specification's result of the argument
    arrays, the edge indices and the per-node factor. -/
theorem result_eq : W13 m ρ c (Proc.devRef .tc main_v104)
    = Cert.KSpec.out (srcK m ρ c) (dstK m ρ c) (dK m ρ c) (A m c main_arg0) (A m c main_arg2) (A m c main_arg3)
        (A m c main_arg4) (A m c main_arg5) (A m c main_arg6) (A m c main_arg7) (A m c main_arg8)
        (A m c main_arg9) (A m c main_arg10) (A m c main_arg11) (A m c main_arg12) (A m c main_arg13) := by
  refine (W13_arr m ρ c 8).trans ((Region5.final (V12 m ρ) c).trans ?_)
  show readout (W12 m ρ c (Proc.devRef .tc main_v71)) (W12 m ρ c (Proc.devRef .tc main_v17)) (W12 m ρ c (Proc.devRef .tc main_v72))
      (W12 m ρ c (Proc.devRef .tc main_v99)) (W12 m ρ c (Proc.devRef .tc main_v102)) (W12 m ρ c (Proc.devRef .tc main_v60))
      (W12 m ρ c (Proc.devRef .tc main_arg12)) (W12 m ρ c (Proc.devRef .tc main_v103)) = _
  rw [v71_at12, v17_at12, v72_at12, v99_at12, v102_at12, v60_at12, arg12_at12, v103_at12]; rfl

end Cert.KernelIdeal.Chain

end
-- ==== Proof.ResultRun.lean ====
/-
  The kernel's run with its result named: every weakly fair execution of @main ends, nothing
  faulting, with the result buffer holding what the last region's write-backs leave — the contents
  at the thirteenth segment boundary — and with every argument array as launched.
-/
import proofs.«172011_j7241314861683_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the contents
    of the last segment boundary and the argument arrays end as launched. -/
theorem run_result : θ_run defs (onTc (τ := τ) (main (F := F))) ⟨m, fun _ => 0, ρ⟩ (fun r => ∀ c : Dev nD,
      r.2.mem ((c.tc : Thread nD τ).loc main_v104) = W13 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v104 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.ResultRun

end
-- ==== Proof.NormLaw.lean ====
/-
  Graph normalisation of one feature column, two ways, over the extended reals.

  A column x of 100000 real numbers is normalised with a weight w, a bias b and a mean scale ms.

  Directly:  mean = (Σ x) / n,  c = x − ms · mean,  var = (Σ c²) / n,
             out  = max (w · c · rsqrt (var + ε) + b) 0.

  From per-tile partial sums (20 tiles of 5000 entries, each partial sum present 8 times in a
  160-row table, so the table's total is 8 times the column's):
             μ = ((Σ table) / 8) / n,  E = ((Σ table of squares) / 8) / n,
             var = E − μ² · (2 · ms − ms²),  scale = w · rsqrt (var + ε),
             shift = b − scale · ms · μ,     out = max (scale · x + shift) 0.

  Since (1/n) Σ (x − ms·μ)² = E − 2·ms·μ² + ms²·μ², the two variances are one real number, and
  scale · x + shift = w · rsqrt(var + ε) · (x − ms · μ) + b. Both steps distribute a product over
  a sum, which on the extended reals needs every quantity to be a real number: that is where
  the finiteness of the inputs is used (and var ≥ 0, ε > 0 keep the reciprocal root real).
-/
import Idealize.ShloMosaic.PureOps.Ideal
import Idealize.ShloMosaic.Lib.ValueIdx
import proofs.«172011_j7241314861683_2_alg».proof.Proof.Spec

noncomputable section

open scoped BigOperators

namespace Cert.Norm

open Idealize.ShloMosaic Cert.Spec

variable (x : Fin 100000 → EReal) (w b ms n e8 two eps : EReal)

/-! ## Directly -/

def meanRef : EReal := Ideal.div (0 + ∑ r : Fin 100000, x r) n
def cenRef (r : Fin 100000) : EReal := x r - ms * meanRef x n
def varRef : EReal := Ideal.div (0 + ∑ r : Fin 100000, cenRef x ms n r * cenRef x ms n r) n
def outRef (r : Fin 100000) : EReal :=
  max (w * cenRef x ms n r * Ideal.rsqrt (varRef x ms n + eps) + b) 0

/-! ## From the table of partial sums -/

def tileSum (q : Fin 160) : EReal := ∑ r : Fin 5000, x (tileNode q r)
def tileSq (q : Fin 160) : EReal := ∑ r : Fin 5000, x (tileNode q r) * x (tileNode q r)
def muKer : EReal := Ideal.div (Ideal.div (0 + ∑ q : Fin 160, tileSum x q) e8) n
def eh2Ker : EReal := Ideal.div (Ideal.div (0 + ∑ q : Fin 160, tileSq x q) e8) n
def varKer : EReal := eh2Ker x n e8 - (muKer x n e8 * muKer x n e8) * (two * ms - ms * ms)
def scaleKer : EReal := w * Ideal.rsqrt (varKer x ms n e8 two + eps)
def shiftKer : EReal := b - scaleKer x w ms n e8 two eps * ms * muKer x n e8
def outKer (r : Fin 100000) : EReal :=
  max (scaleKer x w ms n e8 two eps * x r + shiftKer x w b ms n e8 two eps) 0

/-! ## Sums of real numbers inside the extended reals -/

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The reciprocal root of a positive real number is a real number. -/
theorem rsqrt_pos {v : ℝ} (hv : 0 < v) :
    Ideal.rsqrt (v : EReal) = (((Real.sqrt v)⁻¹ : ℝ) : EReal) := by
  rw [Ideal.rsqrt_coe, if_neg (not_lt.mpr hv.le), if_neg hv.ne']

/-- The larger of two real numbers, taken in the extended reals. -/
theorem coe_max (a c : ℝ) : ((max a c : ℝ) : EReal) = max (a : EReal) (c : EReal) :=
  EReal.coe_strictMono.monotone.map_max

/-! ## The table's total is 8 times the column's -/

/-- Rows of the table: row `s + 8 · t` is the `s`-th copy of tile `t`. -/
def rowEquiv : Fin 20 × Fin 8 ≃ Fin 160 := finProdFinEquiv

/-- Nodes: node `r + 5000 · t` is position `r` of tile `t`. -/
def nodeEquiv : Fin 20 × Fin 5000 ≃ Fin 100000 := finProdFinEquiv

/-- Position `r` of the tile of row `s + 8 · t` is node `r + 5000 · t`, whatever `s`. -/
theorem tileNode_rowEquiv (t : Fin 20) (s : Fin 8) (r : Fin 5000) :
    tileNode (rowEquiv (t, s)) r = nodeEquiv (t, r) := by
  apply Fin.ext
  show 5000 * ((s.val + 8 * t.val) / 8) + r.val = r.val + 5000 * t.val
  have := s.isLt
  omega

/-- Summing a function of the node over all 160 rows and all 5000 positions counts every node 8 times. -/
theorem tile_sum (f : Fin 100000 → ℝ) :
    ∑ q : Fin 160, ∑ r : Fin 5000, f (tileNode q r) = 8 * ∑ i : Fin 100000, f i := by
  rw [← Equiv.sum_comp rowEquiv, Fintype.sum_prod_type, ← Equiv.sum_comp nodeEquiv f,
    Fintype.sum_prod_type, Finset.mul_sum]
  refine Finset.sum_congr rfl fun t _ => ?_
  simp only [tileNode_rowEquiv, Finset.sum_const, Finset.card_univ, Fintype.card_fin, nsmul_eq_mul,
    Nat.cast_ofNat]

/-! ## The same quantities as real numbers -/

/-- The column's mean. -/
def muR (X : Fin 100000 → ℝ) : ℝ := (∑ r, X r) * (1 / 100000)

/-- The mean of the column's squares. -/
def sqR (X : Fin 100000 → ℝ) : ℝ := (∑ r, X r * X r) * (1 / 100000)

/-- The mean square of the column centred at `m` times its mean. -/
def varR (X : Fin 100000 → ℝ) (m : ℝ) : ℝ :=
  (∑ r, (X r - m * muR X) * (X r - m * muR X)) * (1 / 100000)

/-- The normalised, rectified entry. -/
def outR (X : Fin 100000 → ℝ) (wr br m ε : ℝ) (r : Fin 100000) : ℝ :=
  max (wr * (X r - m * muR X) * (Real.sqrt (varR X m + ε))⁻¹ + br) 0

theorem varR_nonneg (X : Fin 100000 → ℝ) (m : ℝ) : 0 ≤ varR X m :=
  mul_nonneg (Finset.sum_nonneg fun _ _ => mul_self_nonneg _) (by norm_num)

/-- (1/n) Σ (x − m·μ)² = E − μ² · (2·m − m²): expand the square, and Σ x = n · μ. -/
theorem var_identity (X : Fin 100000 → ℝ) (m : ℝ) :
    varR X m = sqR X - muR X * muR X * (2 * m - m * m) := by
  have hS : ∑ r, X r = 100000 * muR X := by unfold muR; ring
  have h : ∀ r, (X r - m * muR X) * (X r - m * muR X)
      = X r * X r - (2 * m * muR X) * X r + (m * muR X) * (m * muR X) := fun r => by ring
  unfold varR sqR
  simp only [h, Finset.sum_add_distrib, Finset.sum_sub_distrib, ← Finset.mul_sum, Finset.sum_const,
    Finset.card_univ, Fintype.card_fin, nsmul_eq_mul, Nat.cast_ofNat, hS]
  ring

/-! ## Directly, on a column of real numbers -/

section Real

variable (X : Fin 100000 → ℝ) (wr br m ε : ℝ)

theorem meanRef_coe :
    meanRef (fun r => (X r : EReal)) ((100000 : ℝ) : EReal) = ((muR X : ℝ) : EReal) := by
  unfold meanRef muR
  rw [coe_sum, zero_add, Ideal.div_coe (y := 100000) (by norm_num), ← EReal.coe_mul]

theorem cenRef_coe (r : Fin 100000) :
    cenRef (fun r => (X r : EReal)) (m : EReal) ((100000 : ℝ) : EReal) r
      = ((X r - m * muR X : ℝ) : EReal) := by
  unfold cenRef
  rw [meanRef_coe, ← EReal.coe_mul, ← EReal.coe_sub]

theorem varRef_coe :
    varRef (fun r => (X r : EReal)) (m : EReal) ((100000 : ℝ) : EReal) = ((varR X m : ℝ) : EReal) := by
  unfold varRef varR
  simp only [cenRef_coe, ← EReal.coe_mul]
  rw [coe_sum, zero_add, Ideal.div_coe (y := 100000) (by norm_num), ← EReal.coe_mul]

theorem outRef_coe (hε : 0 < ε) (r : Fin 100000) :
    outRef (fun r => (X r : EReal)) (wr : EReal) (br : EReal) (m : EReal) ((100000 : ℝ) : EReal)
      (ε : EReal) r = ((outR X wr br m ε r : ℝ) : EReal) := by
  have hv : 0 < varR X m + ε := add_pos_of_nonneg_of_pos (varR_nonneg X m) hε
  unfold outRef outR
  rw [varRef_coe, cenRef_coe, ← EReal.coe_add, rsqrt_pos hv, ← EReal.coe_mul, ← EReal.coe_mul,
    ← EReal.coe_add, ← EReal.coe_zero, ← coe_max]

/-! ## From the table, on a column of real numbers -/

theorem tileSum_coe (q : Fin 160) :
    tileSum (fun r => (X r : EReal)) q = ((∑ r : Fin 5000, X (tileNode q r) : ℝ) : EReal) := by
  unfold tileSum
  rw [coe_sum]

theorem tileSq_coe (q : Fin 160) :
    tileSq (fun r => (X r : EReal)) q
      = ((∑ r : Fin 5000, X (tileNode q r) * X (tileNode q r) : ℝ) : EReal) := by
  unfold tileSq
  simp only [← EReal.coe_mul]
  rw [coe_sum]

theorem muKer_coe :
    muKer (fun r => (X r : EReal)) ((100000 : ℝ) : EReal) ((8 : ℝ) : EReal) = ((muR X : ℝ) : EReal) := by
  unfold muKer
  simp only [tileSum_coe]
  rw [coe_sum, zero_add, Ideal.div_coe (y := 8) (by norm_num),
    Ideal.div_coe (y := 100000) (by norm_num), ← EReal.coe_mul, ← EReal.coe_mul, tile_sum X]
  unfold muR
  refine congrArg Real.toEReal ?_
  ring

theorem eh2Ker_coe :
    eh2Ker (fun r => (X r : EReal)) ((100000 : ℝ) : EReal) ((8 : ℝ) : EReal) = ((sqR X : ℝ) : EReal) := by
  unfold eh2Ker
  simp only [tileSq_coe]
  rw [coe_sum, zero_add, Ideal.div_coe (y := 8) (by norm_num),
    Ideal.div_coe (y := 100000) (by norm_num), ← EReal.coe_mul, ← EReal.coe_mul,
    tile_sum (fun i => X i * X i)]
  unfold sqR
  refine congrArg Real.toEReal ?_
  ring

theorem varKer_coe :
    varKer (fun r => (X r : EReal)) (m : EReal) ((100000 : ℝ) : EReal) ((8 : ℝ) : EReal)
      ((2 : ℝ) : EReal) = ((varR X m : ℝ) : EReal) := by
  unfold varKer
  rw [eh2Ker_coe, muKer_coe, var_identity]
  simp only [← EReal.coe_mul, ← EReal.coe_sub]

theorem scaleKer_coe (hε : 0 < ε) :
    scaleKer (fun r => (X r : EReal)) (wr : EReal) (m : EReal) ((100000 : ℝ) : EReal)
      ((8 : ℝ) : EReal) ((2 : ℝ) : EReal) (ε : EReal)
      = ((wr * (Real.sqrt (varR X m + ε))⁻¹ : ℝ) : EReal) := by
  have hv : 0 < varR X m + ε := add_pos_of_nonneg_of_pos (varR_nonneg X m) hε
  unfold scaleKer
  rw [varKer_coe, ← EReal.coe_add, rsqrt_pos hv, ← EReal.coe_mul]

theorem shiftKer_coe (hε : 0 < ε) :
    shiftKer (fun r => (X r : EReal)) (wr : EReal) (br : EReal) (m : EReal) ((100000 : ℝ) : EReal)
      ((8 : ℝ) : EReal) ((2 : ℝ) : EReal) (ε : EReal)
      = ((br - wr * (Real.sqrt (varR X m + ε))⁻¹ * m * muR X : ℝ) : EReal) := by
  unfold shiftKer
  rw [scaleKer_coe X wr m ε hε, muKer_coe, ← EReal.coe_mul, ← EReal.coe_mul, ← EReal.coe_sub]

/-- scale · x + (b − scale · m · μ) = w · (x − m · μ) · inv + b with scale = w · inv. -/
theorem outKer_coe (hε : 0 < ε) (r : Fin 100000) :
    outKer (fun r => (X r : EReal)) (wr : EReal) (br : EReal) (m : EReal) ((100000 : ℝ) : EReal)
      ((8 : ℝ) : EReal) ((2 : ℝ) : EReal) (ε : EReal) r = ((outR X wr br m ε r : ℝ) : EReal) := by
  unfold outKer
  rw [scaleKer_coe X wr m ε hε, shiftKer_coe X wr br m ε hε, ← EReal.coe_mul, ← EReal.coe_add,
    ← EReal.coe_zero, ← coe_max]
  unfold outR
  refine congrArg Real.toEReal (congrArg (fun t => max t 0) ?_)
  ring

end Real

/-! ## The law -/

/-- The two normalisations agree on a column of real numbers with real parameters. -/
theorem norm_law
    (hx : ∀ r, ∃ t : ℝ, x r = (t : EReal))
    (hw : ∃ t : ℝ, w = (t : EReal)) (hb : ∃ t : ℝ, b = (t : EReal)) (hms : ∃ t : ℝ, ms = (t : EReal))
    (hn : n = ((100000 : ℝ) : EReal)) (h8 : e8 = ((8 : ℝ) : EReal)) (h2 : two = ((2 : ℝ) : EReal))
    (heps : ∃ t : ℝ, 0 < t ∧ eps = (t : EReal)) (r : Fin 100000) :
    outKer x w b ms n e8 two eps r = outRef x w b ms n eps r := by
  choose X hX using hx
  obtain rfl : x = fun r => (X r : EReal) := funext hX
  obtain ⟨wr, rfl⟩ := hw
  obtain ⟨br, rfl⟩ := hb
  obtain ⟨m, rfl⟩ := hms
  obtain ⟨ε, hε, rfl⟩ := heps
  subst hn h8 h2
  rw [outKer_coe X wr br m ε hε r, outRef_coe X wr br m ε hε r]

/-- Both normalised columns are columns of real numbers (what the next layer's law needs). -/
theorem outRef_real
    (hx : ∀ r, ∃ t : ℝ, x r = (t : EReal))
    (hw : ∃ t : ℝ, w = (t : EReal)) (hb : ∃ t : ℝ, b = (t : EReal)) (hms : ∃ t : ℝ, ms = (t : EReal))
    (hn : n = ((100000 : ℝ) : EReal)) (heps : ∃ t : ℝ, 0 < t ∧ eps = (t : EReal)) (r : Fin 100000) :
    ∃ t : ℝ, outRef x w b ms n eps r = (t : EReal) := by
  choose X hX using hx
  obtain rfl : x = fun r => (X r : EReal) := funext hX
  obtain ⟨wr, rfl⟩ := hw
  obtain ⟨br, rfl⟩ := hb
  obtain ⟨m, rfl⟩ := hms
  obtain ⟨ε, hε, rfl⟩ := heps
  subst hn
  exact ⟨_, outRef_coe X wr br m ε hε r⟩

end Cert.Norm

end
-- ==== Proof.RefSpec.lean ====
/-
  The direct computation's result, as one function of the argument arrays.

  With d the per-node factor, src and dst the edges' endpoints (self-loops included):

    one layer, from features X with weights W, bias b and normalisation parameters w, β, ms:
      h₀  = X · W
      h[v, c] = Σ_{edges e landing on v} h₀[src e, c] · (d[src e] · d[dst e]) + b[c]
      layer = the graph normalisation of each column of h (mean, centred, variance, reciprocal
              root), rectified.

    the result: with x₁ the first layer of x and x₂ the second layer of x₁,
      out[v, c] = Σ_k (x₁[v, k] + x₂[v, k]) · Wr[k, c] + br[c].
-/
import proofs.«172011_j7241314861683_2_alg».proof.Proof.Spec
import proofs.«172011_j7241314861683_2_alg».proof.Proof.GlueSpec
import proofs.«172011_j7241314861683_2_alg».proof.Proof.EdgeDefs
import proofs.«172011_j7241314861683_2_alg».proof.Proof.SegmentRead
import proofs.«172011_j7241314861683_2_alg».proof.Proof.NormLaw

noncomputable section

open scoped BigOperators

namespace Cert.RSpec

open Idealize.ShloMosaic Idealize.ShloMosaic.ValueIdx Cert.Spec Cert.Glue Cert.Edge

/-- One value per node. -/
abbrev NodeV : Shape := ⟨1, ![100000]⟩

variable (src dst : IVec EdgeVec 32) (d : NodeV.Idx → EReal)

/-- The plain product X · W. -/
def prod (X : SNx128.Idx → EReal) (W : S128x128.Idx → EReal) : SNx128.Idx → EReal :=
  fun i => ∑ k : Fin 128, X (ix2 (i 0) k) * W (ix2 k (i 1))

/-- The edge messages: the source's row of X · W times the product of the two endpoints' factors. -/
def msg (X : SNx128.Idx → EReal) (W : S128x128.Idx → EReal) : Cert.SegmentRead.Edges.Idx → EReal :=
  fun j => Host.gather Cert.SegmentRead.rowGather (prod X W) (col (wrap src)) j *
    (Host.gather Cert.SegmentRead.eltGather d (col (wrap src)) (ix1 (j 0)) *
      Host.gather Cert.SegmentRead.eltGather d (col (wrap dst)) (ix1 (j 0)))

/-- The convolution's output: the messages aggregated at their destinations, plus the bias. -/
def conv (X : SNx128.Idx → EReal) (W : S128x128.Idx → EReal) (b : S128.Idx → EReal) : SNx128.Idx → EReal :=
  fun i => Ideal.hostScatterAdd Cert.SegmentRead.rowScatter (fun _ => 0) (col dst) (msg src dst d X W) i
    + b (ix1 (i 1))

/-- One normalised, rectified layer. -/
def layer (X : SNx128.Idx → EReal) (W : S128x128.Idx → EReal) (b w β ms : S128.Idx → EReal) :
    SNx128.Idx → EReal :=
  fun i => Cert.Norm.outRef (fun r => conv src dst d X W b (ix2 r (i 1)))
    (w (ix1 (i 1))) (β (ix1 (i 1))) (ms (ix1 (i 1))) wN wEps (i 0)

/-- The whole result. -/
def out (x : SNx128.Idx → EReal) (W1 : S128x128.Idx → EReal) (b1 : S128.Idx → EReal)
    (W2 : S128x128.Idx → EReal) (b2 w1 β1 ms1 w2 β2 ms2 : S128.Idx → EReal)
    (Wr : S128x64.Idx → EReal) (br : S64.Idx → EReal) : SNx64.Idx → EReal :=
  fun i => (∑ k : Fin 128,
      (layer src dst d x W1 b1 w1 β1 ms1 (ix2 (i 0) k)
        + layer src dst d (layer src dst d x W1 b1 w1 β1 ms1) W2 b2 w2 β2 ms2 (ix2 (i 0) k)) * Wr (ix2 k (i 1)))
    + br (ix1 (i 1))

end Cert.RSpec

end
-- ==== Proof.RefLayers.lean ====
/-
  The reference program's stages are the reference specification.

  Read at an index, stage by stage: the dot_general of the features with the weights is the plain product; the three
  "add the number of nodes where negative, then broadcast to a column" chains are the wrapped endpoint columns and the
  plain column broadcast of the destinations is the scatter's index column; the two element gathers of the per-node
  factor and the row gather of the product, multiplied, are the edge messages; their scatter-add into zeros plus the
  broadcast bias is the convolution's output; the column sums, the division by the number of nodes, the centring, the
  variance and the reciprocal root are the graph normalisation of each feature column, and the maximum with the zero
  splat the rectifier. The second layer is the same chain on the first layer's output, and the result is the product
  of the sum of the two layers with the readout weights plus the readout bias.

  The gathers and scatters are never opened: they stay as terms and are matched with the specification's terms, the
  printed dimension records being the specification's records.
-/
import proofs.«172011_j7241314861683_2_alg».proof.Proof.RefReadPatched
import proofs.«172011_j7241314861683_2_alg».proof.Proof.RefSpec
import proofs.«172011_j7241314861683_2_alg».proof.Proof.EdgeRead

noncomputable section

open scoped BigOperators

namespace Cert.ReferenceIdeal.Layers

open Cert.ReferenceIdeal Cert.ReferenceIdeal.Gen Cert.ReferenceIdeal.ReadP
open Idealize.ShloMosaic Idealize.ShloMosaic.ValueIdx Idealize.SL.Sem Cert.Edge

variable (x0 : (⟨S100000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))
  (x5 x6 x7 x8 x9 x10 x11 : (⟨S128, .f32⟩ : BufTy).Contents (Elt Ideal))
  (x12 : (⟨S128x64, .f32⟩ : BufTy).Contents (Elt Ideal)) (x13 : (⟨S64, .f32⟩ : BufTy).Contents (Elt Ideal))

/-! ## The printed dimension records are the specification's

The attribute lists agree field by field; the well-formedness proofs they carry are propositions. -/

theorem rowGather_rec : gather_S100000x128_S900000x1_S900000x128_1_0_n_n_0_1_1128 = Cert.SegmentRead.rowGather := rfl
theorem eltGather_rec : gather_S100000_S900000x1_S900000_n_0_n_n_0_1_1 = Cert.SegmentRead.eltGather := rfl
theorem rowScatter_rec : scatter_S100000x128_S900000x1_S900000x128_1_0_0_1 = Cert.SegmentRead.rowScatter := rfl
theorem eltScatter_rec : scatter_S100000_S900000x1_S900000_n_0_0_1 = Cert.SegmentRead.eltScatter := rfl

/-! ## Layer 1: the edge endpoints, wrapped and as columns

src is the concatenation of the given sources with the self-loops, dst that of the destinations. Each gather reads its
endpoint vector after "add the number of nodes where negative", as a column; the scatter reads dst as a column, unwrapped. -/

theorem l1_wrapSrcA : val_main_v22 (F := Ideal) x1 = wrap (val_main_v3 (F := Ideal) x1) := by
  unfold val_main_v22 val_main_v19 val_main_v21 val_main_v18 val_main_v20 val_main_c val_main_c_4
  exact Cert.EdgeRead.wrap_eq _ _ _

theorem l1_wrapDst : val_main_v29 (F := Ideal) x1 = wrap (val_main_v6 (F := Ideal) x1) := by
  unfold val_main_v29 val_main_v26 val_main_v28 val_main_v25 val_main_v27 val_main_c_5 val_main_c_6
  exact Cert.EdgeRead.wrap_eq _ _ _

theorem l1_wrapSrcB : val_main_v38 (F := Ideal) x1 = wrap (val_main_v3 (F := Ideal) x1) := by
  unfold val_main_v38 val_main_v35 val_main_v37 val_main_v34 val_main_v36 val_main_c_7 val_main_c_8
  exact Cert.EdgeRead.wrap_eq _ _ _

theorem l1_colSrcA : val_main_v23 (F := Ideal) x1 = col (wrap (val_main_v3 (F := Ideal) x1)) := by
  unfold val_main_v23
  rw [l1_wrapSrcA]
  exact Cert.EdgeRead.col_eq _ _

theorem l1_colDstW : val_main_v30 (F := Ideal) x1 = col (wrap (val_main_v6 (F := Ideal) x1)) := by
  unfold val_main_v30
  rw [l1_wrapDst]
  exact Cert.EdgeRead.col_eq _ _

theorem l1_colSrcB : val_main_v39 (F := Ideal) x1 = col (wrap (val_main_v3 (F := Ideal) x1)) := by
  unfold val_main_v39
  rw [l1_wrapSrcB]
  exact Cert.EdgeRead.col_eq _ _

theorem l1_colDst : val_main_v44 (F := Ideal) x1 = col (val_main_v6 (F := Ideal) x1) := by
  unfold val_main_v44
  exact Cert.EdgeRead.col_eq _ _

/-- The scatter's operand, a splat of the word 0.0, is the zero array. -/
theorem l1_zero : val_main_v43 (F := Ideal) = fun _ => (0 : EReal) := by
  unfold val_main_v43 val_main_cst_9
  exact Cert.EdgeRead.bcast_zero _

/-! ## Layer 1: the product, the messages, the convolution -/

theorem l1_lidx (i : S100000x128.Idx) (k : Fin 128) : lidx_main_v17 i k = (ix2 (i 0) k : S100000x128.Idx) :=
  funext fun a => Fin.ext (by match a with | ⟨0, _⟩ => rfl | ⟨1, _⟩ => rfl)

theorem l1_ridx (i : S100000x128.Idx) (k : Fin 128) : ridx_main_v17 i k = (ix2 k (i 1) : S128x128.Idx) :=
  funext fun a => Fin.ext (by match a with | ⟨0, _⟩ => rfl | ⟨1, _⟩ => rfl)

/-- The dot_general of the features with the weights is the plain product. -/
theorem l1_prod : val_main_v17 (F := Ideal) x0 x2 = Cert.RSpec.prod x0 x2 := by
  funext i
  rw [val_main_v17_apply]
  unfold Cert.RSpec.prod
  refine Finset.sum_congr rfl fun k _ => ?_
  rw [l1_lidx, l1_ridx]

/-- The edge of a message's row: the two column broadcasts in front of the product of the factors read row j 0. -/
theorem l1_edgeIdx (j : S900000x128.Idx) : idx_main_v33 (idx_main_v41 j) = (ix1 (j 0) : S900000.Idx) :=
  funext fun a => Fin.ext (by match a with | ⟨0, _⟩ => rfl)

/-- The messages: the source's row of the product times the product of the two endpoints' factors. -/
theorem l1_msg : val_main_v42 (F := Ideal) x0 x1 x2
    = Cert.RSpec.msg (val_main_v3 (F := Ideal) x1) (val_main_v6 (F := Ideal) x1) (val_main_v16 (F := Ideal) x1) x0 x2 := by
  funext j
  rw [val_main_v42_apply, val_main_v41_apply, val_main_v33_apply, val_main_v32_apply, l1_edgeIdx]
  unfold val_main_v40 val_main_v24 val_main_v31
  rw [l1_colSrcB, l1_colSrcA, l1_colDstW, l1_prod, rowGather_rec, eltGather_rec, Ideal.mulf_def, Ideal.mulf_def]
  unfold Cert.RSpec.msg
  rfl

/-- The bias's two broadcasts read entry i 1. -/
theorem l1_biasIdx (i : S100000x128.Idx) : idx_main_v46 (idx_main_v47 i) = (ix1 (i 1) : S128.Idx) :=
  funext fun a => Fin.ext (by match a with | ⟨0, _⟩ => rfl)

/-- (1) The first convolution's output is the specification's. -/
theorem conv1_eq : val_main_v48 (F := Ideal) x0 x1 x2 x3
    = Cert.RSpec.conv (val_main_v3 (F := Ideal) x1) (val_main_v6 (F := Ideal) x1) (val_main_v16 (F := Ideal) x1) x0 x2 x3 := by
  funext i
  rw [val_main_v48_apply, val_main_v47_apply, val_main_v46_apply, l1_biasIdx]
  unfold val_main_v45 Host.scatterAdd
  rw [Ideal.hostScatterAdd_def, l1_zero, l1_colDst, l1_msg, rowScatter_rec, Ideal.addf_def]
  unfold Cert.RSpec.conv
  rfl

/-! ## The words the normalisation spells -/

theorem wN_word : FloatOps.ofBits (F := Ideal) .f32 0x47C35000#32 = Cert.Glue.wN := rfl
theorem wEps_word : FloatOps.ofBits (F := Ideal) .f32 0x3727C5AC#32 = Cert.Glue.wEps := rfl
theorem zero_word : FloatOps.ofBits (F := Ideal) .f32 0x00000000#32 = (0 : EReal) := Ideal.ofBits_zero_f32

/-! ## Layer 1: the normalisation of a feature column, and the rectifier

Column c of the convolution's output is the function r ↦ conv (r, c) of the node. The reference sums it over the nodes,
divides by the number of nodes (the mean), subtracts the mean scale times the mean (the centred column), sums the squares
and divides (the variance), and returns max (w · centred · rsqrt (variance + ε) + β) 0. -/

theorem l1_sumIdxA (c : Fin 128) (k : Fin 100000) : idx_main_v49 (ix1 c : S128.Idx) k = (ix2 k c : S100000x128.Idx) :=
  funext fun a => Fin.ext (by match a with | ⟨0, _⟩ => rfl | ⟨1, _⟩ => rfl)

theorem l1_sumIdxB (c : Fin 128) (k : Fin 100000) : idx_main_v57 (ix1 c : S128.Idx) k = (ix2 k c : S100000x128.Idx) :=
  funext fun a => Fin.ext (by match a with | ⟨0, _⟩ => rfl | ⟨1, _⟩ => rfl)

theorem l1_rowIdxM (r : Fin 100000) (c : Fin 128) :
    idx_main_v53 (idx_main_v54 (ix2 r c : S100000x128.Idx)) = (ix1 c : S128.Idx) :=
  funext fun a => Fin.ext (by match a with | ⟨0, _⟩ => rfl)

theorem l1_rowIdxW (r : Fin 100000) (c : Fin 128) :
    idx_main_v60 (idx_main_v61 (ix2 r c : S100000x128.Idx)) = (ix1 c : S128.Idx) :=
  funext fun a => Fin.ext (by match a with | ⟨0, _⟩ => rfl)

theorem l1_rowIdxR (r : Fin 100000) (c : Fin 128) :
    idx_main_v66 (idx_main_v67 (ix2 r c : S100000x128.Idx)) = (ix1 c : S128.Idx) :=
  funext fun a => Fin.ext (by match a with | ⟨0, _⟩ => rfl)

theorem l1_rowIdxB (r : Fin 100000) (c : Fin 128) :
    idx_main_v69 (idx_main_v70 (ix2 r c : S100000x128.Idx)) = (ix1 c : S128.Idx) :=
  funext fun a => Fin.ext (by match a with | ⟨0, _⟩ => rfl)

/-- The mean of column c. -/
theorem l1_mean (c : Fin 128) : val_main_v51 (F := Ideal) x0 x1 x2 x3 (ix1 c)
    = Cert.Norm.meanRef (fun r => Cert.RSpec.conv (val_main_v3 (F := Ideal) x1) (val_main_v6 (F := Ideal) x1) (val_main_v16 (F := Ideal) x1) x0 x2 x3 (ix2 r c)) Cert.Glue.wN := by
  rw [val_main_v51_apply, val_main_v50_apply, val_main_cst_11_apply, val_main_v49_apply, val_main_cst_10_apply,
    conv1_eq, wN_word, zero_word, Ideal.hostDivf_def]
  unfold Cert.Norm.meanRef
  refine congrArg₂ Ideal.div (congrArg (0 + ·) (Finset.sum_congr rfl fun k _ => ?_)) rfl
  rw [l1_sumIdxA]

/-- The centred column c at node r. -/
theorem l1_cen (r : Fin 100000) (c : Fin 128) : val_main_v55 (F := Ideal) x0 x1 x2 x3 x8 (ix2 r c)
    = Cert.Norm.cenRef (fun r => Cert.RSpec.conv (val_main_v3 (F := Ideal) x1) (val_main_v6 (F := Ideal) x1) (val_main_v16 (F := Ideal) x1) x0 x2 x3 (ix2 r c)) (x8 (ix1 c)) Cert.Glue.wN r := by
  rw [val_main_v55_apply, val_main_v54_apply, val_main_v53_apply, val_main_v52_apply, l1_rowIdxM, l1_mean, conv1_eq,
    Ideal.subf_def, Ideal.mulf_def]
  unfold Cert.Norm.cenRef
  rfl

/-- The variance of column c. -/
theorem l1_var (c : Fin 128) : val_main_v59 (F := Ideal) x0 x1 x2 x3 x8 (ix1 c)
    = Cert.Norm.varRef (fun r => Cert.RSpec.conv (val_main_v3 (F := Ideal) x1) (val_main_v6 (F := Ideal) x1) (val_main_v16 (F := Ideal) x1) x0 x2 x3 (ix2 r c)) (x8 (ix1 c)) Cert.Glue.wN := by
  rw [val_main_v59_apply, val_main_v58_apply, val_main_cst_13_apply, val_main_v57_apply, val_main_cst_12_apply,
    wN_word, zero_word, Ideal.hostDivf_def]
  unfold Cert.Norm.varRef
  refine congrArg₂ Ideal.div (congrArg (0 + ·) (Finset.sum_congr rfl fun k _ => ?_)) rfl
  rw [val_main_v56_apply, l1_sumIdxB, l1_cen, Ideal.mulf_def]

/-- The normalised, rectified entry (r, c). -/
theorem l1_out (r : Fin 100000) (c : Fin 128) : val_main_v72 (F := Ideal) x0 x1 x2 x3 x6 x7 x8 (ix2 r c)
    = Cert.Norm.outRef (fun r => Cert.RSpec.conv (val_main_v3 (F := Ideal) x1) (val_main_v6 (F := Ideal) x1) (val_main_v16 (F := Ideal) x1) x0 x2 x3 (ix2 r c))
        (x6 (ix1 c)) (x7 (ix1 c)) (x8 (ix1 c)) Cert.Glue.wN Cert.Glue.wEps r := by
  rw [val_main_v72_apply, val_main_call1_v0_apply, val_main_call1_cst_apply, val_main_v71_apply, val_main_v70_apply,
    val_main_v69_apply, val_main_v68_apply, val_main_v67_apply, val_main_v66_apply, val_main_v65_apply,
    val_main_v64_apply, val_main_v63_apply, val_main_cst_14_apply, val_main_v62_apply, val_main_v61_apply,
    val_main_v60_apply, l1_rowIdxW, l1_rowIdxR, l1_rowIdxB, l1_var, l1_cen, wEps_word, zero_word]
  simp only [Ideal.maximumf_def, Ideal.addf_def, Ideal.mulf_def, Ideal.hostUnary_rsqrt_def]
  unfold Cert.Norm.outRef
  rfl

/-- (2) The first layer is the specification's. -/
theorem layer1_eq : val_main_v72 (F := Ideal) x0 x1 x2 x3 x6 x7 x8
    = Cert.RSpec.layer (val_main_v3 (F := Ideal) x1) (val_main_v6 (F := Ideal) x1) (val_main_v16 (F := Ideal) x1) x0 x2 x3 x6 x7 x8 := by
  funext i
  obtain ⟨r, c, rfl⟩ : ∃ (r : Fin 100000) (c : Fin 128), i = ix2 r c := ⟨i 0, i 1, eq_ix2 i⟩
  rw [l1_out]
  unfold Cert.RSpec.layer
  rfl

/-! ## Layer 2: the edge endpoints, wrapped and as columns

src is the concatenation of the given sources with the self-loops, dst that of the destinations. Each gather reads its
endpoint vector after "add the number of nodes where negative", as a column; the scatter reads dst as a column, unwrapped. -/

theorem l2_wrapSrcA : val_main_v78 (F := Ideal) x1 = wrap (val_main_v3 (F := Ideal) x1) := by
  unfold val_main_v78 val_main_v75 val_main_v77 val_main_v74 val_main_v76 val_main_c_15 val_main_c_16
  exact Cert.EdgeRead.wrap_eq _ _ _

theorem l2_wrapDst : val_main_v85 (F := Ideal) x1 = wrap (val_main_v6 (F := Ideal) x1) := by
  unfold val_main_v85 val_main_v82 val_main_v84 val_main_v81 val_main_v83 val_main_c_17 val_main_c_18
  exact Cert.EdgeRead.wrap_eq _ _ _

theorem l2_wrapSrcB : val_main_v94 (F := Ideal) x1 = wrap (val_main_v3 (F := Ideal) x1) := by
  unfold val_main_v94 val_main_v91 val_main_v93 val_main_v90 val_main_v92 val_main_c_19 val_main_c_20
  exact Cert.EdgeRead.wrap_eq _ _ _

theorem l2_colSrcA : val_main_v79 (F := Ideal) x1 = col (wrap (val_main_v3 (F := Ideal) x1)) := by
  unfold val_main_v79
  rw [l2_wrapSrcA]
  exact Cert.EdgeRead.col_eq _ _

theorem l2_colDstW : val_main_v86 (F := Ideal) x1 = col (wrap (val_main_v6 (F := Ideal) x1)) := by
  unfold val_main_v86
  rw [l2_wrapDst]
  exact Cert.EdgeRead.col_eq _ _

theorem l2_colSrcB : val_main_v95 (F := Ideal) x1 = col (wrap (val_main_v3 (F := Ideal) x1)) := by
  unfold val_main_v95
  rw [l2_wrapSrcB]
  exact Cert.EdgeRead.col_eq _ _

theorem l2_colDst : val_main_v100 (F := Ideal) x1 = col (val_main_v6 (F := Ideal) x1) := by
  unfold val_main_v100
  exact Cert.EdgeRead.col_eq _ _

/-- The scatter's operand, a splat of the word 0.0, is the zero array. -/
theorem l2_zero : val_main_v99 (F := Ideal) = fun _ => (0 : EReal) := by
  unfold val_main_v99 val_main_cst_21
  exact Cert.EdgeRead.bcast_zero _

/-! ## Layer 2: the product, the messages, the convolution -/

theorem l2_lidx (i : S100000x128.Idx) (k : Fin 128) : lidx_main_v73 i k = (ix2 (i 0) k : S100000x128.Idx) :=
  funext fun a => Fin.ext (by match a with | ⟨0, _⟩ => rfl | ⟨1, _⟩ => rfl)

theorem l2_ridx (i : S100000x128.Idx) (k : Fin 128) : ridx_main_v73 i k = (ix2 k (i 1) : S128x128.Idx) :=
  funext fun a => Fin.ext (by match a with | ⟨0, _⟩ => rfl | ⟨1, _⟩ => rfl)

/-- The dot_general of the features with the weights is the plain product. -/
theorem l2_prod : val_main_v73 (F := Ideal) x0 x1 x2 x3 x4 x6 x7 x8 = Cert.RSpec.prod (val_main_v72 (F := Ideal) x0 x1 x2 x3 x6 x7 x8) x4 := by
  funext i
  rw [val_main_v73_apply]
  unfold Cert.RSpec.prod
  refine Finset.sum_congr rfl fun k _ => ?_
  rw [l2_lidx, l2_ridx]

/-- The edge of a message's row: the two column broadcasts in front of the product of the factors read row j 0. -/
theorem l2_edgeIdx (j : S900000x128.Idx) : idx_main_v89 (idx_main_v97 j) = (ix1 (j 0) : S900000.Idx) :=
  funext fun a => Fin.ext (by match a with | ⟨0, _⟩ => rfl)

/-- The messages: the source's row of the product times the product of the two endpoints' factors. -/
theorem l2_msg : val_main_v98 (F := Ideal) x0 x1 x2 x3 x4 x6 x7 x8
    = Cert.RSpec.msg (val_main_v3 (F := Ideal) x1) (val_main_v6 (F := Ideal) x1) (val_main_v16 (F := Ideal) x1) (val_main_v72 (F := Ideal) x0 x1 x2 x3 x6 x7 x8) x4 := by
  funext j
  rw [val_main_v98_apply, val_main_v97_apply, val_main_v89_apply, val_main_v88_apply, l2_edgeIdx]
  unfold val_main_v96 val_main_v80 val_main_v87
  rw [l2_colSrcB, l2_colSrcA, l2_colDstW, l2_prod, rowGather_rec, eltGather_rec, Ideal.mulf_def, Ideal.mulf_def]
  unfold Cert.RSpec.msg
  rfl

/-- The bias's two broadcasts read entry i 1. -/
theorem l2_biasIdx (i : S100000x128.Idx) : idx_main_v102 (idx_main_v103 i) = (ix1 (i 1) : S128.Idx) :=
  funext fun a => Fin.ext (by match a with | ⟨0, _⟩ => rfl)

/-- (3a) The second convolution's output is the specification's. -/
theorem conv2_eq : val_main_v104 (F := Ideal) x0 x1 x2 x3 x4 x5 x6 x7 x8
    = Cert.RSpec.conv (val_main_v3 (F := Ideal) x1) (val_main_v6 (F := Ideal) x1) (val_main_v16 (F := Ideal) x1) (val_main_v72 (F := Ideal) x0 x1 x2 x3 x6 x7 x8) x4 x5 := by
  funext i
  rw [val_main_v104_apply, val_main_v103_apply, val_main_v102_apply, l2_biasIdx]
  unfold val_main_v101 Host.scatterAdd
  rw [Ideal.hostScatterAdd_def, l2_zero, l2_colDst, l2_msg, rowScatter_rec, Ideal.addf_def]
  unfold Cert.RSpec.conv
  rfl

/-! ## Layer 2: the normalisation of a feature column, and the rectifier

Column c of the convolution's output is the function r ↦ conv (r, c) of the node. The reference sums it over the nodes,
divides by the number of nodes (the mean), subtracts the mean scale times the mean (the centred column), sums the squares
and divides (the variance), and returns max (w · centred · rsqrt (variance + ε) + β) 0. -/

theorem l2_sumIdxA (c : Fin 128) (k : Fin 100000) : idx_main_v105 (ix1 c : S128.Idx) k = (ix2 k c : S100000x128.Idx) :=
  funext fun a => Fin.ext (by match a with | ⟨0, _⟩ => rfl | ⟨1, _⟩ => rfl)

theorem l2_sumIdxB (c : Fin 128) (k : Fin 100000) : idx_main_v113 (ix1 c : S128.Idx) k = (ix2 k c : S100000x128.Idx) :=
  funext fun a => Fin.ext (by match a with | ⟨0, _⟩ => rfl | ⟨1, _⟩ => rfl)

theorem l2_rowIdxM (r : Fin 100000) (c : Fin 128) :
    idx_main_v109 (idx_main_v110 (ix2 r c : S100000x128.Idx)) = (ix1 c : S128.Idx) :=
  funext fun a => Fin.ext (by match a with | ⟨0, _⟩ => rfl)

theorem l2_rowIdxW (r : Fin 100000) (c : Fin 128) :
    idx_main_v116 (idx_main_v117 (ix2 r c : S100000x128.Idx)) = (ix1 c : S128.Idx) :=
  funext fun a => Fin.ext (by match a with | ⟨0, _⟩ => rfl)

theorem l2_rowIdxR (r : Fin 100000) (c : Fin 128) :
    idx_main_v122 (idx_main_v123 (ix2 r c : S100000x128.Idx)) = (ix1 c : S128.Idx) :=
  funext fun a => Fin.ext (by match a with | ⟨0, _⟩ => rfl)

theorem l2_rowIdxB (r : Fin 100000) (c : Fin 128) :
    idx_main_v125 (idx_main_v126 (ix2 r c : S100000x128.Idx)) = (ix1 c : S128.Idx) :=
  funext fun a => Fin.ext (by match a with | ⟨0, _⟩ => rfl)

/-- The mean of column c. -/
theorem l2_mean (c : Fin 128) : val_main_v107 (F := Ideal) x0 x1 x2 x3 x4 x5 x6 x7 x8 (ix1 c)
    = Cert.Norm.meanRef (fun r => Cert.RSpec.conv (val_main_v3 (F := Ideal) x1) (val_main_v6 (F := Ideal) x1) (val_main_v16 (F := Ideal) x1) (val_main_v72 (F := Ideal) x0 x1 x2 x3 x6 x7 x8) x4 x5 (ix2 r c)) Cert.Glue.wN := by
  rw [val_main_v107_apply, val_main_v106_apply, val_main_cst_23_apply, val_main_v105_apply, val_main_cst_22_apply,
    conv2_eq, wN_word, zero_word, Ideal.hostDivf_def]
  unfold Cert.Norm.meanRef
  refine congrArg₂ Ideal.div (congrArg (0 + ·) (Finset.sum_congr rfl fun k _ => ?_)) rfl
  rw [l2_sumIdxA]

/-- The centred column c at node r. -/
theorem l2_cen (r : Fin 100000) (c : Fin 128) : val_main_v111 (F := Ideal) x0 x1 x2 x3 x4 x5 x6 x7 x8 x11 (ix2 r c)
    = Cert.Norm.cenRef (fun r => Cert.RSpec.conv (val_main_v3 (F := Ideal) x1) (val_main_v6 (F := Ideal) x1) (val_main_v16 (F := Ideal) x1) (val_main_v72 (F := Ideal) x0 x1 x2 x3 x6 x7 x8) x4 x5 (ix2 r c)) (x11 (ix1 c)) Cert.Glue.wN r := by
  rw [val_main_v111_apply, val_main_v110_apply, val_main_v109_apply, val_main_v108_apply, l2_rowIdxM, l2_mean, conv2_eq,
    Ideal.subf_def, Ideal.mulf_def]
  unfold Cert.Norm.cenRef
  rfl

/-- The variance of column c. -/
theorem l2_var (c : Fin 128) : val_main_v115 (F := Ideal) x0 x1 x2 x3 x4 x5 x6 x7 x8 x11 (ix1 c)
    = Cert.Norm.varRef (fun r => Cert.RSpec.conv (val_main_v3 (F := Ideal) x1) (val_main_v6 (F := Ideal) x1) (val_main_v16 (F := Ideal) x1) (val_main_v72 (F := Ideal) x0 x1 x2 x3 x6 x7 x8) x4 x5 (ix2 r c)) (x11 (ix1 c)) Cert.Glue.wN := by
  rw [val_main_v115_apply, val_main_v114_apply, val_main_cst_25_apply, val_main_v113_apply, val_main_cst_24_apply,
    wN_word, zero_word, Ideal.hostDivf_def]
  unfold Cert.Norm.varRef
  refine congrArg₂ Ideal.div (congrArg (0 + ·) (Finset.sum_congr rfl fun k _ => ?_)) rfl
  rw [val_main_v112_apply, l2_sumIdxB, l2_cen, Ideal.mulf_def]

/-- The normalised, rectified entry (r, c). -/
theorem l2_out (r : Fin 100000) (c : Fin 128) : val_main_v128 (F := Ideal) x0 x1 x2 x3 x4 x5 x6 x7 x8 x9 x10 x11 (ix2 r c)
    = Cert.Norm.outRef (fun r => Cert.RSpec.conv (val_main_v3 (F := Ideal) x1) (val_main_v6 (F := Ideal) x1) (val_main_v16 (F := Ideal) x1) (val_main_v72 (F := Ideal) x0 x1 x2 x3 x6 x7 x8) x4 x5 (ix2 r c))
        (x9 (ix1 c)) (x10 (ix1 c)) (x11 (ix1 c)) Cert.Glue.wN Cert.Glue.wEps r := by
  rw [val_main_v128_apply, val_main_call2_v0_apply, val_main_call2_cst_apply, val_main_v127_apply, val_main_v126_apply,
    val_main_v125_apply, val_main_v124_apply, val_main_v123_apply, val_main_v122_apply, val_main_v121_apply,
    val_main_v120_apply, val_main_v119_apply, val_main_cst_26_apply, val_main_v118_apply, val_main_v117_apply,
    val_main_v116_apply, l2_rowIdxW, l2_rowIdxR, l2_rowIdxB, l2_var, l2_cen, wEps_word, zero_word]
  simp only [Ideal.maximumf_def, Ideal.addf_def, Ideal.mulf_def, Ideal.hostUnary_rsqrt_def]
  unfold Cert.Norm.outRef
  rfl

/-- (3b) The second layer is the specification's. -/
theorem layer2_eq : val_main_v128 (F := Ideal) x0 x1 x2 x3 x4 x5 x6 x7 x8 x9 x10 x11
    = Cert.RSpec.layer (val_main_v3 (F := Ideal) x1) (val_main_v6 (F := Ideal) x1) (val_main_v16 (F := Ideal) x1) (val_main_v72 (F := Ideal) x0 x1 x2 x3 x6 x7 x8) x4 x5 x9 x10 x11 := by
  funext i
  obtain ⟨r, c, rfl⟩ : ∃ (r : Fin 100000) (c : Fin 128), i = ix2 r c := ⟨i 0, i 1, eq_ix2 i⟩
  rw [l2_out]
  unfold Cert.RSpec.layer
  rfl

/-! ## The readout

The result is the product of (first layer + second layer) with the readout weights, plus the readout bias. -/

theorem ro_lidx (i : S100000x64.Idx) (k : Fin 128) : lidx_main_v130 i k = (ix2 (i 0) k : S100000x128.Idx) :=
  funext fun a => Fin.ext (by match a with | ⟨0, _⟩ => rfl | ⟨1, _⟩ => rfl)

theorem ro_ridx (i : S100000x64.Idx) (k : Fin 128) : ridx_main_v130 i k = (ix2 k (i 1) : S128x64.Idx) :=
  funext fun a => Fin.ext (by match a with | ⟨0, _⟩ => rfl | ⟨1, _⟩ => rfl)

theorem ro_biasIdx (i : S100000x64.Idx) : idx_main_v131 (idx_main_v132 i) = (ix1 (i 1) : S64.Idx) :=
  funext fun a => Fin.ext (by match a with | ⟨0, _⟩ => rfl)

/-- (4) The reference program's result is the specification's. -/
theorem out_read : val_main_v133 (F := Ideal) x0 x1 x2 x3 x4 x5 x6 x7 x8 x9 x10 x11 x12 x13
    = Cert.RSpec.out (val_main_v3 (F := Ideal) x1) (val_main_v6 (F := Ideal) x1) (val_main_v16 (F := Ideal) x1) x0 x2 x3 x4 x5 x6 x7 x8 x9 x10 x11 x12 x13 := by
  funext i
  rw [val_main_v133_apply, val_main_v132_apply, val_main_v131_apply, val_main_v130_apply, ro_biasIdx, Ideal.addf_def]
  unfold Cert.RSpec.out
  refine congrArg₂ (· + ·) (Finset.sum_congr rfl fun k _ => ?_) rfl
  rw [ro_lidx, ro_ridx, val_main_v129_apply, layer2_eq, layer1_eq, Ideal.addf_def]

end Cert.ReferenceIdeal.Layers

end
-- ==== Proof.RealValued.lean ====
/-
  Which extended reals are real numbers, and that the arithmetic of the two programs keeps them so:
  sums, differences, products, negations, maxima and finite sums of real numbers are real numbers, and
  so are a quotient by a nonzero real number and the reciprocal square root of a positive one. From
  these, every entry of a gathered array, of a scatter-added array and of each stage of the
  specification is a real number as soon as every entry it is computed from is one.
-/
import Idealize.ShloMosaic.PureOps.Ideal
import Idealize.ShloMosaic.PureOps.Contract
import Idealize.ShloMosaic.Lib.ValueIdx
import proofs.«172011_j7241314861683_2_alg».proof.Proof.Spec

noncomputable section

open scoped BigOperators

namespace Cert.RealValued

open Idealize.ShloMosaic Idealize.ShloMosaic.ValueIdx

/-- An extended real that is a real number: neither infinity. -/
def IsReal (x : EReal) : Prop := ∃ t : ℝ, x = (t : EReal)

/-! ## The arithmetic keeps real numbers real -/

theorem IsReal.coe (t : ℝ) : IsReal (t : EReal) := ⟨t, rfl⟩

theorem IsReal.zero : IsReal (0 : EReal) := ⟨0, EReal.coe_zero.symm⟩

theorem IsReal.one : IsReal (1 : EReal) := ⟨1, EReal.coe_one.symm⟩

/-- A non-negative real number is a real number. -/
theorem IsReal.of_nonneg {x : EReal} (h : ∃ t : ℝ, 0 ≤ t ∧ x = (t : EReal)) : IsReal x :=
  let ⟨t, _, e⟩ := h; ⟨t, e⟩

/-- A positive real number is a real number. -/
theorem IsReal.of_pos {x : EReal} (h : ∃ t : ℝ, 0 < t ∧ x = (t : EReal)) : IsReal x :=
  let ⟨t, _, e⟩ := h; ⟨t, e⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is one of them. -/
theorem IsReal.max {x y : EReal} (hx : IsReal x) (hy : IsReal y) : IsReal (Max.max x y) := by
  rcases le_total x y with h | h
  · rw [max_eq_right h]; exact hy
  · rw [max_eq_left h]; exact hx

/-- A finite sum of real numbers is a real number: the empty sum is zero and each further term adds one. -/
theorem IsReal.sum {ι : Type*} {s : Finset ι} {f : ι → EReal} (h : ∀ j ∈ s, IsReal (f j)) :
    IsReal (∑ j ∈ s, f j) :=
  Finset.sum_induction f IsReal (fun _ _ ha hb => ha.add hb) IsReal.zero h

/-- A quotient by a nonzero real number is the product with its reciprocal. -/
theorem IsReal.div_coe {x : EReal} (hx : IsReal x) {t : ℝ} (ht : t ≠ 0) : IsReal (Ideal.div x (t : EReal)) := by
  rw [Ideal.div_coe ht]
  exact hx.mul (IsReal.coe _)

/-- The same, the divisor given as a real number that is not zero. -/
theorem IsReal.div {x y : EReal} (hx : IsReal x) (hy : IsReal y) (h0 : y ≠ 0) : IsReal (Ideal.div x y) := by
  obtain ⟨t, rfl⟩ := hy
  exact hx.div_coe fun h => h0 (by subst h; exact EReal.coe_zero)

/-- The reciprocal square root of a positive real number is the reciprocal of its square root. -/
theorem IsReal.rsqrt_coe {t : ℝ} (ht : 0 < t) : IsReal (Ideal.rsqrt (t : EReal)) := by
  rw [Ideal.rsqrt_coe, if_neg (not_lt.2 ht.le), if_neg ht.ne']
  exact IsReal.coe _

/-- The same, the argument given as a positive real number. -/
theorem IsReal.rsqrt {x : EReal} (h : ∃ t : ℝ, 0 < t ∧ x = (t : EReal)) : IsReal (Ideal.rsqrt x) := by
  obtain ⟨t, ht, rfl⟩ := h
  exact IsReal.rsqrt_coe ht

/-! ## Arrays of real numbers -/

/-- Every entry of a gathered array is an entry of the operand. -/
theorem gather_isReal {s si t : Shape} {w : Nat} (dd : GatherDims s si t) (x : s.Idx → EReal) (idx : IVec si w)
    (hx : ∀ i, IsReal (x i)) (j : t.Idx) : IsReal (Host.gather dd x idx j) := by
  show IsReal (x (dd.operandIdx j idx))
  exact hx _

/-- Every entry of a scatter-added array is the operand's entry plus a finite sum of update entries. -/
theorem hostScatterAdd_isReal {s si su : Shape} (dd : ScatterDims s si su) {w : Nat} (x : s.Idx → EReal)
    (idx : IVec si w) (u : su.Idx → EReal) (hx : ∀ i, IsReal (x i)) (hu : ∀ j, IsReal (u j)) (i : s.Idx) :
    IsReal (Ideal.hostScatterAdd dd x idx u i) := by
  unfold Ideal.hostScatterAdd
  exact (hx i).add (IsReal.sum fun j _ => hu j)

/-! ## The stages of the specification -/

open Cert.Spec in
/-- A row of a product of real matrices, scaled by a real factor. -/
theorem scaledProductAt_isReal {X : SNx128.Idx → EReal} {W : S128x128.Idx → EReal} {d : SNx1.Idx → EReal}
    (hX : ∀ i, IsReal (X i)) (hW : ∀ i, IsReal (W i)) (hd : ∀ i, IsReal (d i)) (r : Fin 100000) (c : Fin 128) :
    IsReal (scaledProductAt X W d r c) := by
  unfold scaledProductAt
  exact (IsReal.sum fun k _ => (hX _).mul (hW _)).mul (hd _)

open Cert.Spec in
/-- The convolution's output from real aggregated rows, factors and bias. -/
theorem convOutAt_isReal {A : SNx128.Idx → EReal} {d : SNx1.Idx → EReal} {b : S1x128.Idx → EReal}
    (hA : ∀ i, IsReal (A i)) (hd : ∀ i, IsReal (d i)) (hb : ∀ i, IsReal (b i)) (r : Fin 100000) (c : Fin 128) :
    IsReal (convOutAt A d b r c) := by
  unfold convOutAt
  exact ((hd _).mul (hA _)).add (hb _)

open Cert.Spec in
/-- A tile's partial column sum of the convolution's output. -/
theorem partSumAt_isReal {A : SNx128.Idx → EReal} {d : SNx1.Idx → EReal} {b : S1x128.Idx → EReal}
    (hA : ∀ i, IsReal (A i)) (hd : ∀ i, IsReal (d i)) (hb : ∀ i, IsReal (b i)) (q : Fin 160) (c : Fin 128) :
    IsReal (partSumAt A d b q c) := by
  unfold partSumAt
  exact IsReal.sum fun r _ => convOutAt_isReal hA hd hb _ c

open Cert.Spec in
/-- A tile's partial column sum of the squares of the convolution's output. -/
theorem partSqAt_isReal {A : SNx128.Idx → EReal} {d : SNx1.Idx → EReal} {b : S1x128.Idx → EReal}
    (hA : ∀ i, IsReal (A i)) (hd : ∀ i, IsReal (d i)) (hb : ∀ i, IsReal (b i)) (q : Fin 160) (c : Fin 128) :
    IsReal (partSqAt A d b q c) := by
  unfold partSqAt
  exact IsReal.sum fun r _ => (convOutAt_isReal hA hd hb _ c).mul (convOutAt_isReal hA hd hb _ c)

open Cert.Spec in
/-- The normalised and rectified layer, with real scale and shift. -/
theorem normReluAt_isReal {A : SNx128.Idx → EReal} {d : SNx1.Idx → EReal} {b sc sh : S1x128.Idx → EReal}
    (hA : ∀ i, IsReal (A i)) (hd : ∀ i, IsReal (d i)) (hb : ∀ i, IsReal (b i))
    (hsc : ∀ i, IsReal (sc i)) (hsh : ∀ i, IsReal (sh i)) (r : Fin 100000) (c : Fin 128) :
    IsReal (normReluAt A d b sc sh r c) := by
  unfold normReluAt
  exact (((hsc _).mul (convOutAt_isReal hA hd hb r c)).add (hsh _)).max IsReal.zero

open Cert.Spec in
/-- The readout, with real first layer, weights and bias. -/
theorem readoutAt_isReal {A : SNx128.Idx → EReal} {d : SNx1.Idx → EReal} {b sc sh : S1x128.Idx → EReal}
    {X1 : SNx128.Idx → EReal} {Wr : S128x64.Idx → EReal} {br : S1x64.Idx → EReal}
    (hA : ∀ i, IsReal (A i)) (hd : ∀ i, IsReal (d i)) (hb : ∀ i, IsReal (b i))
    (hsc : ∀ i, IsReal (sc i)) (hsh : ∀ i, IsReal (sh i))
    (hX1 : ∀ i, IsReal (X1 i)) (hWr : ∀ i, IsReal (Wr i)) (hbr : ∀ i, IsReal (br i))
    (r : Fin 100000) (c : Fin 64) :
    IsReal (readoutAt A d b sc sh X1 Wr br r c) := by
  unfold readoutAt
  exact (IsReal.sum fun k _ =>
    ((hX1 _).add (normReluAt_isReal hA hd hb hsc hsh r k)).mul (hWr _)).add (hbr _)

end Cert.RealValued

end
-- ==== Proof.Bridge.lean ====
/-
  The factored computation and the direct one give the same result.

  Layer by layer. The convolution's outputs agree with no finiteness assumption: an edge landing on v
  carries d[v] as its third factor, and d[v], a non-negative real, comes out of the aggregate. The
  normalisations agree because every entry of that output is a real number when the arguments are
  (sums and products of reals), so that the variance may be expanded and the scale distributed. The
  first layers being equal, the second layers see the same input, and the readouts are the same sum.
-/
import proofs.«172011_j7241314861683_2_alg».proof.Proof.KernelSpec
import proofs.«172011_j7241314861683_2_alg».proof.Proof.RefSpec
import proofs.«172011_j7241314861683_2_alg».proof.Proof.NormLaw
import proofs.«172011_j7241314861683_2_alg».proof.Proof.Consts
import proofs.«172011_j7241314861683_2_alg».proof.Proof.EdgeRead
import proofs.«172011_j7241314861683_2_alg».proof.Proof.RealValued

noncomputable section

open scoped BigOperators

namespace Cert.Bridge

open Idealize.ShloMosaic Idealize.ShloMosaic.ValueIdx Cert.Spec Cert.Glue Cert.Edge

variable (src dst : IVec EdgeVec 32) (d : Cert.KSpec.NodeV.Idx → EReal)

/-! ## The convolution's outputs agree -/

/-- The pre-scaled rows: each entry of the product times its row's factor. -/
theorem scaled_eq (X : SNx128.Idx → EReal) (W : S128x128.Idx → EReal) :
    scaledProduct X W (Cert.KSpec.dcol d) = fun u => Cert.RSpec.prod X W u * d (ix1 (u 0)) := rfl

/-- The factor of the landing node comes out of the aggregate: the factored convolution's output is
    the direct one's, entry by entry, for any non-negative real factors. -/
theorem conv_eq (hd : ∀ v, ∃ r : ℝ, 0 ≤ r ∧ d v = (r : EReal))
    (X : SNx128.Idx → EReal) (W : S128x128.Idx → EReal) (b : S128.Idx → EReal) (r : Fin 100000) (q : Fin 128) :
    convOutAt (Cert.KSpec.layerAgg src dst d X W) (Cert.KSpec.dcol d) (Cert.KSpec.row128 b) r q
      = Cert.RSpec.conv src dst d X W b (ix2 r q) := by
  have key := Cert.EdgeRead.conv_law_edges (Cert.RSpec.prod X W) d hd src dst (ix2 r q)
  show d (ix1 r) * Cert.KSpec.agg src dst (scaledProduct X W (Cert.KSpec.dcol d)) (ix2 r q) + b (ix1 q)
    = Ideal.hostScatterAdd Cert.SegmentRead.rowScatter (fun _ => 0) (col dst) (Cert.RSpec.msg src dst d X W) (ix2 r q)
      + b (ix1 q)
  rw [scaled_eq]
  exact congrArg (· + b (ix1 q)) key.symm

/-! ## Every entry of the convolution's output is a real number -/

open Cert.RealValued in
/-- An entry of a product of real matrices is a finite sum of products of real numbers. -/
theorem prod_isReal {X : SNx128.Idx → EReal} {W : S128x128.Idx → EReal}
    (hX : ∀ i, IsReal (X i)) (hW : ∀ i, IsReal (W i)) (u : SNx128.Idx) : IsReal (Cert.RSpec.prod X W u) := by
  unfold Cert.RSpec.prod
  exact IsReal.sum fun k _ => (hX _).mul (hW _)

open Cert.RealValued in
/-- The direct convolution's output: real messages aggregated into zeros, plus a real bias. -/
theorem conv_isReal (hd : ∀ v, IsReal (d v)) {X : SNx128.Idx → EReal} {W : S128x128.Idx → EReal} {b : S128.Idx → EReal}
    (hX : ∀ i, IsReal (X i)) (hW : ∀ i, IsReal (W i)) (hb : ∀ i, IsReal (b i)) (i : SNx128.Idx) :
    IsReal (Cert.RSpec.conv src dst d X W b i) := by
  unfold Cert.RSpec.conv
  refine (hostScatterAdd_isReal _ _ _ _ (fun _ => IsReal.zero) (fun j => ?_) i).add (hb _)
  unfold Cert.RSpec.msg
  exact (gather_isReal _ _ _ (prod_isReal hX hW) j).mul
    ((gather_isReal _ _ _ hd _).mul (gather_isReal _ _ _ hd _))

/-! ## One layer, entry by entry -/

/-- An entry of the factored layer is the normalisation from partial sums of its feature's column of the
    convolution's output: the tables' entries are the column's tile sums, and the scale and shift rows are the
    column's scale and shift. -/
theorem kLayer_apply (X : SNx128.Idx → EReal) (W : S128x128.Idx → EReal) (b w β ms : S128.Idx → EReal)
    (r : Fin 100000) (q : Fin 128) :
    Cert.KSpec.layer src dst d X W b w β ms (ix2 r q)
      = Cert.Norm.outKer
          (fun r' => convOutAt (Cert.KSpec.layerAgg src dst d X W) (Cert.KSpec.dcol d) (Cert.KSpec.row128 b) r' q)
          (w (ix1 q)) (β (ix1 q)) (ms (ix1 q)) wN w8 w2 wEps r := rfl

/-- An entry of the direct layer is the direct normalisation of its feature's column. -/
theorem rLayer_apply (X : SNx128.Idx → EReal) (W : S128x128.Idx → EReal) (b w β ms : S128.Idx → EReal)
    (r : Fin 100000) (q : Fin 128) :
    Cert.RSpec.layer src dst d X W b w β ms (ix2 r q)
      = Cert.Norm.outRef (fun r' => Cert.RSpec.conv src dst d X W b (ix2 r' q))
          (w (ix1 q)) (β (ix1 q)) (ms (ix1 q)) wN wEps r := rfl

/-- One layer: the factored layer is the direct one, and its entries are real numbers. -/
theorem layer_eq (hd : ∀ v, ∃ r : ℝ, 0 ≤ r ∧ d v = (r : EReal))
    (X : SNx128.Idx → EReal) (W : S128x128.Idx → EReal) (b w β ms : S128.Idx → EReal)
    (hX : ∀ i, ∃ t : ℝ, X i = (t : EReal)) (hW : ∀ i, ∃ t : ℝ, W i = (t : EReal))
    (hb : ∀ i, ∃ t : ℝ, b i = (t : EReal)) (hw : ∀ i, ∃ t : ℝ, w i = (t : EReal))
    (hβ : ∀ i, ∃ t : ℝ, β i = (t : EReal)) (hms : ∀ i, ∃ t : ℝ, ms i = (t : EReal)) :
    Cert.KSpec.layer src dst d X W b w β ms = Cert.RSpec.layer src dst d X W b w β ms
      ∧ ∀ i, ∃ t : ℝ, Cert.RSpec.layer src dst d X W b w β ms i = (t : EReal) := by
  have hdR : ∀ v, Cert.RealValued.IsReal (d v) := fun v => Cert.RealValued.IsReal.of_nonneg (hd v)
  have hcol : ∀ (q : Fin 128) (r' : Fin 100000), ∃ t : ℝ, Cert.RSpec.conv src dst d X W b (ix2 r' q) = (t : EReal) :=
    fun q r' => conv_isReal src dst d hdR hX hW hb (ix2 r' q)
  refine ⟨funext fun i => ?_, fun i => ?_⟩
  · obtain ⟨r, q, rfl⟩ : ∃ (r : Fin 100000) (q : Fin 128), i = ix2 r q := ⟨i 0, i 1, eq_ix2 i⟩
    rw [kLayer_apply, rLayer_apply,
      show (fun r' => convOutAt (Cert.KSpec.layerAgg src dst d X W) (Cert.KSpec.dcol d) (Cert.KSpec.row128 b) r' q)
        = fun r' => Cert.RSpec.conv src dst d X W b (ix2 r' q) from funext fun r' => conv_eq src dst d hd X W b r' q]
    exact Cert.Norm.norm_law _ _ _ _ _ _ _ _ (hcol q) (hw _) (hβ _) (hms _)
      Cert.Consts.ofBits_100000 Cert.Consts.ofBits_8 Cert.Consts.ofBits_2 Cert.Consts.ofBits_eps r
  · obtain ⟨r, q, rfl⟩ : ∃ (r : Fin 100000) (q : Fin 128), i = ix2 r q := ⟨i 0, i 1, eq_ix2 i⟩
    rw [rLayer_apply]
    exact Cert.Norm.outRef_real _ _ _ _ _ _ (hcol q) (hw _) (hβ _) (hms _)
      Cert.Consts.ofBits_100000 Cert.Consts.ofBits_eps r

/-! ## The result -/

/-- An entry of the factored result: the second layer computed in place is the factored layer of the first. -/
theorem kOut_apply (x : SNx128.Idx → EReal) (W1 : S128x128.Idx → EReal) (b1 : S128.Idx → EReal)
    (W2 : S128x128.Idx → EReal) (b2 w1 β1 ms1 w2 β2 ms2 : S128.Idx → EReal)
    (Wr : S128x64.Idx → EReal) (br : S64.Idx → EReal) (i : SNx64.Idx) :
    Cert.KSpec.out src dst d x W1 b1 W2 b2 w1 β1 ms1 w2 β2 ms2 Wr br i
      = (∑ k : Fin 128,
          (Cert.KSpec.layer src dst d x W1 b1 w1 β1 ms1 (ix2 (i 0) k)
            + Cert.KSpec.layer src dst d (Cert.KSpec.layer src dst d x W1 b1 w1 β1 ms1) W2 b2 w2 β2 ms2 (ix2 (i 0) k))
          * Wr (ix2 k (i 1)))
        + br (ix1 (i 1)) := rfl

/-- The two results are one function of the arguments. -/
theorem out_eq (hd : ∀ v, ∃ r : ℝ, 0 ≤ r ∧ d v = (r : EReal))
    (x : SNx128.Idx → EReal) (W1 : S128x128.Idx → EReal) (b1 : S128.Idx → EReal)
    (W2 : S128x128.Idx → EReal) (b2 w1 β1 ms1 w2 β2 ms2 : S128.Idx → EReal)
    (Wr : S128x64.Idx → EReal) (br : S64.Idx → EReal)
    (hx : ∀ i, ∃ t : ℝ, x i = (t : EReal)) (hW1 : ∀ i, ∃ t : ℝ, W1 i = (t : EReal))
    (hb1 : ∀ i, ∃ t : ℝ, b1 i = (t : EReal)) (hW2 : ∀ i, ∃ t : ℝ, W2 i = (t : EReal))
    (hb2 : ∀ i, ∃ t : ℝ, b2 i = (t : EReal)) (hw1 : ∀ i, ∃ t : ℝ, w1 i = (t : EReal))
    (hβ1 : ∀ i, ∃ t : ℝ, β1 i = (t : EReal)) (hms1 : ∀ i, ∃ t : ℝ, ms1 i = (t : EReal))
    (hw2 : ∀ i, ∃ t : ℝ, w2 i = (t : EReal)) (hβ2 : ∀ i, ∃ t : ℝ, β2 i = (t : EReal))
    (hms2 : ∀ i, ∃ t : ℝ, ms2 i = (t : EReal)) :
    Cert.KSpec.out src dst d x W1 b1 W2 b2 w1 β1 ms1 w2 β2 ms2 Wr br
      = Cert.RSpec.out src dst d x W1 b1 W2 b2 w1 β1 ms1 w2 β2 ms2 Wr br := by
  obtain ⟨h1, h1R⟩ := layer_eq src dst d hd x W1 b1 w1 β1 ms1 hx hW1 hb1 hw1 hβ1 hms1
  obtain ⟨h2, -⟩ := layer_eq src dst d hd (Cert.RSpec.layer src dst d x W1 b1 w1 β1 ms1) W2 b2 w2 β2 ms2
    h1R hW2 hb2 hw2 hβ2 hms2
  funext i
  rw [kOut_apply, h1, h2]
  rfl

end Cert.Bridge

end
-- ==== Proof.FiniteInputs.lean ====
/-
  From the precondition to finiteness of the inputs. The precondition is the conjunction, over the thirteen float
  arguments x, of "every entry of |x| is strictly below +∞", each conjunct an and-reduction over all axes of the entrywise
  comparison |x| < +∞ started from 1, and it states that the conjunction is 1. On the extended reals |a| is max a (-a), and
  max a (-a) < ⊤ excludes both a = ⊤ (then max a (-a) = ⊤) and a = ⊥ (then -a = ⊤): so a is the coercion of a real number.
  Hence every entry of every float argument is a real number. The integer argument carries no condition.
-/
import proofs.«172011_j7241314861683_2_alg».proof.Defs
import proofs.«172011_j7241314861683_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The rank-0 shape has exactly one index. -/
instance : Subsingleton S_.Idx := ⟨fun a b => funext fun d => d.elim0⟩

/-- The f32 word 0x7F800000 (sign 0, exponent all ones, fraction 0) denotes +∞. -/
theorem inf_word : Ideal.ofBits .f32 0x7F800000#32 = (⊤ : EReal) := by simp [Ideal.ofBits, Ideal.ieee]

/-- An extended real whose absolute value max a (-a) is strictly below +∞ is a real number: at ⊤ the maximum is ⊤, and at
    ⊥ the negation is ⊤, so neither is strictly below ⊤. -/
theorem real_of_abs_lt (a : EReal) (h : Ideal.cmp .olt (max a (-a)) (Ideal.ofBits .f32 0x7F800000#32) = 1#1) :
    ∃ t : ℝ, a = (t : EReal) := by
  rw [inf_word] at h
  induction a using EReal.rec with
  | bot => simp [Ideal.cmp] at h
  | coe t => exact ⟨t, rfl⟩
  | top => simp [Ideal.cmp] at h

/-- One conjunct of the precondition, at any shape: if the and-reduction over all axes of the entrywise comparison
    |x| < +∞, started from 1, is 1, then every entry of x is a real number. An and-reduction that is 1 met only 1s; the
    comparison at entry i is max (x i) (-(x i)) < +∞, the broadcast scalar being +∞ at every index. -/
theorem real_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant (F := Ideal) S_ .f32 0x7F800000#32)))
          (constantI S_ 1 1#1) hr hu ix0 = 1#1) (i : s.Idx) : ∃ t : ℝ, x i = (t : EReal) :=
  real_of_abs_lt (x i) (Host.reduce_andi_all _ _ hr hu ix0 e i)

/-- The precondition, decoded: every entry of each of the thirteen float arguments is a real number. The precondition's
    value at the one index of the rank-0 result is a thirteen-fold conjunction (an `and` of one-bit words is 1 exactly
    when both are), one conjunct per float argument, each of the form `real_of_all` reads. -/
theorem of_pre (x0 : S100000x128.Idx → EReal) (x1 : S2x800000.Idx → BitVec 32) (x2 : S128x128.Idx → EReal)
    (x3 : S128.Idx → EReal) (x4 : S128x128.Idx → EReal) (x5 : S128.Idx → EReal) (x6 : S128.Idx → EReal)
    (x7 : S128.Idx → EReal) (x8 : S128.Idx → EReal) (x9 : S128.Idx → EReal) (x10 : S128.Idx → EReal)
    (x11 : S128.Idx → EReal) (x12 : S128x64.Idx → EReal) (x13 : S64.Idx → EReal)
    (h : Cert.Pre_finite_inputs.fn (F := Ideal) x0 x1 x2 x3 x4 x5 x6 x7 x8 x9 x10 x11 x12 x13 = fun _ => 1#1) :
    (∀ i, ∃ t : ℝ, x0 i = (t : EReal)) ∧ (∀ i, ∃ t : ℝ, x2 i = (t : EReal)) ∧ (∀ i, ∃ t : ℝ, x3 i = (t : EReal))
    ∧ (∀ i, ∃ t : ℝ, x4 i = (t : EReal)) ∧ (∀ i, ∃ t : ℝ, x5 i = (t : EReal)) ∧ (∀ i, ∃ t : ℝ, x6 i = (t : EReal))
    ∧ (∀ i, ∃ t : ℝ, x7 i = (t : EReal)) ∧ (∀ i, ∃ t : ℝ, x8 i = (t : EReal)) ∧ (∀ i, ∃ t : ℝ, x9 i = (t : EReal))
    ∧ (∀ i, ∃ t : ℝ, x10 i = (t : EReal)) ∧ (∀ i, ∃ t : ℝ, x11 i = (t : EReal)) ∧ (∀ i, ∃ t : ℝ, x12 i = (t : EReal))
    ∧ (∀ i, ∃ t : ℝ, x13 i = (t : EReal)) := by
  have e := congrFun h ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨⟨e0, e2⟩, e3⟩, e4⟩, e5⟩, e6⟩, e7⟩, e8⟩, e9⟩, e10⟩, e11⟩, e12⟩, e13⟩ := e
  exact ⟨real_of_all x0 _ _ _ e0, real_of_all x2 _ _ _ e2, real_of_all x3 _ _ _ e3, real_of_all x4 _ _ _ e4,
    real_of_all x5 _ _ _ e5, real_of_all x6 _ _ _ e6, real_of_all x7 _ _ _ e7, real_of_all x8 _ _ _ e8,
    real_of_all x9 _ _ _ e9, real_of_all x10 _ _ _ e10, real_of_all x11 _ _ _ e11, real_of_all x12 _ _ _ e12,
    real_of_all x13 _ _ _ e13⟩

end Cert.Finite

end
-- ==== Proof.Top.lean ====
/-
  The two runs end with the same result.

  The kernel's result buffer is the factored computation's function of the argument arrays, of the
  edge-index vectors and of the per-node factor its first host operations compute; the reference's is
  the direct computation's function of the same, its own first operations being the same operations
  on the same edge list. The per-node factor is a non-negative real, the float arguments hold real
  numbers by the precondition, and the two functions then agree.
-/
import proofs.«172011_j7241314861683_2_alg».proof.Defs
import proofs.«172011_j7241314861683_2_alg».proof.Proof.KernelChain
import proofs.«172011_j7241314861683_2_alg».proof.Proof.ResultRun
import proofs.«172011_j7241314861683_2_alg».proof.Proof.RefRunPatched
import proofs.«172011_j7241314861683_2_alg».proof.Proof.RefReadPatched
import proofs.«172011_j7241314861683_2_alg».proof.Proof.RefResultPatched
import proofs.«172011_j7241314861683_2_alg».proof.Proof.RefLayers
import proofs.«172011_j7241314861683_2_alg».proof.Proof.Bridge
import proofs.«172011_j7241314861683_2_alg».proof.Proof.FiniteInputs
import proofs.«172011_j7241314861683_2_alg».proof.Proof.Prefix
import proofs.«172011_j7241314861683_2_alg».proof.Proof.EdgeRead
import proofs.«172011_j7241314861683_2_alg».proof.Proof.SegmentRead
import proofs.«172011_j7241314861683_2_alg».proof.Proof.Gen.Pre_finite_inputs

set_option maxRecDepth 16384

noncomputable section

namespace Cert.Top

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The kernel's first host operations are the reference's, on the same edge list: the edges' sources. -/
theorem src_eq : Chain.srcK m ρ c
    = Cert.ReferenceIdeal.ReadP.val_main_v3 (F := Ideal) (m ((c : Thread nD τ).loc main_arg1)) :=
  (Prefix.main_v3_term (W0 m ρ c)).trans rfl

/-- … the edges' destinations. -/
theorem dst_eq : Chain.dstK m ρ c
    = Cert.ReferenceIdeal.ReadP.val_main_v6 (F := Ideal) (m ((c : Thread nD τ).loc main_arg1)) :=
  (Prefix.main_v6_term (W0 m ρ c)).trans rfl

/-- … and the per-node factor. -/
theorem factor_eq : Chain.dK m ρ c
    = Cert.ReferenceIdeal.ReadP.val_main_v16 (F := Ideal) (m ((c : Thread nD τ).loc main_arg1)) :=
  (Prefix.main_v16_term (W0 m ρ c)).trans rfl

/-- The per-node factor is a non-negative real number: a count of landing edges is one, and the
    factor is the reciprocal root of the larger of it and 1, or 0. -/
theorem factor_nonneg (v : Cert.KSpec.NodeV.Idx) : ∃ r : ℝ, 0 ≤ r ∧ Chain.dK m ρ c v = (r : EReal) := by
  rw [show Chain.dK m ρ c = Prefix.invSqrtDegreeOf (Prefix.dstCol (m ((c : Thread nD τ).loc main_arg1))) from Prefix.main_v16_term (W0 m ρ c)]
  refine Cert.EdgeRead.factor_vec_real _ (fun u => ?_) _ _ _ v
  rw [show Prefix.degreeOf (Prefix.dstCol (m ((c : Thread nD τ).loc main_arg1))) = _ from Cert.EdgeRead.deg_term_eq _ _ _ _]
  exact Cert.SegmentRead.count_real _ u

/-- The reference's result is the kernel's, on memories agreeing on the arguments, the kernel's holding
    finite floats. -/
theorem values_agree
    (m' : (ℓ : Loc Cert.ReferenceIdeal.nD Cert.ReferenceIdeal.τ Cert.ReferenceIdeal.sig) → Buf (Elt Ideal) ℓ)
    (hpre : Cert.Pre_KernelIdeal m)
    (hagree :
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)) :
    Cert.ReferenceIdeal.ValueP.res_main_v133 m' c = W13 m ρ c (Proc.devRef .tc main_v104) := by
  obtain ⟨e0, e1, e2, e3, e4, e5, e6, e7, e8, e9, e10, e11, e12, e13⟩ := hagree
  obtain ⟨h0, h2, h3, h4, h5, h6, h7, h8, h9, h10, h11, h12, h13⟩ :=
    Cert.Finite.of_pre _ _ _ _ _ _ _ _ _ _ _ _ _ _ (hpre c)
  rw [Chain.result_eq, Cert.ReferenceIdeal.ReadP.val_main_v133_eq, Cert.ReferenceIdeal.Layers.out_read,
    e0, e1, e2, e3, e4, e5, e6, e7, e8, e9, e10, e11, e12, e13, src_eq, dst_eq, factor_eq]
  have hd : ∀ v, ∃ r : ℝ, 0 ≤ r ∧
      Cert.ReferenceIdeal.ReadP.val_main_v16 (F := Ideal) (m ((c : Thread nD τ).loc main_arg1)) v = (r : EReal) :=
    fun v => by rw [← factor_eq m ρ c]; exact factor_nonneg m ρ c v
  exact (Cert.Bridge.out_eq _ _ _ hd _ _ _ _ _ _ _ _ _ _ _ _ _ h0 h2 h3 h4 h5 h6 h7 h8 h9 h10 h11).symm

end Cert.Top

end
-- ==== Proof.lean ====
/-
  A two-layer graph convolution with graph normalisation and a linear readout, on 100000 nodes and
  900000 edges, computed two ways.

  The kernel factors the symmetric edge weight d[src]·d[dst] into a per-node scaling before the
  aggregation and one after it, derives each layer's normalisation from per-tile partial sums, and
  fuses the second layer with the readout; the reference computes each step directly. Under finite
  float inputs the two results are equal as extended reals: the aggregation law needs only that
  d is a non-negative real, the normalisation law that every entry is a real number.

  The three frames: the kernel's two are the generated frame certificates; the reference's is its
  run with the result dropped. The idealisation rewrote nothing, so `preserves` is `True`.
-/
import proofs.«172011_j7241314861683_2_alg».proof.Defs
import proofs.«172011_j7241314861683_2_alg».proof.Proof.Gen.Kernel
import proofs.«172011_j7241314861683_2_alg».proof.Proof.Gen.Kernel.Skeleton
import proofs.«172011_j7241314861683_2_alg».proof.Proof.Gen.Kernel.Launch
import proofs.«172011_j7241314861683_2_alg».proof.Proof.Gen.Kernel.Points
import proofs.«172011_j7241314861683_2_alg».proof.Proof.Gen.Kernel.Frame
import proofs.«172011_j7241314861683_2_alg».proof.Proof.Gen.KernelIdeal
import proofs.«172011_j7241314861683_2_alg».proof.Proof.Gen.KernelIdeal.Skeleton
import proofs.«172011_j7241314861683_2_alg».proof.Proof.Gen.KernelIdeal.Launch
import proofs.«172011_j7241314861683_2_alg».proof.Proof.Gen.KernelIdeal.Points
import proofs.«172011_j7241314861683_2_alg».proof.Proof.Gen.KernelIdeal.Frame
import proofs.«172011_j7241314861683_2_alg».proof.Proof.Gen.ReferenceIdeal
import proofs.«172011_j7241314861683_2_alg».proof.Proof.Gen.Pre_finite_inputs
import proofs.«172011_j7241314861683_2_alg».proof.Proof.Top
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealised programs run, and the reference's result is the kernel's. -/
theorem algebraic : Cert.algebraic_KernelIdeal_ReferenceIdeal := by
  intro m ρ m' ρ' hpre hagree
  refine ⟨fun c => Cert.KernelIdeal.Gen.W13 m ρ c (Proc.devRef .tc Cert.KernelIdeal.main_v104),
    Cert.KernelIdeal.ResultRun.run_result m ρ, ?_⟩
  exact (θ_run Cert.ReferenceIdeal.defs _ _).mono
    (fun _ h c => ⟨(h c).1.trans (Cert.Top.values_agree m ρ c m' hpre (hagree c)), (h c).2⟩)
    (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
